-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12000x512 : Shape := ⟨2, ![12000, 512]⟩
abbrev S2x384000 : Shape := ⟨2, ![2, 384000]⟩
abbrev S512x256 : Shape := ⟨2, ![512, 256]⟩
abbrev S256 : Shape := ⟨1, ![256]⟩
abbrev S256x256 : Shape := ⟨2, ![256, 256]⟩
abbrev S256x64 : Shape := ⟨2, ![256, 64]⟩
abbrev S64 : Shape := ⟨1, ![64]⟩
abbrev S_ : Shape := ⟨0, ![]⟩

class Facts : Prop where
  bcast_S_S12000x512 : S_.BroadcastsInDim S12000x512 (![] : Fin 0 → Fin S12000x512.rank)
  reducesTo_S12000x512_S_d0_1 : S12000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S2x384000 : S_.BroadcastsInDim S2x384000 (![] : Fin 0 → Fin S2x384000.rank)
  reducesTo_S2x384000_S_d0_1 : S2x384000.ReducesTo [0, 1] S_

variable [Facts]

def fn_part2 {F : FTy → Type} [FloatOps F] (main_arg1 : IVec S2x384000 32) (main_arg8 : FVec F S256x64 .f32) (main_arg9 : FVec F S64 .f32) (main_v33 : IVec S_ 1) : IVec S_ 1 :=
  let main_v34 : FVec F S256x64 .f32 := Host.absf main_arg8
  let main_cst_12 : FVec F S_ .f32 := constant S_ .f32 0x7F800000#32
  let main_v35 : FVec F S256x64 .f32 := broadcastInDim S256x64 ![] bcast_S_S256x64 main_cst_12
  let main_v36 : IVec S256x64 1 := cmpf .olt main_v34 main_v35
  let main_c_13 : IVec S_ 1 := constantI S_ 1 1#1
  let main_v37 : IVec S_ 1 := (fun x v => Host.reduce IntOp.andi x v reducesTo_S256x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_c_16 : IVec S_ 32 := constantI S_ 32 0#32
  let main_v44 : IVec S2x384000 32 := broadcastInDim S2x384000 ![] bcast_S_S2x384000 main_c_16
  let main_v45 : IVec S2x384000 1 := cmpi .sge main_arg1 main_v44
  let main_c_17 : IVec S_ 32 := constantI S_ 32 12000#32
  let main_v46 : IVec S2x384000 32 := broadcastInDim S2x384000 ![] bcast_S_S2x384000 main_c_17
  let main_v47 : IVec S2x384000 1 := cmpi .slt main_arg1 main_v46
  let main_v48 : IVec S2x384000 1 := andi main_v45 main_v47
  let main_c_18 : IVec S_ 1 := constantI S_ 1 1#1
  let main_v49 : IVec S_ 1 := (fun x v => Host.reduce IntOp.andi x v reducesTo_S2x384000_S_d0_1 h_S_) main_v48 main_c_18
  let main_v50 : IVec S_ 1 := andi main_v43 main_v49
  main_v50

def fn_part1 {F : FTy → Type} [FloatOps F] (main_arg1 : IVec S2x384000 32) (main_arg5 : FVec F S256 .f32) (main_arg6 : FVec F S256x64 .f32) (main_arg7 : FVec F S64 .f32) (main_arg8 : FVec F S256x64 .f32) (main_arg9 : FVec F S64 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x64 .f32 := Host.absf main_arg6
  let main_cst_8 : FVec F S_ .f32 := constant S_ .f32 0x7F800000#32
  let main_v25 : FVec F S256x64 .f32 := broadcastInDim S256x64 ![] bcast_S_S256x64 main_cst_8
  let main_v26 : IVec S256x64 1 := cmpf .olt main_v24 main_v25
  let main_c_9 : IVec S_ 1 := constantI S_ 1 1#1
  let main_v27 : IVec S_ 1 := (fun x v => Host.reduce IntOp.andi x v reducesTo_S256x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_arg8 main_arg9 main_v33

def fn {F : FTy → Type} [FloatOps F] (main_arg0 : FVec F S12000x512 .f32) (main_arg1 : IVec S2x384000 32) (main_arg2 : FVec F S512x256 .f32) (main_arg3 : FVec F S256 .f32) (main_arg4 : FVec F S256x256 .f32) (main_arg5 : FVec F S256 .f32) (main_arg6 : FVec F S256x64 .f32) (main_arg7 : FVec F S64 .f32) (main_arg8 : FVec F S256x64 .f32) (main_arg9 : FVec F S64 .f32) : IVec S_ 1 :=
  let main_v0 : FVec F S12000x512 .f32 := Host.absf main_arg0
  let main_cst : FVec F S_ .f32 := constant S_ .f32 0x7F800000#32
  let main_v1 : FVec F S12000x512 .f32 := broadcastInDim S12000x512 ![] bcast_S_S12000x512 main_cst
  let main_v2 : IVec S12000x512 1 := cmpf .olt main_v0 main_v1
  let main_c : IVec S_ 1 := constantI S_ 1 1#1
  let main_v3 : IVec S_ 1 := (fun x v => Host.reduce IntOp.andi x v reducesTo_S12000x512_S_d0_1 h_S_) main_v2 main_c
  let main_v4 : FVec F S512x256 .f32 := Host.absf main_arg2
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg1 main_arg5 main_arg6 main_arg7 main_arg8 main_arg9 main_v13 main_v16
-- ==== Kernel.lean ====
abbrev S12000x512 : Shape := ⟨2, ![12000, 512]⟩
abbrev S2x384000 : Shape := ⟨2, ![2, 384000]⟩
abbrev S512x256 : Shape := ⟨2, ![512, 256]⟩
abbrev S256 : Shape := ⟨1, ![256]⟩
abbrev S256x256 : Shape := ⟨2, ![256, 256]⟩
abbrev S256x64 : Shape := ⟨2, ![256, 64]⟩
abbrev S64 : Shape := ⟨1, ![64]⟩
abbrev S12000 : Shape := ⟨1, ![12000]⟩
abbrev S1x384000 : Shape := ⟨2, ![1, 384000]⟩
abbrev S384000 : Shape := ⟨1, ![384000]⟩
abbrev S396000 : Shape := ⟨1, ![396000]⟩
abbrev S_ : Shape := ⟨0, ![]⟩
abbrev S396000x1 : Shape := ⟨2, ![396000, 1]⟩
abbrev S12000x12000 : Shape := ⟨2, ![12000, 12000]⟩
abbrev S396000x2 : Shape := ⟨2, ![396000, 2]⟩
abbrev S1x256 : Shape := ⟨2, ![1, 256]⟩
abbrev S12000x256 : Shape := ⟨2, ![12000, 256]⟩
abbrev S1200x512 : Shape := ⟨2, ![1200, 512]⟩
abbrev S1200x256 : Shape := ⟨2, ![1200, 256]⟩
abbrev S240x12000 : Shape := ⟨2, ![240, 12000]⟩
abbrev S240x256 : Shape := ⟨2, ![240, 256]⟩
abbrev S1x64 : Shape := ⟨2, ![1, 64]⟩
abbrev S12000x64 : Shape := ⟨2, ![12000, 64]⟩
abbrev S1200x64 : Shape := ⟨2, ![1200, 64]⟩
abbrev S240x64 : Shape := ⟨2, ![240, 64]⟩
abbrev S12288x64 : Shape := ⟨2, ![12288, 64]⟩
abbrev S64x12288 : Shape := ⟨2, ![64, 12288]⟩
abbrev S1x12288 : Shape := ⟨2, ![1, 12288]⟩
abbrev S12288x12288 : Shape := ⟨2, ![12288, 12288]⟩
abbrev S1024x64 : Shape := ⟨2, ![1024, 64]⟩
abbrev S64x1024 : Shape := ⟨2, ![64, 1024]⟩
abbrev S1x1024 : Shape := ⟨2, ![1, 1024]⟩
abbrev S1024x1024 : Shape := ⟨2, ![1024, 1024]⟩

abbrev nBuf : Space → Nat
  | .hbm => 108
  | .vmem => 44
  | .smem => 0
  | _ => 0

abbrev bufTy : (tb : Table) → Fin (tcTables nBuf tb) → BufTy
  | .hbm, ⟨0, _⟩ => ⟨S12000x512, .f32⟩
  | .hbm, ⟨1, _⟩ => ⟨S2x384000, .i32⟩
  | .hbm, ⟨2, _⟩ => ⟨S512x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x64, .f32⟩
  | .hbm, ⟨7, _⟩ => ⟨S64, .f32⟩
  | .hbm, ⟨8, _⟩ => ⟨S256x64, .f32⟩
  | .hbm, ⟨9, _⟩ => ⟨S64, .f32⟩
  | .hbm, ⟨10, _⟩ => ⟨S12000, .i32⟩
  | .hbm, ⟨11, _⟩ => ⟨S1x384000, .i32⟩
  | .hbm, ⟨12, _⟩ => ⟨S384000, .i32⟩
  | .hbm, ⟨13, _⟩ => ⟨S396000, .i32⟩
  | .hbm, ⟨14, _⟩ => ⟨S1x384000, .i32⟩
  | .hbm, ⟨15, _⟩ => ⟨S384000, .i32⟩
  | .hbm, ⟨16, _⟩ => ⟨S396000, .i32⟩
  | .hbm, ⟨17, _⟩ => ⟨S_, .f32⟩
  | .hbm, ⟨18, _⟩ => ⟨S396000, .f32⟩
  | .hbm, ⟨19, _⟩ => ⟨S_, .f32⟩
  | .hbm, ⟨20, _⟩ => ⟨S12000, .f32⟩
  | .hbm, ⟨21, _⟩ => ⟨S396000x1, .i32⟩
  | .hbm, ⟨22, _⟩ => ⟨S12000, .f32⟩
  | .hbm, ⟨23, _⟩ => ⟨S_, .f32⟩
  | .hbm, ⟨24, _⟩ => ⟨S12000, .f32⟩
  | .hbm, ⟨25, _⟩ => ⟨S12000, .i1⟩
  | .hbm, ⟨26, _⟩ => ⟨S_, .f32⟩
  | .hbm, ⟨27, _⟩ => ⟨S12000, .f32⟩
  | .hbm, ⟨28, _⟩ => ⟨S12000, .f32⟩
  | .hbm, ⟨29, _⟩ => ⟨S12000, .f32⟩
  | .hbm, ⟨30, _⟩ => ⟨S_, .f32⟩
  | .hbm, ⟨31, _⟩ => ⟨S_, .f32⟩
  | .hbm, ⟨32, _⟩ => ⟨S12000, .f32⟩
  | .hbm, ⟨33, _⟩ => ⟨S12000, .f32⟩
  | .hbm, ⟨34, _⟩ => ⟨S_, .i32⟩
  | .hbm, ⟨35, _⟩ => ⟨S396000, .i32⟩
  | .hbm, ⟨36, _⟩ => ⟨S396000, .i1⟩
  | .hbm, ⟨37, _⟩ => ⟨S_, .i32⟩
  | .hbm, ⟨38, _⟩ => ⟨S396000, .i32⟩
  | .hbm, ⟨39, _⟩ => ⟨S396000, .i32⟩
  | .hbm, ⟨40, _⟩ => ⟨S396000, .i32⟩
  | .hbm, ⟨41, _⟩ => ⟨S396000x1, .i32⟩
  | .hbm, ⟨42, _⟩ => ⟨S396000, .f32⟩
  | .hbm, ⟨43, _⟩ => ⟨S_, .i32⟩
  | .hbm, ⟨44, _⟩ => ⟨S396000, .i32⟩
  | .hbm, ⟨45, _⟩ => ⟨S396000, .i1⟩
  | .hbm, ⟨46, _⟩ => ⟨S_, .i32⟩
  | .hbm, ⟨47, _⟩ => ⟨S396000, .i32⟩
  | .hbm, ⟨48, _⟩ => ⟨S396000, .i32⟩
  | .hbm, ⟨49, _⟩ => ⟨S396000, .i32⟩
  | .hbm, ⟨50, _⟩ => ⟨S396000x1, .i32⟩
  | .hbm, ⟨51, _⟩ => ⟨S396000, .f32⟩
  | .hbm, ⟨52, _⟩ => ⟨S396000, .f32⟩
  | .hbm, ⟨53, _⟩ => ⟨S_, .f32⟩
  | .hbm, ⟨54, _⟩ => ⟨S12000x12000, .f32⟩
  | .hbm, ⟨55, _⟩ => ⟨S_, .i32⟩
  | .hbm, ⟨56, _⟩ => ⟨S396000, .i32⟩
  | .hbm, ⟨57, _⟩ => ⟨S396000, .i1⟩
  | .hbm, ⟨58, _⟩ => ⟨S_, .i32⟩
  | .hbm, ⟨59, _⟩ => ⟨S396000, .i32⟩
  | .hbm, ⟨60, _⟩ => ⟨S396000, .i32⟩
  | .hbm, ⟨61, _⟩ => ⟨S396000, .i32⟩
  | .hbm, ⟨62, _⟩ => ⟨S_, .i32⟩
  | .hbm, ⟨63, _⟩ => ⟨S396000, .i32⟩
  | .hbm, ⟨64, _⟩ => ⟨S396000, .i1⟩
  | .hbm, ⟨65, _⟩ => ⟨S_, .i32⟩
  | .hbm, ⟨66, _⟩ => ⟨S396000, .i32⟩
  | .hbm, ⟨67, _⟩ => ⟨S396000, .i32⟩
  | .hbm, ⟨68, _⟩ => ⟨S396000, .i32⟩
  | .hbm, ⟨69, _⟩ => ⟨S396000x1, .i32⟩
  | .hbm, ⟨70, _⟩ => ⟨S396000x1, .i32⟩
  | .hbm, ⟨71, _⟩ => ⟨S396000x2, .i32⟩
  | .hbm, ⟨72, _⟩ => ⟨S12000x12000, .f32⟩
  | .hbm, ⟨73, _⟩ => ⟨S12000x12000, .bf16⟩
  | .hbm, ⟨74, _⟩ => ⟨S_, .f32⟩
  | .hbm, ⟨75, _⟩ => ⟨S1x256, .f32⟩
  | .hbm, ⟨76, _⟩ => ⟨S12000x512, .bf16⟩
  | .hbm, ⟨77, _⟩ => ⟨S512x256, .bf16⟩
  | .hbm, ⟨78, _⟩ => ⟨S12000x256, .f32⟩
  | .hbm, ⟨79, _⟩ => ⟨S1x256, .f32⟩
  | .hbm, ⟨80, _⟩ => ⟨S12000x256, .bf16⟩
  | .hbm, ⟨81, _⟩ => ⟨S12000x256, .f32⟩
  | .hbm, ⟨82, _⟩ => ⟨S_, .f32⟩
  | .hbm, ⟨83, _⟩ => ⟨S1x256, .f32⟩
  | .hbm, ⟨84, _⟩ => ⟨S12000x256, .bf16⟩
  | .hbm, ⟨85, _⟩ => ⟨S256x256, .bf16⟩
  | .hbm, ⟨86, _⟩ => ⟨S12000x256, .f32⟩
  | .hbm, ⟨87, _⟩ => ⟨S1x256, .f32⟩
  | .hbm, ⟨88, _⟩ => ⟨S12000x256, .bf16⟩
  | .hbm, ⟨89, _⟩ => ⟨S12000x256, .f32⟩
  | .hbm, ⟨90, _⟩ => ⟨S_, .f32⟩
  | .hbm, ⟨91, _⟩ => ⟨S1x64, .f32⟩
  | .hbm, ⟨92, _⟩ => ⟨S12000x256, .bf16⟩
  | .hbm, ⟨93, _⟩ => ⟨S256x64, .bf16⟩
  | .hbm, ⟨94, _⟩ => ⟨S12000x64, .f32⟩
  | .hbm, ⟨95, _⟩ => ⟨S1x64, .f32⟩
  | .hbm, ⟨96, _⟩ => ⟨S12000x64, .bf16⟩
  | .hbm, ⟨97, _⟩ => ⟨S12000x64, .f32⟩
  | .hbm, ⟨98, _⟩ => ⟨S_, .i32⟩
  | .hbm, ⟨99, _⟩ => ⟨S_, .f32⟩
  | .hbm, ⟨100, _⟩ => ⟨S12288x64, .f32⟩
  | .hbm, ⟨101, _⟩ => ⟨S64x12288, .f32⟩
  | .hbm, ⟨102, _⟩ => ⟨S_, .f32⟩
  | .hbm, ⟨103, _⟩ => ⟨S1x12288, .f32⟩
  | .hbm, ⟨104, _⟩ => ⟨S12288x64, .bf16⟩
  | .hbm, ⟨105, _⟩ => ⟨S64x12288, .bf16⟩
  | .hbm, ⟨106, _⟩ => ⟨S12288x12288, .f32⟩
  | .hbm, ⟨107, _⟩ => ⟨S12000x12000, .f32⟩
  | .local _ .vmem, ⟨0, _⟩ => ⟨S1200x512, .bf16⟩
  | .local _ .vmem, ⟨1, _⟩ => ⟨S1200x512, .bf16⟩
  | .local _ .vmem, ⟨2, _⟩ => ⟨S512x256, .bf16⟩
  | .local _ .vmem, ⟨3, _⟩ => ⟨S1x256, .f32⟩
  | .local _ .vmem, ⟨4, _⟩ => ⟨S1200x256, .f32⟩
  | .local _ .vmem, ⟨5, _⟩ => ⟨S1200x256, .f32⟩
  | .local _ .vmem, ⟨6, _⟩ => ⟨S240x12000, .bf16⟩
  | .local _ .vmem, ⟨7, _⟩ => ⟨S240x12000, .bf16⟩
  | .local _ .vmem, ⟨8, _⟩ => ⟨S12000x256, .bf16⟩
  | .local _ .vmem, ⟨9, _⟩ => ⟨S1x256, .f32⟩
  | .local _ .vmem, ⟨10, _⟩ => ⟨S240x256, .f32⟩
  | .local _ .vmem, ⟨11, _⟩ => ⟨S240x256, .f32⟩
  | .local _ .vmem, ⟨12, _⟩ => ⟨S1200x256, .bf16⟩
  | .local _ .vmem, ⟨13, _⟩ => ⟨S1200x256, .bf16⟩
  | .local _ .vmem, ⟨14, _⟩ => ⟨S256x256, .bf16⟩
  | .local _ .vmem, ⟨15, _⟩ => ⟨S1x256, .f32⟩
  | .local _ .vmem, ⟨16, _⟩ => ⟨S1200x256, .f32⟩
  | .local _ .vmem, ⟨17, _⟩ => ⟨S1200x256, .f32⟩
  | .local _ .vmem, ⟨18, _⟩ => ⟨S240x12000, .bf16⟩
  | .local _ .vmem, ⟨19, _⟩ => ⟨S240x12000, .bf16⟩
  | .local _ .vmem, ⟨20, _⟩ => ⟨S12000x256, .bf16⟩
  | .local _ .vmem, ⟨21, _⟩ => ⟨S1x256, .f32⟩
  | .local _ .vmem, ⟨22, _⟩ => ⟨S240x256, .f32⟩
  | .local _ .vmem, ⟨23, _⟩ => ⟨S240x256, .f32⟩
  | .local _ .vmem, ⟨24, _⟩ => ⟨S1200x256, .bf16⟩
  | .local _ .vmem, ⟨25, _⟩ => ⟨S1200x256, .bf16⟩
  | .local _ .vmem, ⟨26, _⟩ => ⟨S256x64, .bf16⟩
  | .local _ .vmem, ⟨27, _⟩ => ⟨S1x64, .f32⟩
  | .local _ .vmem, ⟨28, _⟩ => ⟨S1200x64, .f32⟩
  | .local _ .vmem, ⟨29, _⟩ => ⟨S1200x64, .f32⟩
  | .local _ .vmem, ⟨30, _⟩ => ⟨S240x12000, .bf16⟩
  | .local _ .vmem, ⟨31, _⟩ => ⟨S240x12000, .bf16⟩
  | .local _ .vmem, ⟨32, _⟩ => ⟨S12000x64, .bf16⟩
  | .local _ .vmem, ⟨33, _⟩ => ⟨S1x64, .f32⟩
  | .local _ .vmem, ⟨34, _⟩ => ⟨S240x64, .f32⟩
  | .local _ .vmem, ⟨35, _⟩ => ⟨S240x64, .f32⟩
  | .local _ .vmem, ⟨36, _⟩ => ⟨S1024x64, .bf16⟩
  | .local _ .vmem, ⟨37, _⟩ => ⟨S1024x64, .bf16⟩
  | .local _ .vmem, ⟨38, _⟩ => ⟨S64x1024, .bf16⟩
  | .local _ .vmem, ⟨39, _⟩ => ⟨S64x1024, .bf16⟩
  | .local _ .vmem, ⟨40, _⟩ => ⟨S1x1024, .f32⟩
  | .local _ .vmem, ⟨41, _⟩ => ⟨S1x1024, .f32⟩
  | .local _ .vmem, ⟨42, _⟩ => ⟨S1024x1024, .f32⟩
  | .local _ .vmem, ⟨43, _⟩ => ⟨S1024x1024, .f32⟩
  | _, _ => ⟨S12000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_7 : Ref sig .tc := ⟨.hbm, 53, rfl⟩
abbrev main_v32 : Ref sig .tc := ⟨.hbm, 54, rfl⟩
abbrev main_c_8 : Ref sig .tc := ⟨.hbm, 55, rfl⟩
abbrev main_v33 : Ref sig .tc := ⟨.hbm, 56, rfl⟩
abbrev main_v34 : Ref sig .tc := ⟨.hbm, 57, rfl⟩
abbrev main_c_9 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_c_10 : Ref sig .tc := ⟨.hbm, 62, rfl⟩
abbrev main_v38 : Ref sig .tc := ⟨.hbm, 63, rfl⟩
abbrev main_v39 : Ref sig .tc := ⟨.hbm, 64, rfl⟩
abbrev main_c_11 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_12 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_13 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_c_15 : Ref sig .tc := ⟨.hbm, 98, rfl⟩
abbrev main_call1_v0 : Ref sig .tc := ⟨.hbm, 99, rfl⟩
abbrev main_v69 : Ref sig .tc := ⟨.hbm, 100, rfl⟩
abbrev main_v70 : Ref sig .tc := ⟨.hbm, 101, rfl⟩
abbrev main_cst_16 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg3_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg1_1 : Ref sig .tc := ⟨.vmem, 39, rfl⟩
abbrev cc6_stg2_0 : Ref sig .tc := ⟨.vmem, 40, rfl⟩
abbrev cc6_stg2_1 : Ref sig .tc := ⟨.vmem, 41, rfl⟩
abbrev cc6_stg3_0 : Ref sig .tc := ⟨.vmem, 42, rfl⟩
abbrev cc6_stg3_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29
abbrev cc5_sem0_0 : DmaSem sig := 30
abbrev cc5_sem0_1 : DmaSem sig := 31
abbrev cc5_sem1_0 : DmaSem sig := 32
abbrev cc5_sem2_0 : DmaSem sig := 33
abbrev cc5_sem3_0 : DmaSem sig := 34
abbrev cc5_sem3_1 : DmaSem sig := 35
abbrev cc6_sem0_0 : DmaSem sig := 36
abbrev cc6_sem0_1 : DmaSem sig := 37
abbrev cc6_sem1_0 : DmaSem sig := 38
abbrev cc6_sem1_1 : DmaSem sig := 39
abbrev cc6_sem2_0 : DmaSem sig := 40
abbrev cc6_sem2_1 : DmaSem sig := 41
abbrev cc6_sem3_0 : DmaSem sig := 42
abbrev cc6_sem3_1 : DmaSem sig := 43

abbrev nD : Nat := 1
abbrev τ : Topo := Topo.v7x

variable {F : FTy → Type} [FloatOps F]

abbrev grid0 : Pipeline.Grid := ⟨2, ![10, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1200x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1200x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![50, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S240x12000 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S12000x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, true]

abbrev stage1_3 : Fin 2 → Memref sig .tc .vmem S240x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![10, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1200x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S256x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, true]

abbrev stage2_3 : Fin 2 → Memref sig .tc .vmem S1200x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨2, ![50, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S240x12000 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 1 → Memref sig .tc .vmem S12000x256 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, true]

abbrev stage3_3 : Fin 2 → Memref sig .tc .vmem S240x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev grid4 : Pipeline.Grid := ⟨2, ![10, 1], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S1200x256 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 1 → Memref sig .tc .vmem S256x64 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, true]

abbrev stage4_3 : Fin 2 → Memref sig .tc .vmem S1200x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev grid5 : Pipeline.Grid := ⟨2, ![50, 1], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S240x12000 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 1 → Memref sig .tc .vmem S12000x64 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false, true]

abbrev stage5_3 : Fin 2 → Memref sig .tc .vmem S240x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true]

abbrev grid6 : Pipeline.Grid := ⟨2, ![12, 12], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_3 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage6_0 : Fin 2 → Memref sig .tc .vmem S1024x64 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false]

abbrev stage6_1 : Fin 2 → Memref sig .tc .vmem S64x1024 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 2 → Memref sig .tc .vmem S1x1024 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![false, true]

abbrev stage6_3 : Fin 2 → Memref sig .tc .vmem S1024x1024 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, true]

class Facts₀ : Prop where
  slices_S2x384000_S1x384000_0_0 : S2x384000.Slices ![0, 0] S1x384000
  shapeCasts_S1x384000_S384000 : S1x384000.ShapeCasts S384000
  concatenates_S384000_S12000_S396000_d0 : Shape.Concatenates [S384000, S12000] S396000 0
  slices_S2x384000_S1x384000_1_0 : S2x384000.Slices ![1, 0] S1x384000
  bcast_S_S396000 : S_.BroadcastsInDim S396000 (![] : Fin 0 → Fin S396000.rank)
  bcast_S_S12000 : S_.BroadcastsInDim S12000 (![] : Fin 0 → Fin S12000.rank)
  bcast_S396000_S396000x1_0 : S396000.BroadcastsInDim S396000x1 (![0] : Fin 1 → Fin S396000x1.rank)
  bcast_S_S12000x12000 : S_.BroadcastsInDim S12000x12000 (![] : Fin 0 → Fin S12000x12000.rank)
  concatenates_S396000x1_S396000x1_S396000x2_d1 : Shape.Concatenates [S396000x1, S396000x1] S396000x2 1
  bitsLt_bf16_f32 : FTy.bits .bf16 < FTy.bits .f32
  bcast_S_S1x256 : S_.BroadcastsInDim S1x256 (![] : Fin 0 → Fin S1x256.rank)
  inb_S1200x512_S1200x512_0_0 : ∀ a, (![0, 0] : Fin 2 → Nat) a + S1200x512.size a ≤ S1200x512.size a
  h_S1200x512 : 0 < S1200x512.numel
  shapeCasts_S1200x512_S1200x512 : S1200x512.ShapeCasts S1200x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1200x256 : S1x256.Broadcasts S1200x256
  inb_S1200x256_S1200x256_0_0 : ∀ a, (![0, 0] : Fin 2 → Nat) a + S1200x256.size a ≤ S1200x256.size a
  h_S1200x256 : 0 < S1200x256.numel
  shapeCasts_S256_S1x256 : S256.ShapeCasts S1x256
  inb_S240x12000_S240x12000_0_0 : ∀ a, (![0, 0] : Fin 2 → Nat) a + S240x12000.size a ≤ S240x12000.size a
  h_S240x12000 : 0 < S240x12000.numel
  shapeCasts_S240x12000_S240x12000 : S240x12000.ShapeCasts S240x12000
  inb_S12000x256_S12000x256_0_0 : ∀ a, (![0, 0] : Fin 2 → Nat) a + S12000x256.size a ≤ S12000x256.size a
  h_S12000x256 : 0 < S12000x256.numel
  shapeCasts_S12000x256_S12000x256 : S12000x256.ShapeCasts S12000x256
  broadcasts_S1x256_S240x256 : S1x256.Broadcasts S240x256
  inb_S240x256_S240x256_0_0 : ∀ a, (![0, 0] : Fin 2 → Nat) a + S240x256.size a ≤ S240x256.size a
  h_S240x256 : 0 < S240x256.numel
  shapeCasts_S1200x256_S1200x256 : S1200x256.ShapeCasts S1200x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  bcast_S_S1x64 : S_.BroadcastsInDim S1x64 (![] : Fin 0 → Fin S1x64.rank)
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1200x64 : S1x64.Broadcasts S1200x64
  inb_S1200x64_S1200x64_0_0 : ∀ a, (![0, 0] : Fin 2 → Nat) a + S1200x64.size a ≤ S1200x64.size a
  h_S1200x64 : 0 < S1200x64.numel
  shapeCasts_S64_S1x64 : S64.ShapeCasts S1x64
  inb_S12000x64_S12000x64_0_0 : ∀ a, (![0, 0] : Fin 2 → Nat) a + S12000x64.size a ≤ S12000x64.size a
  h_S12000x64 : 0 < S12000x64.numel
  shapeCasts_S12000x64_S12000x64 : S12000x64.ShapeCasts S12000x64
  broadcasts_S1x64_S240x64 : S1x64.Broadcasts S240x64
  inb_S240x64_S240x64_0_0 : ∀ a, (![0, 0] : Fin 2 → Nat) a + S240x64.size a ≤ S240x64.size a
  h_S240x64 : 0 < S240x64.numel
  pads_S12000x64_S12288x64_02880_000 : S12000x64.Pads (![0, 0] : Fin 2 → Nat) ![288, 0] ![0, 0] S12288x64
  h_S_ : 0 < S_.numel
  transposes_S12288x64_S64x12288_1_0 : S12288x64.Transposes [1, 0] S64x12288
  bcast_S_S1x12288 : S_.BroadcastsInDim S1x12288 (![] : Fin 0 → Fin S1x12288.rank)
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  slices_S12288x12288_S12000x12000_0_0 : S12288x12288.Slices ![0, 0] S12000x12000
  scatter_S12000_S396000x1_S396000_n_0_0_1_wf : ScatterDims.WF S12000 S396000x1 S396000 [] [0] [0] 1
  gather_S12000_S396000x1_S396000_n_0_n_n_0_1_1_wf : GatherDims.WF S12000 S396000x1 S396000 [] [0] [] [0] [] 1 ![1]
  scatter_S12000x12000_S396000x2_S396000_n_01_01_1_wf : ScatterDims.WF S12000x12000 S396000x2 S396000 [] [0, 1] [0, 1] 1
  dot_S1200x512_S512x256_S1200x256_1_0_0_1_n_n_wf : DotDims.WF S1200x512 S512x256 S1200x256 [1] [0] [0] [1] [] []
  dot_S240x12000_S12000x256_S240x256_1_0_0_1_n_n_wf : DotDims.WF S240x12000 S12000x256 S240x256 [1] [0] [0] [1] [] []
  dot_S1200x256_S256x256_S1200x256_1_0_0_1_n_n_wf : DotDims.WF S1200x256 S256x256 S1200x256 [1] [0] [0] [1] [] []
  dot_S1200x256_S256x64_S1200x64_1_0_0_1_n_n_wf : DotDims.WF S1200x256 S256x64 S1200x64 [1] [0] [0] [1] [] []
  dot_S240x12000_S12000x64_S240x64_1_0_0_1_n_n_wf : DotDims.WF S240x12000 S12000x64 S240x64 [1] [0] [0] [1] [] []
  dot_S1024x64_S64x1024_S1024x1024_1_0_0_1_n_n_wf : DotDims.WF S1024x64 S64x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1200x512.size a ≤ S12000x512.size a
  hwx0_0 : ∀ i : grid0.Coords, EltTy.bits .bf16 = 32 ∨ (Rect.block (s := S12000x512) S1200x512.size (cc0_transform_0 i) (hinb0_0 i)).WholeWords (EltTy.packing .bf16)
  hstage0_1 : ∀ j, (stage0_1 j).IsWhole
  nbuf0_1 : grid0.bufCount reads0_1 false = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .bf16 = 32 ∨ (Rect.block (s := S512x256) S512x256.size (cc0_transform_1 i) (hinb0_1 i)).WholeWords (EltTy.packing .bf16)
  hstage0_2 : ∀ j, (stage0_2 j).IsWhole
  nbuf0_2 : grid0.bufCount reads0_2 false = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1200x256.size a ≤ S12000x256.size a
  hwx0_3 : ∀ i : grid0.Coords, EltTy.bits .f32 = 32 ∨ (Rect.block (s := S12000x256) S1200x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S240x12000.size a ≤ S12000x12000.size a
  hwx1_0 : ∀ i : grid1.Coords, EltTy.bits .bf16 = 32 ∨ (Rect.block (s := S12000x12000) S240x12000.size (cc1_transform_0 i) (hinb1_0 i)).WholeWords (EltTy.packing .bf16)
  hstage1_1 : ∀ j, (stage1_1 j).IsWhole
  nbuf1_1 : grid1.bufCount reads1_1 false = 1
  hreads1_1 : ∀ i i' : grid1.Coords, (∀ a, reads1_1 a = true → i a = i' a) → cc1_transform_1 i = cc1_transform_1 i'
  hinb1_1 : ∀ (i : grid1.Coords) a, (cc1_transform_1 i a + 1) * S12000x256.size a ≤ S12000x256.size a
  hwx1_1 : ∀ i : grid1.Coords, EltTy.bits .bf16 = 32 ∨ (Rect.block (s := S12000x256) S12000x256.size (cc1_transform_1 i) (hinb1_1 i)).WholeWords (EltTy.packing .bf16)
  hstage1_2 : ∀ j, (stage1_2 j).IsWhole
  nbuf1_2 : grid1.bufCount reads1_2 false = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S240x256.size a ≤ S12000x256.size a
  hwx1_3 : ∀ i : grid1.Coords, EltTy.bits .f32 = 32 ∨ (Rect.block (s := S12000x256) S240x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1200x256.size a ≤ S12000x256.size a
  hwx2_0 : ∀ i : grid2.Coords, EltTy.bits .bf16 = 32 ∨ (Rect.block (s := S12000x256) S1200x256.size (cc2_transform_0 i) (hinb2_0 i)).WholeWords (EltTy.packing .bf16)
  hstage2_1 : ∀ j, (stage2_1 j).IsWhole
  nbuf2_1 : grid2.bufCount reads2_1 false = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .bf16 = 32 ∨ (Rect.block (s := S256x256) S256x256.size (cc2_transform_1 i) (hinb2_1 i)).WholeWords (EltTy.packing .bf16)
  hstage2_2 : ∀ j, (stage2_2 j).IsWhole
  nbuf2_2 : grid2.bufCount reads2_2 false = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1200x256.size a ≤ S12000x256.size a
  hwx2_3 : ∀ i : grid2.Coords, EltTy.bits .f32 = 32 ∨ (Rect.block (s := S12000x256) S1200x256.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S240x12000.size a ≤ S12000x12000.size a
  hwx3_0 : ∀ i : grid3.Coords, EltTy.bits .bf16 = 32 ∨ (Rect.block (s := S12000x12000) S240x12000.size (cc3_transform_0 i) (hinb3_0 i)).WholeWords (EltTy.packing .bf16)
  hstage3_1 : ∀ j, (stage3_1 j).IsWhole
  nbuf3_1 : grid3.bufCount reads3_1 false = 1
  hreads3_1 : ∀ i i' : grid3.Coords, (∀ a, reads3_1 a = true → i a = i' a) → cc3_transform_1 i = cc3_transform_1 i'
  hinb3_1 : ∀ (i : grid3.Coords) a, (cc3_transform_1 i a + 1) * S12000x256.size a ≤ S12000x256.size a
  hwx3_1 : ∀ i : grid3.Coords, EltTy.bits .bf16 = 32 ∨ (Rect.block (s := S12000x256) S12000x256.size (cc3_transform_1 i) (hinb3_1 i)).WholeWords (EltTy.packing .bf16)
  hstage3_2 : ∀ j, (stage3_2 j).IsWhole
  nbuf3_2 : grid3.bufCount reads3_2 false = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S240x256.size a ≤ S12000x256.size a
  hwx3_3 : ∀ i : grid3.Coords, EltTy.bits .f32 = 32 ∨ (Rect.block (s := S12000x256) S240x256.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1200x256.size a ≤ S12000x256.size a
  hwx4_0 : ∀ i : grid4.Coords, EltTy.bits .bf16 = 32 ∨ (Rect.block (s := S12000x256) S1200x256.size (cc4_transform_0 i) (hinb4_0 i)).WholeWords (EltTy.packing .bf16)
  hstage4_1 : ∀ j, (stage4_1 j).IsWhole
  nbuf4_1 : grid4.bufCount reads4_1 false = 1
  hreads4_1 : ∀ i i' : grid4.Coords, (∀ a, reads4_1 a = true → i a = i' a) → cc4_transform_1 i = cc4_transform_1 i'
  hinb4_1 : ∀ (i : grid4.Coords) a, (cc4_transform_1 i a + 1) * S256x64.size a ≤ S256x64.size a
  hwx4_1 : ∀ i : grid4.Coords, EltTy.bits .bf16 = 32 ∨ (Rect.block (s := S256x64) S256x64.size (cc4_transform_1 i) (hinb4_1 i)).WholeWords (EltTy.packing .bf16)
  hstage4_2 : ∀ j, (stage4_2 j).IsWhole
  nbuf4_2 : grid4.bufCount reads4_2 false = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1200x64.size a ≤ S12000x64.size a
  hwx4_3 : ∀ i : grid4.Coords, EltTy.bits .f32 = 32 ∨ (Rect.block (s := S12000x64) S1200x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S240x12000.size a ≤ S12000x12000.size a
  hwx5_0 : ∀ i : grid5.Coords, EltTy.bits .bf16 = 32 ∨ (Rect.block (s := S12000x12000) S240x12000.size (cc5_transform_0 i) (hinb5_0 i)).WholeWords (EltTy.packing .bf16)
  hstage5_1 : ∀ j, (stage5_1 j).IsWhole
  nbuf5_1 : grid5.bufCount reads5_1 false = 1
  hreads5_1 : ∀ i i' : grid5.Coords, (∀ a, reads5_1 a = true → i a = i' a) → cc5_transform_1 i = cc5_transform_1 i'
  hinb5_1 : ∀ (i : grid5.Coords) a, (cc5_transform_1 i a + 1) * S12000x64.size a ≤ S12000x64.size a
  hwx5_1 : ∀ i : grid5.Coords, EltTy.bits .bf16 = 32 ∨ (Rect.block (s := S12000x64) S12000x64.size (cc5_transform_1 i) (hinb5_1 i)).WholeWords (EltTy.packing .bf16)
  hstage5_2 : ∀ j, (stage5_2 j).IsWhole
  nbuf5_2 : grid5.bufCount reads5_2 false = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S240x64.size a ≤ S12000x64.size a
  hwx5_3 : ∀ i : grid5.Coords, EltTy.bits .f32 = 32 ∨ (Rect.block (s := S12000x64) S240x64.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1024x64.size a ≤ S12288x64.size a
  hwx6_0 : ∀ i : grid6.Coords, EltTy.bits .bf16 = 32 ∨ (Rect.block (s := S12288x64) S1024x64.size (cc6_transform_0 i) (hinb6_0 i)).WholeWords (EltTy.packing .bf16)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S64x1024.size a ≤ S64x12288.size a
  hwx6_1 : ∀ i : grid6.Coords, EltTy.bits .bf16 = 32 ∨ (Rect.block (s := S64x12288) S64x1024.size (cc6_transform_1 i) (hinb6_1 i)).WholeWords (EltTy.packing .bf16)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1x1024.size a ≤ S1x12288.size a
  hwx6_2 : ∀ i : grid6.Coords, EltTy.bits .f32 = 32 ∨ (Rect.block (s := S1x12288) S1x1024.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S1024x1024.size a ≤ S12288x12288.size a
  hwx6_3 : ∀ i : grid6.Coords, EltTy.bits .f32 = 32 ∨ (Rect.block (s := S12288x12288) S1024x1024.size (cc6_transform_3 i) (hinb6_3 i)).WholeWords (EltTy.packing .f32)

variable [Facts₀]

def scatter_S12000_S396000x1_S396000_n_0_0_1 : ScatterDims S12000 S396000x1 S396000 where
  updateWindowDims := []
  insertedWindowDims := [0]
  scatterDimsToOperandDims := [0]
  indexVectorDim := 1
  wf := scatter_S12000_S396000x1_S396000_n_0_0_1_wf
def gather_S12000_S396000x1_S396000_n_0_n_n_0_1_1 : GatherDims S12000 S396000x1 S396000 where
  offsetDims := []
  collapsedSliceDims := [0]
  operandBatchingDims := []
  startIndicesBatchingDims := []
  startIndexMap := [0]
  indexVectorDim := 1
  sliceSizes := ![1]
  wf := gather_S12000_S396000x1_S396000_n_0_n_n_0_1_1_wf
def scatter_S12000x12000_S396000x2_S396000_n_01_01_1 : ScatterDims S12000x12000 S396000x2 S396000 where
  updateWindowDims := []
  insertedWindowDims := [0, 1]
  scatterDimsToOperandDims := [0, 1]
  indexVectorDim := 1
  wf := scatter_S12000x12000_S396000x2_S396000_n_01_01_1_wf
def dot_S1200x512_S512x256_S1200x256_1_0_0_1_n_n : DotDims S1200x512 S512x256 S1200x256 where
  lhsContracting := [1]
  rhsContracting := [0]
  lhsNonContracting := [0]
  rhsNonContracting := [1]
  lhsBatch := []
  rhsBatch := []
  wf := dot_S1200x512_S512x256_S1200x256_1_0_0_1_n_n_wf
def dot_S240x12000_S12000x256_S240x256_1_0_0_1_n_n : DotDims S240x12000 S12000x256 S240x256 where
  lhsContracting := [1]
  rhsContracting := [0]
  lhsNonContracting := [0]
  rhsNonContracting := [1]
  lhsBatch := []
  rhsBatch := []
  wf := dot_S240x12000_S12000x256_S240x256_1_0_0_1_n_n_wf
def dot_S1200x256_S256x256_S1200x256_1_0_0_1_n_n : DotDims S1200x256 S256x256 S1200x256 where
  lhsContracting := [1]
  rhsContracting := [0]
  lhsNonContracting := [0]
  rhsNonContracting := [1]
  lhsBatch := []
  rhsBatch := []
  wf := dot_S1200x256_S256x256_S1200x256_1_0_0_1_n_n_wf
def dot_S1200x256_S256x64_S1200x64_1_0_0_1_n_n : DotDims S1200x256 S256x64 S1200x64 where
  lhsContracting := [1]
  rhsContracting := [0]
  lhsNonContracting := [0]
  rhsNonContracting := [1]
  lhsBatch := []
  rhsBatch := []
  wf := dot_S1200x256_S256x64_S1200x64_1_0_0_1_n_n_wf
def dot_S240x12000_S12000x64_S240x64_1_0_0_1_n_n : DotDims S240x12000 S12000x64 S240x64 where
  lhsContracting := [1]
  rhsContracting := [0]
  lhsNonContracting := [0]
  rhsNonContracting := [1]
  lhsBatch := []
  rhsBatch := []
  wf := dot_S240x12000_S12000x64_S240x64_1_0_0_1_n_n_wf
def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf

abbrev win0_0 : Pipeline.Window sig grid0 :=
  Pipeline.Window.ofSpec (Memref.whole main_v49) S1200x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v50) S512x256.size cc0_transform_1 reads0_1 false false 1 stage0_1 sem0_1
    hrank0 hreads0_1 hinb0_1 nbuf0_1 (Memref.isWhole_whole _) hwx0_1 hstage0_1

abbrev win0_2 : Pipeline.Window sig grid0 :=
  Pipeline.Window.ofSpec (Memref.whole main_v48) S1x256.size cc0_transform_2 reads0_2 false false 1 stage0_2 sem0_2
    hrank0 hreads0_2 hinb0_2 nbuf0_2 (Memref.isWhole_whole _) hwx0_2 hstage0_2

abbrev win0_3 : Pipeline.Window sig grid0 :=
  Pipeline.Window.ofSpec (Memref.whole main_v51) S1200x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v47) S240x12000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v53) S12000x256.size cc1_transform_1 reads1_1 false false 1 stage1_1 sem1_1
    hrank1 hreads1_1 hinb1_1 nbuf1_1 (Memref.isWhole_whole _) hwx1_1 hstage1_1

abbrev win1_2 : Pipeline.Window sig grid1 :=
  Pipeline.Window.ofSpec (Memref.whole main_v52) S1x256.size cc1_transform_2 reads1_2 false false 1 stage1_2 sem1_2
    hrank1 hreads1_2 hinb1_2 nbuf1_2 (Memref.isWhole_whole _) hwx1_2 hstage1_2

abbrev win1_3 : Pipeline.Window sig grid1 :=
  Pipeline.Window.ofSpec (Memref.whole main_v54) S240x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v56) S1200x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v57) S256x256.size cc2_transform_1 reads2_1 false false 1 stage2_1 sem2_1
    hrank2 hreads2_1 hinb2_1 nbuf2_1 (Memref.isWhole_whole _) hwx2_1 hstage2_1

abbrev win2_2 : Pipeline.Window sig grid2 :=
  Pipeline.Window.ofSpec (Memref.whole main_v55) S1x256.size cc2_transform_2 reads2_2 false false 1 stage2_2 sem2_2
    hrank2 hreads2_2 hinb2_2 nbuf2_2 (Memref.isWhole_whole _) hwx2_2 hstage2_2

abbrev win2_3 : Pipeline.Window sig grid2 :=
  Pipeline.Window.ofSpec (Memref.whole main_v58) S1200x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v47) S240x12000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S12000x256.size cc3_transform_1 reads3_1 false false 1 stage3_1 sem3_1
    hrank3 hreads3_1 hinb3_1 nbuf3_1 (Memref.isWhole_whole _) hwx3_1 hstage3_1

abbrev win3_2 : Pipeline.Window sig grid3 :=
  Pipeline.Window.ofSpec (Memref.whole main_v59) S1x256.size cc3_transform_2 reads3_2 false false 1 stage3_2 sem3_2
    hrank3 hreads3_2 hinb3_2 nbuf3_2 (Memref.isWhole_whole _) hwx3_2 hstage3_2

abbrev win3_3 : Pipeline.Window sig grid3 :=
  Pipeline.Window.ofSpec (Memref.whole main_v61) S240x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v63) S1200x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v64) S256x64.size cc4_transform_1 reads4_1 false false 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S1x64.size cc4_transform_2 reads4_2 false false 1 stage4_2 sem4_2
    hrank4 hreads4_2 hinb4_2 nbuf4_2 (Memref.isWhole_whole _) hwx4_2 hstage4_2

abbrev win4_3 : Pipeline.Window sig grid4 :=
  Pipeline.Window.ofSpec (Memref.whole main_v65) S1200x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v47) S240x12000.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v67) S12000x64.size cc5_transform_1 reads5_1 false false 1 stage5_1 sem5_1
    hrank5 hreads5_1 hinb5_1 nbuf5_1 (Memref.isWhole_whole _) hwx5_1 hstage5_1

abbrev win5_2 : Pipeline.Window sig grid5 :=
  Pipeline.Window.ofSpec (Memref.whole main_v66) S1x64.size cc5_transform_2 reads5_2 false false 1 stage5_2 sem5_2
    hrank5 hreads5_2 hinb5_2 nbuf5_2 (Memref.isWhole_whole _) hwx5_2 hstage5_2

abbrev win5_3 : Pipeline.Window sig grid5 :=
  Pipeline.Window.ofSpec (Memref.whole main_v68) S240x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v72) S1024x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v73) S64x1024.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v71) S1x1024.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v74) S1024x1024.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S12000x512 : Shape := ⟨2, ![12000, 512]⟩
abbrev S2x384000 : Shape := ⟨2, ![2, 384000]⟩
abbrev S512x256 : Shape := ⟨2, ![512, 256]⟩
abbrev S256 : Shape := ⟨1, ![256]⟩
abbrev S256x256 : Shape := ⟨2, ![256, 256]⟩
abbrev S256x64 : Shape := ⟨2, ![256, 64]⟩
abbrev S64 : Shape := ⟨1, ![64]⟩
abbrev S12000 : Shape := ⟨1, ![12000]⟩
abbrev S1x384000 : Shape := ⟨2, ![1, 384000]⟩
abbrev S384000 : Shape := ⟨1, ![384000]⟩
abbrev S396000 : Shape := ⟨1, ![396000]⟩
abbrev S_ : Shape := ⟨0, ![]⟩
abbrev S396000x1 : Shape := ⟨2, ![396000, 1]⟩
abbrev S12000x256 : Shape := ⟨2, ![12000, 256]⟩
abbrev S396000x256 : Shape := ⟨2, ![396000, 256]⟩
abbrev S1x256 : Shape := ⟨2, ![1, 256]⟩
abbrev S12000x64 : Shape := ⟨2, ![12000, 64]⟩
abbrev S396000x64 : Shape := ⟨2, ![396000, 64]⟩
abbrev S1x64 : Shape := ⟨2, ![1, 64]⟩
abbrev S64x12000 : Shape := ⟨2, ![64, 12000]⟩
abbrev S12000x12000 : Shape := ⟨2, ![12000, 12000]⟩

abbrev nBuf : Space → Nat
  | .hbm => 149
  | .vmem => 0
  | .smem => 0
  | _ => 0

abbrev hbmTy0_0 (i : Nat) : BufTy := match i % 128 with
  | 0 => ⟨S12000x512, .f32⟩
  | 1 => ⟨S2x384000, .i32⟩
  | 2 => ⟨S512x256, .f32⟩
  | 3 => ⟨S256, .f32⟩
  | 4 => ⟨S256x256, .f32⟩
  | 5 => ⟨S256, .f32⟩
  | 6 => ⟨S256x64, .f32⟩
  | 7 => ⟨S64, .f32⟩
  | 8 => ⟨S256x64, .f32⟩
  | 9 => ⟨S64, .f32⟩
  | 10 => ⟨S12000, .i32⟩
  | 11 => ⟨S1x384000, .i32⟩
  | 12 => ⟨S384000, .i32⟩
  | 13 => ⟨S396000, .i32⟩
  | 14 => ⟨S1x384000, .i32⟩
  | 15 => ⟨S384000, .i32⟩
  | 16 => ⟨S396000, .i32⟩
  | 17 => ⟨S_, .f32⟩
  | 18 => ⟨S396000, .f32⟩
  | 19 => ⟨S_, .f32⟩
  | 20 => ⟨S12000, .f32⟩
  | 21 => ⟨S396000x1, .i32⟩
  | 22 => ⟨S12000, .f32⟩
  | 23 => ⟨S_, .f32⟩
  | 24 => ⟨S12000, .f32⟩
  | 25 => ⟨S12000, .i1⟩
  | 26 => ⟨S_, .f32⟩
  | 27 => ⟨S12000, .f32⟩
  | 28 => ⟨S12000, .f32⟩
  | 29 => ⟨S12000, .f32⟩
  | 30 => ⟨S_, .f32⟩
  | 31 => ⟨S_, .f32⟩
  | 32 => ⟨S12000, .f32⟩
  | 33 => ⟨S12000, .f32⟩
  | 34 => ⟨S_, .i32⟩
  | 35 => ⟨S396000, .i32⟩
  | 36 => ⟨S396000, .i1⟩
  | 37 => ⟨S_, .i32⟩
  | 38 => ⟨S396000, .i32⟩
  | 39 => ⟨S396000, .i32⟩
  | 40 => ⟨S396000, .i32⟩
  | 41 => ⟨S396000x1, .i32⟩
  | 42 => ⟨S396000, .f32⟩
  | 43 => ⟨S_, .i32⟩
  | 44 => ⟨S396000, .i32⟩
  | 45 => ⟨S396000, .i1⟩
  | 46 => ⟨S_, .i32⟩
  | 47 => ⟨S396000, .i32⟩
  | 48 => ⟨S396000, .i32⟩
  | 49 => ⟨S396000, .i32⟩
  | 50 => ⟨S396000x1, .i32⟩
  | 51 => ⟨S396000, .f32⟩
  | 52 => ⟨S396000, .f32⟩
  | 53 => ⟨S12000x256, .f32⟩
  | 54 => ⟨S396000x1, .f32⟩
  | 55 => ⟨S_, .i32⟩
  | 56 => ⟨S396000, .i32⟩
  | 57 => ⟨S396000, .i1⟩
  | 58 => ⟨S_, .i32⟩
  | 59 => ⟨S396000, .i32⟩
  | 60 => ⟨S396000, .i32⟩
  | 61 => ⟨S396000, .i32⟩
  | 62 => ⟨S396000x1, .i32⟩
  | 63 => ⟨S396000x256, .f32⟩
  | 64 => ⟨S396000x256, .f32⟩
  | 65 => ⟨S396000x256, .f32⟩
  | 66 => ⟨S_, .f32⟩
  | 67 => ⟨S12000x256, .f32⟩
  | 68 => ⟨S396000x1, .i32⟩
  | 69 => ⟨S12000x256, .f32⟩
  | 70 => ⟨S1x256, .f32⟩
  | 71 => ⟨S12000x256, .f32⟩
  | 72 => ⟨S12000x256, .f32⟩
  | 73 => ⟨S_, .f32⟩
  | 74 => ⟨S12000x256, .f32⟩
  | 75 => ⟨S12000x256, .f32⟩
  | 76 => ⟨S12000x256, .f32⟩
  | 77 => ⟨S396000x1, .f32⟩
  | 78 => ⟨S_, .i32⟩
  | 79 => ⟨S396000, .i32⟩
  | 80 => ⟨S396000, .i1⟩
  | 81 => ⟨S_, .i32⟩
  | 82 => ⟨S396000, .i32⟩
  | 83 => ⟨S396000, .i32⟩
  | 84 => ⟨S396000, .i32⟩
  | 85 => ⟨S396000x1, .i32⟩
  | 86 => ⟨S396000x256, .f32⟩
  | 87 => ⟨S396000x256, .f32⟩
  | 88 => ⟨S396000x256, .f32⟩
  | 89 => ⟨S_, .f32⟩
  | 90 => ⟨S12000x256, .f32⟩
  | 91 => ⟨S396000x1, .i32⟩
  | 92 => ⟨S12000x256, .f32⟩
  | 93 => ⟨S1x256, .f32⟩
  | 94 => ⟨S12000x256, .f32⟩
  | 95 => ⟨S12000x256, .f32⟩
  | 96 => ⟨S_, .f32⟩
  | 97 => ⟨S12000x256, .f32⟩
  | 98 => ⟨S12000x256, .f32⟩
  | 99 => ⟨S12000x64, .f32⟩
  | 100 => ⟨S396000x1, .f32⟩
  | 101 => ⟨S_, .i32⟩
  | 102 => ⟨S396000, .i32⟩
  | 103 => ⟨S396000, .i1⟩
  | 104 => ⟨S_, .i32⟩
  | 105 => ⟨S396000, .i32⟩
  | 106 => ⟨S396000, .i32⟩
  | 107 => ⟨S396000, .i32⟩
  | 108 => ⟨S396000x1, .i32⟩
  | 109 => ⟨S396000x64, .f32⟩
  | 110 => ⟨S396000x64, .f32⟩
  | 111 => ⟨S396000x64, .f32⟩
  | 112 => ⟨S_, .f32⟩
  | 113 => ⟨S12000x64, .f32⟩
  | 114 => ⟨S396000x1, .i32⟩
  | 115 => ⟨S12000x64, .f32⟩
  | 116 => ⟨S1x64, .f32⟩
  | 117 => ⟨S12000x64, .f32⟩
  | 118 => ⟨S12000x64, .f32⟩
  | 119 => ⟨S12000x64, .f32⟩
  | 120 => ⟨S396000x1, .f32⟩
  | 121 => ⟨S_, .i32⟩
  | 122 => ⟨S396000, .i32⟩
  | 123 => ⟨S396000, .i1⟩
  | 124 => ⟨S_, .i32⟩
  | 125 => ⟨S396000, .i32⟩
  | 126 => ⟨S396000, .i32⟩
  | 127 => ⟨S396000, .i32⟩
  | _ => ⟨S12000x512, .f32⟩

abbrev hbmTy0_1 (i : Nat) : BufTy := match i % 128 with
  | 0 => ⟨S396000x1, .i32⟩
  | 1 => ⟨S396000x64, .f32⟩
  | 2 => ⟨S396000x64, .f32⟩
  | 3 => ⟨S396000x64, .f32⟩
  | 4 => ⟨S_, .f32⟩
  | 5 => ⟨S12000x64, .f32⟩
  | 6 => ⟨S396000x1, .i32⟩
  | 7 => ⟨S12000x64, .f32⟩
  | 8 => ⟨S1x64, .f32⟩
  | 9 => ⟨S12000x64, .f32⟩
  | 10 => ⟨S12000x64, .f32⟩
  | 11 => ⟨S64x12000, .f32⟩
  | 12 => ⟨S12000x12000, .f32⟩
  | 13 => ⟨S12000x12000, .f32⟩
  | 14 => ⟨S12000x12000, .f32⟩
  | 15 => ⟨S_, .f32⟩
  | 16 => ⟨S12000x12000, .f32⟩
  | 17 => ⟨S12000x12000, .f32⟩
  | 18 => ⟨S_, .f32⟩
  | 19 => ⟨S12000x12000, .f32⟩
  | 20 => ⟨S12000x12000, .f32⟩
  | _ => ⟨S12000x512, .f32⟩

abbrev hbmTy (i : Nat) : BufTy := match i / 128 with
  | 0 => hbmTy0_0 i
  | 1 => hbmTy0_1 i
  | _ => ⟨S12000x512, .f32⟩

abbrev bufTy : (tb : Table) → Fin (tcTables nBuf tb) → BufTy
  | .hbm, ⟨i, _⟩ => hbmTy i
  | _, _ => ⟨S12000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_c_7 : Ref sig .tc := ⟨.hbm, 55, rfl⟩
abbrev main_v34 : Ref sig .tc := ⟨.hbm, 56, rfl⟩
abbrev main_v35 : Ref sig .tc := ⟨.hbm, 57, rfl⟩
abbrev main_c_8 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_call1_cst : Ref sig .tc := ⟨.hbm, 73, rfl⟩
abbrev main_call1_v0 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_c_10 : Ref sig .tc := ⟨.hbm, 78, rfl⟩
abbrev main_v52 : Ref sig .tc := ⟨.hbm, 79, rfl⟩
abbrev main_v53 : Ref sig .tc := ⟨.hbm, 80, rfl⟩
abbrev main_c_11 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_12 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_call2_cst : Ref sig .tc := ⟨.hbm, 96, rfl⟩
abbrev main_call2_v0 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_c_13 : Ref sig .tc := ⟨.hbm, 101, rfl⟩
abbrev main_v70 : Ref sig .tc := ⟨.hbm, 102, rfl⟩
abbrev main_v71 : Ref sig .tc := ⟨.hbm, 103, rfl⟩
abbrev main_c_14 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_cst_15 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_c_16 : Ref sig .tc := ⟨.hbm, 121, rfl⟩
abbrev main_v87 : Ref sig .tc := ⟨.hbm, 122, rfl⟩
abbrev main_v88 : Ref sig .tc := ⟨.hbm, 123, rfl⟩
abbrev main_c_17 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_cst_18 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_cst_19 : Ref sig .tc := ⟨.hbm, 143, rfl⟩
abbrev main_v106 : Ref sig .tc := ⟨.hbm, 144, rfl⟩
abbrev main_v107 : Ref sig .tc := ⟨.hbm, 145, rfl⟩
abbrev main_cst_20 : Ref sig .tc := ⟨.hbm, 146, rfl⟩
abbrev main_v108 : Ref sig .tc := ⟨.hbm, 147, rfl⟩
abbrev main_v109 : Ref sig .tc := ⟨.hbm, 148, rfl⟩

abbrev nD : Nat := 1
abbrev τ : Topo := Topo.v7x

variable {F : FTy → Type} [FloatOps F]

class Facts₀ : Prop where
  slices_S2x384000_S1x384000_0_0 : S2x384000.Slices ![0, 0] S1x384000
  shapeCasts_S1x384000_S384000 : S1x384000.ShapeCasts S384000
  concatenates_S384000_S12000_S396000_d0 : Shape.Concatenates [S384000, S12000] S396000 0
  slices_S2x384000_S1x384000_1_0 : S2x384000.Slices ![1, 0] S1x384000
  bcast_S_S396000 : S_.BroadcastsInDim S396000 (![] : Fin 0 → Fin S396000.rank)
  bcast_S_S12000 : S_.BroadcastsInDim S12000 (![] : Fin 0 → Fin S12000.rank)
  bcast_S396000_S396000x1_0 : S396000.BroadcastsInDim S396000x1 (![0] : Fin 1 → Fin S396000x1.rank)
  bcast_S396000x1_S396000x256_0_1 : S396000x1.BroadcastsInDim S396000x256 (![0, 1] : Fin 2 → Fin S396000x256.rank)
  bcast_S_S12000x256 : S_.BroadcastsInDim S12000x256 (![] : Fin 0 → Fin S12000x256.rank)
  bcast_S256_S1x256_1 : S256.BroadcastsInDim S1x256 (![1] : Fin 1 → Fin S1x256.rank)
  bcast_S1x256_S12000x256_0_1 : S1x256.BroadcastsInDim S12000x256 (![0, 1] : Fin 2 → Fin S12000x256.rank)
  bcast_S396000x1_S396000x64_0_1 : S396000x1.BroadcastsInDim S396000x64 (![0, 1] : Fin 2 → Fin S396000x64.rank)
  bcast_S_S12000x64 : S_.BroadcastsInDim S12000x64 (![] : Fin 0 → Fin S12000x64.rank)
  bcast_S64_S1x64_1 : S64.BroadcastsInDim S1x64 (![1] : Fin 1 → Fin S1x64.rank)
  bcast_S1x64_S12000x64_0_1 : S1x64.BroadcastsInDim S12000x64 (![0, 1] : Fin 2 → Fin S12000x64.rank)
  transposes_S12000x64_S64x12000_1_0 : S12000x64.Transposes [1, 0] S64x12000
  bcast_S_S12000x12000 : S_.BroadcastsInDim S12000x12000 (![] : Fin 0 → Fin S12000x12000.rank)
  scatter_S12000_S396000x1_S396000_n_0_0_1_wf : ScatterDims.WF S12000 S396000x1 S396000 [] [0] [0] 1
  gather_S12000_S396000x1_S396000_n_0_n_n_0_1_1_wf : GatherDims.WF S12000 S396000x1 S396000 [] [0] [] [0] [] 1 ![1]
  dot_S12000x512_S512x256_S12000x256_1_0_0_1_n_n_wf : DotDims.WF S12000x512 S512x256 S12000x256 [1] [0] [0] [1] [] []
  gather_S12000x256_S396000x1_S396000x256_1_0_n_n_0_1_1256_wf : GatherDims.WF S12000x256 S396000x1 S396000x256 [1] [0] [] [0] [] 1 ![1, 256]
  scatter_S12000x256_S396000x1_S396000x256_1_0_0_1_wf : ScatterDims.WF S12000x256 S396000x1 S396000x256 [1] [0] [0] 1
  dot_S12000x256_S256x256_S12000x256_1_0_0_1_n_n_wf : DotDims.WF S12000x256 S256x256 S12000x256 [1] [0] [0] [1] [] []
  dot_S12000x256_S256x64_S12000x64_1_0_0_1_n_n_wf : DotDims.WF S12000x256 S256x64 S12000x64 [1] [0] [0] [1] [] []
  gather_S12000x64_S396000x1_S396000x64_1_0_n_n_0_1_164_wf : GatherDims.WF S12000x64 S396000x1 S396000x64 [1] [0] [] [0] [] 1 ![1, 64]
  scatter_S12000x64_S396000x1_S396000x64_1_0_0_1_wf : ScatterDims.WF S12000x64 S396000x1 S396000x64 [1] [0] [0] 1
  dot_S12000x64_S64x12000_S12000x12000_1_0_0_1_n_n_wf : DotDims.WF S12000x64 S64x12000 S12000x12000 [1] [0] [0] [1] [] []

variable [Facts₀]

def scatter_S12000_S396000x1_S396000_n_0_0_1 : ScatterDims S12000 S396000x1 S396000 where
  updateWindowDims := []
  insertedWindowDims := [0]
  scatterDimsToOperandDims := [0]
  indexVectorDim := 1
  wf := scatter_S12000_S396000x1_S396000_n_0_0_1_wf
def gather_S12000_S396000x1_S396000_n_0_n_n_0_1_1 : GatherDims S12000 S396000x1 S396000 where
  offsetDims := []
  collapsedSliceDims := [0]
  operandBatchingDims := []
  startIndicesBatchingDims := []
  startIndexMap := [0]
  indexVectorDim := 1
  sliceSizes := ![1]
  wf := gather_S12000_S396000x1_S396000_n_0_n_n_0_1_1_wf
def dot_S12000x512_S512x256_S12000x256_1_0_0_1_n_n : DotDims S12000x512 S512x256 S12000x256 where
  lhsContracting := [1]
  rhsContracting := [0]
  lhsNonContracting := [0]
  rhsNonContracting := [1]
  lhsBatch := []
  rhsBatch := []
  wf := dot_S12000x512_S512x256_S12000x256_1_0_0_1_n_n_wf
def gather_S12000x256_S396000x1_S396000x256_1_0_n_n_0_1_1256 : GatherDims S12000x256 S396000x1 S396000x256 where
  offsetDims := [1]
  collapsedSliceDims := [0]
  operandBatchingDims := []
  startIndicesBatchingDims := []
  startIndexMap := [0]
  indexVectorDim := 1
  sliceSizes := ![1, 256]
  wf := gather_S12000x256_S396000x1_S396000x256_1_0_n_n_0_1_1256_wf
def scatter_S12000x256_S396000x1_S396000x256_1_0_0_1 : ScatterDims S12000x256 S396000x1 S396000x256 where
  updateWindowDims := [1]
  insertedWindowDims := [0]
  scatterDimsToOperandDims := [0]
  indexVectorDim := 1
  wf := scatter_S12000x256_S396000x1_S396000x256_1_0_0_1_wf
def dot_S12000x256_S256x256_S12000x256_1_0_0_1_n_n : DotDims S12000x256 S256x256 S12000x256 where
  lhsContracting := [1]
  rhsContracting := [0]
  lhsNonContracting := [0]
  rhsNonContracting := [1]
  lhsBatch := []
  rhsBatch := []
  wf := dot_S12000x256_S256x256_S12000x256_1_0_0_1_n_n_wf
def dot_S12000x256_S256x64_S12000x64_1_0_0_1_n_n : DotDims S12000x256 S256x64 S12000x64 where
  lhsContracting := [1]
  rhsContracting := [0]
  lhsNonContracting := [0]
  rhsNonContracting := [1]
  lhsBatch := []
  rhsBatch := []
  wf := dot_S12000x256_S256x64_S12000x64_1_0_0_1_n_n_wf
def gather_S12000x64_S396000x1_S396000x64_1_0_n_n_0_1_164 : GatherDims S12000x64 S396000x1 S396000x64 where
  offsetDims := [1]
  collapsedSliceDims := [0]
  operandBatchingDims := []
  startIndicesBatchingDims := []
  startIndexMap := [0]
  indexVectorDim := 1
  sliceSizes := ![1, 64]
  wf := gather_S12000x64_S396000x1_S396000x64_1_0_n_n_0_1_164_wf
def scatter_S12000x64_S396000x1_S396000x64_1_0_0_1 : ScatterDims S12000x64 S396000x1 S396000x64 where
  updateWindowDims := [1]
  insertedWindowDims := [0]
  scatterDimsToOperandDims := [0]
  indexVectorDim := 1
  wf := scatter_S12000x64_S396000x1_S396000x64_1_0_0_1_wf
def dot_S12000x64_S64x12000_S12000x12000_1_0_0_1_n_n : DotDims S12000x64 S64x12000 S12000x12000 where
  lhsContracting := [1]
  rhsContracting := [0]
  lhsNonContracting := [0]
  rhsNonContracting := [1]
  lhsBatch := []
  rhsBatch := []
  wf := dot_S12000x64_S64x12000_S12000x12000_1_0_0_1_n_n_wf

class Facts : Prop extends Facts₀ where

variable [Facts]
-- ==== Proof.KernelRun.lean ====
/-
  The idealized kernel's run with its RESULT named.

  The program is seven matrix-product regions among stretches of host operations. The frame module follows the contents
  of every buffer through the nineteen segments of @main to the valuation `W19`; this module states the same run with
  the result array's final contents, `W19` at the result's buffer, added to what the run ends with. What that value
  is, as a function of the arguments, is the business of the modules that import this one.
-/
import proofs.«172150_j2473901162945_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel's @main from `m` terminates without a fault; the result array ends at the
    last boundary's contents and every argument array as launched. -/
theorem run_result : θ_run defs (onTc (τ := τ) (main (F := F))) ⟨m, fun _ => 0, ρ⟩ (fun r => ∀ c : Dev nD,
      r.2.mem ((c.tc : Thread nD τ).loc main_v75) = W19 m ρ c (Proc.devRef .tc main_v75)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h c =>
      ⟨h c _ (mem_uc main_v75 (by decide)),
       (h c _ (mem_uc main_arg0 (by decide))).trans (W19_main_arg0 m ρ c),
       (h c _ (mem_uc main_arg1 (by decide))).trans (W19_main_arg1 m ρ c),
       (h c _ (mem_uc main_arg2 (by decide))).trans (W19_main_arg2 m ρ c),
       (h c _ (mem_uc main_arg3 (by decide))).trans (W19_main_arg3 m ρ c),
       (h c _ (mem_uc main_arg4 (by decide))).trans (W19_main_arg4 m ρ c),
       (h c _ (mem_uc main_arg5 (by decide))).trans (W19_main_arg5 m ρ c),
       (h c _ (mem_uc main_arg6 (by decide))).trans (W19_main_arg6 m ρ c),
       (h c _ (mem_uc main_arg7 (by decide))).trans (W19_main_arg7 m ρ c),
       (h c _ (mem_uc main_arg8 (by decide))).trans (W19_main_arg8 m ρ c),
       (h c _ (mem_uc main_arg9 (by decide))).trans (W19_main_arg9 m ρ c)⟩)

end Cert.KernelIdeal.Run

end
-- ==== Proof.ChainHost.lean ====
/-
  The kernel's buffers between its regions.

  The contents of all buffers are named `W0` at launch, `W1` to `W3` after the three stretches of operations before
  region 0, then alternately after a region (`W4`, `W6`, …, `W18`) and after the operations that follow it (`W5`, …,
  `W19`): boundary k is where `Wk` holds. Between two regions the program only re-lays arrays out: a region's f32
  output is narrowed to the next region's operand (the identity on extended reals), a bias vector becomes a one-row
  array, a plain product's bias is a row of zeros, and the adjacency built before the first region is carried
  unchanged to the three regions that multiply by it.
-/
import proofs.«172150_j2473901162945_1_alg».proof.Proof.Gen.KernelIdeal.Frame
import Idealize.ShloMosaic.Lib.ValueLayout
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

namespace Cert.KernelIdeal.Chain

open Cert.KernelIdeal Cert.KernelIdeal.Gen
open Idealize.ShloMosaic Idealize.ShloMosaic.TcCoe Idealize.ShloMosaic.StableHlo Idealize.ShloMosaic.ValueIdx Idealize.SL.Sem

variable (m : (ℓ : Loc nD τ sig) → Buf (Elt Ideal) ℓ) (ρ : Dev nD → PrngReg) (c : Dev nD)

/-- A scalar zero spread over any shape is zero everywhere. -/
theorem zero_row {t : Shape} (h : S_.BroadcastsInDim t (![] : Fin 0 → Fin t.rank)) (i : t.Idx) :
    broadcastInDim t ![] h (constant (F := Ideal) S_ .f32 0x00000000#32) i = (0 : EReal) :=
  (broadcastInDim_apply _ h _ i ix0 (fun a => a.elim0)).trans Ideal.ofBits_zero_f32

/-! ## The arguments and the adjacency, carried -/

/-- No operation and no region before boundary 4 writes arg3: it still holds the launch contents. -/
theorem arg3_W4 : W4 m ρ c (Proc.devRef .tc main_arg3) = W0 m ρ c (Proc.devRef .tc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := StableHlo.after_of_forall_not_mem (b := Proc.devRef .tc main_arg3) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- No operation and no region before boundary 6 writes arg4: it still holds the launch contents. -/
theorem arg4_W6 : W6 m ρ c (Proc.devRef .tc main_arg4) = W0 m ρ c (Proc.devRef .tc main_arg4) :=
  calc W6 m ρ c (Proc.devRef .tc main_arg4)
    _ = W5 m ρ c (Proc.devRef .tc main_arg4) := W6_of_ne m ρ c main_arg4 (by decide)
    _ = W4 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := StableHlo.after_of_forall_not_mem (b := Proc.devRef .tc main_arg4) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-- No operation and no region before boundary 8 writes arg5: it still holds the launch contents. -/
theorem arg5_W8 : W8 m ρ c (Proc.devRef .tc main_arg5) = W0 m ρ c (Proc.devRef .tc main_arg5) :=
  calc W8 m ρ c (Proc.devRef .tc main_arg5)
    _ = W7 m ρ c (Proc.devRef .tc main_arg5) := W8_of_ne m ρ c main_arg5 (by decide)
    _ = W6 m ρ c (Proc.devRef .tc main_arg5) := StableHlo.after_of_forall_not_mem (b := Proc.devRef .tc main_arg5) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg5) := W6_of_ne m ρ c main_arg5 (by decide)
    _ = W4 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := StableHlo.after_of_forall_not_mem (b := Proc.devRef .tc main_arg5) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-- No operation and no region before boundary 10 writes arg6: it still holds the launch contents. -/
theorem arg6_W10 : W10 m ρ c (Proc.devRef .tc main_arg6) = W0 m ρ c (Proc.devRef .tc main_arg6) :=
  calc W10 m ρ c (Proc.devRef .tc main_arg6)
    _ = W9 m ρ c (Proc.devRef .tc main_arg6) := W10_of_ne m ρ c main_arg6 (by decide)
    _ = W8 m ρ c (Proc.devRef .tc main_arg6) := StableHlo.after_of_forall_not_mem (b := Proc.devRef .tc main_arg6) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg6) := W8_of_ne m ρ c main_arg6 (by decide)
    _ = W6 m ρ c (Proc.devRef .tc main_arg6) := StableHlo.after_of_forall_not_mem (b := Proc.devRef .tc main_arg6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg6) := W6_of_ne m ρ c main_arg6 (by decide)
    _ = W4 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := StableHlo.after_of_forall_not_mem (b := Proc.devRef .tc main_arg6) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-- No operation and no region before boundary 12 writes arg7: it still holds the launch contents. -/
theorem arg7_W12 : W12 m ρ c (Proc.devRef .tc main_arg7) = W0 m ρ c (Proc.devRef .tc main_arg7) :=
  calc W12 m ρ c (Proc.devRef .tc main_arg7)
    _ = W11 m ρ c (Proc.devRef .tc main_arg7) := W12_of_ne m ρ c main_arg7 (by decide)
    _ = W10 m ρ c (Proc.devRef .tc main_arg7) := StableHlo.after_of_forall_not_mem (b := Proc.devRef .tc main_arg7) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg7) := W10_of_ne m ρ c main_arg7 (by decide)
    _ = W8 m ρ c (Proc.devRef .tc main_arg7) := StableHlo.after_of_forall_not_mem (b := Proc.devRef .tc main_arg7) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg7) := W8_of_ne m ρ c main_arg7 (by decide)
    _ = W6 m ρ c (Proc.devRef .tc main_arg7) := StableHlo.after_of_forall_not_mem (b := Proc.devRef .tc main_arg7) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg7) := W6_of_ne m ρ c main_arg7 (by decide)
    _ = W4 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := StableHlo.after_of_forall_not_mem (b := Proc.devRef .tc main_arg7) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem noflush1_0 : ∀ t : Fin cfg1.N, (cfg1.win 0).flush t = false :=
  (by decide +kernel : ∀ t : Fin grid1.N, win1_0.flush t = false)
/-- Region 1 only reads the adjacency: no point writes its left factor back, so the array is as the region found it. -/
theorem keep1 : W6 m ρ c (Proc.devRef .tc main_v47) = W5 m ρ c (Proc.devRef .tc main_v47) :=
  (W6_arr m ρ c 0).trans (funext fun i =>
    ((dat1 (V5 m ρ) c).arrAt_apply_of_forall_not_mem 0 cfg1.N i
      (fun t _ hf => absurd hf (by rw [noflush1_0 t]; decide))).trans (congrFun (A_eq1 (V5 m ρ) c 0) i))

theorem noflush3_0 : ∀ t : Fin cfg3.N, (cfg3.win 0).flush t = false :=
  (by decide +kernel : ∀ t : Fin grid3.N, win3_0.flush t = false)
/-- Region 3 only reads the adjacency: no point writes its left factor back, so the array is as the region found it. -/
theorem keep3 : W10 m ρ c (Proc.devRef .tc main_v47) = W9 m ρ c (Proc.devRef .tc main_v47) :=
  (W10_arr m ρ c 0).trans (funext fun i =>
    ((dat3 (V9 m ρ) c).arrAt_apply_of_forall_not_mem 0 cfg3.N i
      (fun t _ hf => absurd hf (by rw [noflush3_0 t]; decide))).trans (congrFun (A_eq3 (V9 m ρ) c 0) i))

/-- The adjacency is carried unchanged from the prologue to region 1's entry. -/
theorem v47_W5 : W5 m ρ c (Proc.devRef .tc main_v47) = W3 m ρ c (Proc.devRef .tc main_v47) :=
  calc W5 m ρ c (Proc.devRef .tc main_v47)
    _ = W4 m ρ c (Proc.devRef .tc main_v47) := StableHlo.after_of_forall_not_mem (b := Proc.devRef .tc main_v47) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v47) := W4_of_ne m ρ c main_v47 (by decide)

/-- The adjacency is carried unchanged from the prologue to region 3's entry. -/
theorem v47_W9 : W9 m ρ c (Proc.devRef .tc main_v47) = W3 m ρ c (Proc.devRef .tc main_v47) :=
  calc W9 m ρ c (Proc.devRef .tc main_v47)
    _ = W8 m ρ c (Proc.devRef .tc main_v47) := StableHlo.after_of_forall_not_mem (b := Proc.devRef .tc main_v47) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v47) := W8_of_ne m ρ c main_v47 (by decide)
    _ = W6 m ρ c (Proc.devRef .tc main_v47) := StableHlo.after_of_forall_not_mem (b := Proc.devRef .tc main_v47) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v47) := keep1 m ρ c
    _ = W4 m ρ c (Proc.devRef .tc main_v47) := StableHlo.after_of_forall_not_mem (b := Proc.devRef .tc main_v47) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v47) := W4_of_ne m ρ c main_v47 (by decide)

/-- The adjacency is carried unchanged from the prologue to region 5's entry. -/
theorem v47_W13 : W13 m ρ c (Proc.devRef .tc main_v47) = W3 m ρ c (Proc.devRef .tc main_v47) :=
  calc W13 m ρ c (Proc.devRef .tc main_v47)
    _ = W12 m ρ c (Proc.devRef .tc main_v47) := StableHlo.after_of_forall_not_mem (b := Proc.devRef .tc main_v47) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_v47) := W12_of_ne m ρ c main_v47 (by decide)
    _ = W10 m ρ c (Proc.devRef .tc main_v47) := StableHlo.after_of_forall_not_mem (b := Proc.devRef .tc main_v47) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v47) := keep3 m ρ c
    _ = W8 m ρ c (Proc.devRef .tc main_v47) := StableHlo.after_of_forall_not_mem (b := Proc.devRef .tc main_v47) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v47) := W8_of_ne m ρ c main_v47 (by decide)
    _ = W6 m ρ c (Proc.devRef .tc main_v47) := StableHlo.after_of_forall_not_mem (b := Proc.devRef .tc main_v47) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v47) := keep1 m ρ c
    _ = W4 m ρ c (Proc.devRef .tc main_v47) := StableHlo.after_of_forall_not_mem (b := Proc.devRef .tc main_v47) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v47) := W4_of_ne m ρ c main_v47 (by decide)

/-! ## Region 0's operands -/

/-- Region 0's left factor is the node features as launched. -/
theorem W3_v49 : (W3 m ρ c (Proc.devRef .tc main_v49) : S12000x512.Idx → EReal) = m ((c : Thread nD τ).loc main_arg0) := by
  show StableHlo.after hostOps0_2 (W2 m ρ c) (Proc.devRef .tc main_v49) = _
  after_results
  rfl
/-- Region 0's right factor is the first weight matrix as launched. -/
theorem W3_v50 : (W3 m ρ c (Proc.devRef .tc main_v50) : S512x256.Idx → EReal) = m ((c : Thread nD τ).loc main_arg2) := by
  show StableHlo.after hostOps0_2 (W2 m ρ c) (Proc.devRef .tc main_v50) = _
  after_results
  rfl
/-- The bias of a plain product is a row of zeros. -/
theorem W3_v48 : (W3 m ρ c (Proc.devRef .tc main_v48) : S1x256.Idx → EReal) = fun _ => (0 : EReal) := by
  show StableHlo.after hostOps0_2 (W2 m ρ c) (Proc.devRef .tc main_v48) = _
  after_results
  exact funext fun i => zero_row _ i

/-! ## Regions 1 to 5's operands -/

/-- Region 1's right factor is region 0's output. -/
theorem W5_v53 : (W5 m ρ c (Proc.devRef .tc main_v53) : S12000x256.Idx → EReal) = W4 m ρ c (Proc.devRef .tc main_v51) := by
  show StableHlo.after hostOps1 (W4 m ρ c) (Proc.devRef .tc main_v53) = _
  after_results
  rfl

/-- The bias vector, laid out as one row. -/
theorem W5_v52 : (W5 m ρ c (Proc.devRef .tc main_v52) : S1x256.Idx → EReal) = fun i => W4 m ρ c (Proc.devRef .tc main_arg3) (ix1 (i 1)) := by
  show StableHlo.after hostOps1 (W4 m ρ c) (Proc.devRef .tc main_v52) = _
  after_results
  funext i
  obtain ⟨u, q, rfl⟩ : ∃ (u : Fin 1) (q : Fin 256), i = ix2 u q := ⟨i 0, i 1, eq_ix2 i⟩
  exact shapeCast_a_1a_apply _ _ u q

/-- Region 2's left factor is region 1's output. -/
theorem W7_v56 : (W7 m ρ c (Proc.devRef .tc main_v56) : S12000x256.Idx → EReal) = W6 m ρ c (Proc.devRef .tc main_v54) := by
  show StableHlo.after hostOps2 (W6 m ρ c) (Proc.devRef .tc main_v56) = _
  after_results
  rfl

/-- Region 2's right factor is the second weight matrix. -/
theorem W7_v57 : (W7 m ρ c (Proc.devRef .tc main_v57) : S256x256.Idx → EReal) = W6 m ρ c (Proc.devRef .tc main_arg4) := by
  show StableHlo.after hostOps2 (W6 m ρ c) (Proc.devRef .tc main_v57) = _
  after_results
  rfl

/-- The bias of a plain product is a row of zeros. -/
theorem W7_v55 : (W7 m ρ c (Proc.devRef .tc main_v55) : S1x256.Idx → EReal) = fun _ => (0 : EReal) := by
  show StableHlo.after hostOps2 (W6 m ρ c) (Proc.devRef .tc main_v55) = _
  after_results
  exact funext fun i => zero_row _ i

/-- Region 3's right factor is region 2's output. -/
theorem W9_v60 : (W9 m ρ c (Proc.devRef .tc main_v60) : S12000x256.Idx → EReal) = W8 m ρ c (Proc.devRef .tc main_v58) := by
  show StableHlo.after hostOps3 (W8 m ρ c) (Proc.devRef .tc main_v60) = _
  after_results
  rfl

/-- The bias vector, laid out as one row. -/
theorem W9_v59 : (W9 m ρ c (Proc.devRef .tc main_v59) : S1x256.Idx → EReal) = fun i => W8 m ρ c (Proc.devRef .tc main_arg5) (ix1 (i 1)) := by
  show StableHlo.after hostOps3 (W8 m ρ c) (Proc.devRef .tc main_v59) = _
  after_results
  funext i
  obtain ⟨u, q, rfl⟩ : ∃ (u : Fin 1) (q : Fin 256), i = ix2 u q := ⟨i 0, i 1, eq_ix2 i⟩
  exact shapeCast_a_1a_apply _ _ u q

/-- Region 4's left factor is region 3's output. -/
theorem W11_v63 : (W11 m ρ c (Proc.devRef .tc main_v63) : S12000x256.Idx → EReal) = W10 m ρ c (Proc.devRef .tc main_v61) := by
  show StableHlo.after hostOps4 (W10 m ρ c) (Proc.devRef .tc main_v63) = _
  after_results
  rfl

/-- Region 4's right factor is the third weight matrix. -/
theorem W11_v64 : (W11 m ρ c (Proc.devRef .tc main_v64) : S256x64.Idx → EReal) = W10 m ρ c (Proc.devRef .tc main_arg6) := by
  show StableHlo.after hostOps4 (W10 m ρ c) (Proc.devRef .tc main_v64) = _
  after_results
  rfl

/-- The bias of a plain product is a row of zeros. -/
theorem W11_v62 : (W11 m ρ c (Proc.devRef .tc main_v62) : S1x64.Idx → EReal) = fun _ => (0 : EReal) := by
  show StableHlo.after hostOps4 (W10 m ρ c) (Proc.devRef .tc main_v62) = _
  after_results
  exact funext fun i => zero_row _ i

/-- Region 5's right factor is region 4's output. -/
theorem W13_v67 : (W13 m ρ c (Proc.devRef .tc main_v67) : S12000x64.Idx → EReal) = W12 m ρ c (Proc.devRef .tc main_v65) := by
  show StableHlo.after hostOps5 (W12 m ρ c) (Proc.devRef .tc main_v67) = _
  after_results
  rfl

/-- The bias vector, laid out as one row. -/
theorem W13_v66 : (W13 m ρ c (Proc.devRef .tc main_v66) : S1x64.Idx → EReal) = fun i => W12 m ρ c (Proc.devRef .tc main_arg7) (ix1 (i 1)) := by
  show StableHlo.after hostOps5 (W12 m ρ c) (Proc.devRef .tc main_v66) = _
  after_results
  funext i
  obtain ⟨u, q, rfl⟩ : ∃ (u : Fin 1) (q : Fin 64), i = ix2 u q := ⟨i 0, i 1, eq_ix2 i⟩
  exact shapeCast_a_1a_apply _ _ u q

end Cert.KernelIdeal.Chain

end
-- ==== Proof.ChainTail.lean ====
/-
  The kernel's buffers around its last region.

  The node features (region 5's output, 12000 × 64) get 288 rows of zeros below; the last region multiplies the padded
  array by its transpose, block by block, and the program returns the 12000 × 12000 corner of the product's logistic.
  Only rows and columns below 12000 reach the result, and there the padded array is the node features.
-/
import proofs.«172150_j2473901162945_1_alg».proof.Proof.Gen.KernelIdeal.Frame
import proofs.«172150_j2473901162945_1_alg».proof.Proof.ChainHost
import Idealize.ShloMosaic.Lib.ValueLayout
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

namespace Cert.KernelIdeal.ChainTail

open Cert.KernelIdeal Cert.KernelIdeal.Gen Cert.KernelIdeal.Chain
open Idealize.ShloMosaic Idealize.ShloMosaic.TcCoe Idealize.ShloMosaic.StableHlo Idealize.ShloMosaic.ValueIdx Idealize.SL.Sem

variable (m : (ℓ : Loc nD τ sig) → Buf (Elt Ideal) ℓ) (ρ : Dev nD → PrngReg) (c : Dev nD)

/-- Below row 12000 the padded node features are the node features (region 5's output). -/
theorem W17_v72_low (r : Fin 12000) (k : Fin 64) :
    (W17 m ρ c (Proc.devRef .tc main_v72) : S12288x64.Idx → EReal) (ix2 ⟨r.val, by have := r.isLt; omega⟩ k)
      = W14 m ρ c (Proc.devRef .tc main_v68) (ix2 r k) := by
  show StableHlo.after hostOps6_2 (W16 m ρ c) (Proc.devRef .tc main_v72) _ = _
  after_results
  show pad S12288x64 ![0, 0] ![288, 0] ![0, 0] (W14 m ρ c (Proc.devRef .tc main_v68) : S12000x64.Idx → EReal) _ pads_S12000x64_S12288x64_02880_000 h_S_ (ix2 ⟨r.val, by have := r.isLt; omega⟩ k) = _
  unfold pad
  have hr := r.isLt
  have hk := k.isLt
  split
  · refine congrArg (W14 m ρ c (Proc.devRef .tc main_v68) : S12000x64.Idx → EReal) (funext fun a => Fin.ext ?_)
    match a with
    | ⟨0, _⟩ => show (r.val - 0) / (0 + 1) = r.val; omega
    | ⟨1, _⟩ => show (k.val - 0) / (0 + 1) = k.val; omega
  · next hn =>
    refine absurd (fun a => ?_) hn
    match a with
    | ⟨0, _⟩ => show 0 ≤ r.val ∧ (r.val - 0) % (0 + 1) = 0 ∧ (r.val - 0) / (0 + 1) < 12000; omega
    | ⟨1, _⟩ => show 0 ≤ k.val ∧ (k.val - 0) % (0 + 1) = 0 ∧ (k.val - 0) / (0 + 1) < 64; omega

/-- The result is the 12000 × 12000 corner of the last region's output. -/
theorem W19_v75_apply (i : S12000x12000.Idx) :
    (W19 m ρ c (Proc.devRef .tc main_v75) : S12000x12000.Idx → EReal) i
      = (W18 m ρ c (Proc.devRef .tc main_v74) : S12288x12288.Idx → EReal) (ix2 ⟨(i 0).val, by have := idx2_lt0 i; omega⟩ ⟨(i 1).val, by have := idx2_lt1 i; omega⟩) := by
  show StableHlo.after hostOps7 (W18 m ρ c) (Proc.devRef .tc main_v75) i = _
  after_results
  refine extractStridedSlice_apply (s := S12288x12288) (t := S12000x12000) ![0, 0] _ slices_S12288x12288_S12000x12000_0_0 i
    (ix2 ⟨(i 0).val, by have := idx2_lt0 i; omega⟩ ⟨(i 1).val, by have := idx2_lt1 i; omega⟩) ?_
  intro a
  match a with
  | ⟨0, _⟩ => exact (Nat.zero_add _).symm
  | ⟨1, _⟩ => exact (Nat.zero_add _).symm

/-- The right factor of the last region is the padded node features transposed: below column 12000, entry (k, r) is
    feature k of node r. -/
theorem W17_v73_low (k : Fin 64) (r : Fin 12000) :
    (W17 m ρ c (Proc.devRef .tc main_v73) : S64x12288.Idx → EReal) (ix2 k ⟨r.val, by have := r.isLt; omega⟩)
      = W14 m ρ c (Proc.devRef .tc main_v68) (ix2 r k) := by
  refine Eq.trans ?_ (W17_v72_low m ρ c r k)
  show StableHlo.after hostOps6_2 (W16 m ρ c) (Proc.devRef .tc main_v73) _ = StableHlo.after hostOps6_2 (W16 m ρ c) (Proc.devRef .tc main_v72) _
  after_results
  rw [truncf_apply, truncf_apply]
  exact transpose_ix2_apply _ transposes_S12288x64_S64x12288_1_0 k ⟨r.val, by have := r.isLt; omega⟩

/-- The last region's bias is a row of zeros. -/
theorem W17_v71 : (W17 m ρ c (Proc.devRef .tc main_v71) : S1x12288.Idx → EReal) = fun _ => (0 : EReal) := by
  show StableHlo.after hostOps6_2 (W16 m ρ c) (Proc.devRef .tc main_v71) = _
  after_results
  exact funext fun i => zero_row _ i

end Cert.KernelIdeal.ChainTail

end
-- ==== Proof.Spec.lean ====
/-
  The network as one function of whole arrays, on the extended reals.

  A graph of 12000 nodes carries 396000 weighted edges (the given edges and one self-loop per node): edge `e` runs from
  `row e` to `col e` with weight `nrm e`. One graph convolution multiplies the node features by a weight matrix, then
  gives node `c` the weighted sum of the products' rows over the edges INTO `c`, plus a bias. The network is three
  convolutions, the first two followed by a maximum with zero, and the decoder: the logistic function of the inner
  product of two nodes' final feature rows.
-/
import Idealize.ShloMosaic.PureOps.Ideal
import Idealize.ShloMosaic.Lib.ValueIdx

noncomputable section

open Finset

namespace Cert.Spec

open Idealize.ShloMosaic Idealize.ShloMosaic.ValueIdx

/-- Entry (p, q) of the matrix product: row p of `a` against column q of `b`. -/
def mm {M K N : Nat} (a : (⟨2, ![M, K]⟩ : Shape).Idx → EReal) (b : (⟨2, ![K, N]⟩ : Shape).Idx → EReal) :
    (⟨2, ![M, N]⟩ : Shape).Idx → EReal :=
  fun i => ∑ k : Fin K, a (ix2 (i 0) k) * b (ix2 k (i 1))

/-- The product plus a bias row: entry (p, q) is row p of `a` against column q of `b`, plus entry q of the one-row array `v`. -/
def affine {M K N : Nat} (a : (⟨2, ![M, K]⟩ : Shape).Idx → EReal) (b : (⟨2, ![K, N]⟩ : Shape).Idx → EReal)
    (v : (⟨2, ![1, N]⟩ : Shape).Idx → EReal) : (⟨2, ![M, N]⟩ : Shape).Idx → EReal :=
  fun i => mm a b i + v (ix2 0 (i 1))

/-- The larger of each entry and zero. -/
def relu {s : Shape} (h : s.Idx → EReal) : s.Idx → EReal := fun i => max (h i) 0

theorem mm_apply {M K N : Nat} (a : (⟨2, ![M, K]⟩ : Shape).Idx → EReal) (b : (⟨2, ![K, N]⟩ : Shape).Idx → EReal)
    (p : Fin M) (q : Fin N) : mm a b (ix2 p q) = ∑ k : Fin K, a (ix2 p k) * b (ix2 k q) := rfl
theorem affine_apply {M K N : Nat} (a : (⟨2, ![M, K]⟩ : Shape).Idx → EReal) (b : (⟨2, ![K, N]⟩ : Shape).Idx → EReal)
    (v : (⟨2, ![1, N]⟩ : Shape).Idx → EReal) (p : Fin M) (q : Fin N) :
    affine a b v (ix2 p q) = (∑ k : Fin K, a (ix2 p k) * b (ix2 k q)) + v (ix2 0 q) := rfl
theorem relu_apply {s : Shape} (h : s.Idx → EReal) (i : s.Idx) : relu h i = max (h i) 0 := rfl

section Graph
variable (row col : Fin 396000 → Fin 12000) (nrm : Fin 396000 → EReal)

/-- One graph convolution, edge by edge: node `c`'s feature `f` is the sum, over the edges `e` into `c`, of the edge's
    weight times feature `f` of the transformed row of the edge's source, plus the bias's entry `f`. -/
def conv {K N : Nat} (h : (⟨2, ![12000, K]⟩ : Shape).Idx → EReal) (W : (⟨2, ![K, N]⟩ : Shape).Idx → EReal)
    (b : (⟨1, ![N]⟩ : Shape).Idx → EReal) : (⟨2, ![12000, N]⟩ : Shape).Idx → EReal :=
  fun i => (0 + ∑ e ∈ univ.filter (fun e => (col e).val = (i 0).val), nrm e * mm h W (ix2 (row e) (i 1))) + b (ix1 (i 1))

theorem conv_apply {K N : Nat} (h : (⟨2, ![12000, K]⟩ : Shape).Idx → EReal) (W : (⟨2, ![K, N]⟩ : Shape).Idx → EReal)
    (b : (⟨1, ![N]⟩ : Shape).Idx → EReal) (cc : Fin 12000) (f : Fin N) :
    conv row col nrm h W b (ix2 cc f)
      = (0 + ∑ e ∈ univ.filter (fun e => (col e).val = cc.val), nrm e * (∑ k : Fin K, h (ix2 (row e) k) * W (ix2 k f))) + b (ix1 f) := rfl

/-- The nodes' final features: three convolutions, a maximum with zero after the first two. -/
def encode (x : (⟨2, ![12000, 512]⟩ : Shape).Idx → EReal)
    (W1 : (⟨2, ![512, 256]⟩ : Shape).Idx → EReal) (b1 : (⟨1, ![256]⟩ : Shape).Idx → EReal)
    (W2 : (⟨2, ![256, 256]⟩ : Shape).Idx → EReal) (b2 : (⟨1, ![256]⟩ : Shape).Idx → EReal)
    (Wmu : (⟨2, ![256, 64]⟩ : Shape).Idx → EReal) (bmu : (⟨1, ![64]⟩ : Shape).Idx → EReal) :
    (⟨2, ![12000, 64]⟩ : Shape).Idx → EReal :=
  conv row col nrm (relu (conv row col nrm (relu (conv row col nrm x W1 b1)) W2 b2)) Wmu bmu

/-- The decoder: entry (p, q) is the logistic function of the inner product of nodes p and q's feature rows. -/
def decode (z : (⟨2, ![12000, 64]⟩ : Shape).Idx → EReal) : (⟨2, ![12000, 12000]⟩ : Shape).Idx → EReal :=
  fun i => Ideal.logistic (∑ k : Fin 64, z (ix2 (i 0) k) * z (ix2 (i 1) k))

theorem decode_apply (z : (⟨2, ![12000, 64]⟩ : Shape).Idx → EReal) (p q : Fin 12000) :
    decode z (ix2 p q) = Ideal.logistic (∑ k : Fin 64, z (ix2 p k) * z (ix2 q k)) := rfl

/-- The whole network. -/
def G (x : (⟨2, ![12000, 512]⟩ : Shape).Idx → EReal)
    (W1 : (⟨2, ![512, 256]⟩ : Shape).Idx → EReal) (b1 : (⟨1, ![256]⟩ : Shape).Idx → EReal)
    (W2 : (⟨2, ![256, 256]⟩ : Shape).Idx → EReal) (b2 : (⟨1, ![256]⟩ : Shape).Idx → EReal)
    (Wmu : (⟨2, ![256, 64]⟩ : Shape).Idx → EReal) (bmu : (⟨1, ![64]⟩ : Shape).Idx → EReal) :
    (⟨2, ![12000, 12000]⟩ : Shape).Idx → EReal :=
  decode (encode row col nrm x W1 b1 W2 b2 Wmu bmu)

end Graph

end Cert.Spec

end
-- ==== Proof.AdjacencySum.lean ====
/-
  A graph aggregation written two ways, on the extended reals.

  Edges `e` carry a weight `n e ≥ 0`, a source `row e` and a target `col e`. The dense form first collects
  the weights into an adjacency matrix, `A c r = ∑ of n e over the edges with col e = c and row e = r`, and then
  multiplies it into the features: `∑ r, A c r * h r`. The edge-list form sums `n e * h (row e)` over the
  edges landing on `c`. The two agree because a sum of NONNEGATIVE extended reals distributes over a product
  with any extended real (infinite or not): no finiteness of the features is needed, only `0 ≤ n e`.
-/
import Mathlib.Data.EReal.Operations
import Mathlib.Algebra.BigOperators.Group.Finset.Basic
import Mathlib.Algebra.Order.BigOperators.Group.Finset

open Finset

namespace Cert.AdjacencySum

/-- A finite sum of nonnegative extended reals, times `y`, is the sum of the products. -/
theorem sum_mul_of_nonneg {ι : Type*} (s : Finset ι) (a : ι → EReal) (y : EReal) (ha : ∀ i ∈ s, 0 ≤ a i) :
    (∑ i ∈ s, a i) * y = ∑ i ∈ s, a i * y := by
  classical
  induction s using Finset.induction_on with
  | empty => simp
  | insert j s hj ih =>
    rw [Finset.sum_insert hj, Finset.sum_insert hj,
      EReal.right_distrib_of_nonneg (ha j (Finset.mem_insert_self j s))
        (Finset.sum_nonneg fun i hi => ha i (Finset.mem_insert_of_mem hi)),
      ih fun i hi => ha i (Finset.mem_insert_of_mem hi)]

/-- Zero plus a finite sum of nonnegative extended reals (a scatter-add into a zero array), times `y`. -/
theorem zero_add_sum_mul_of_nonneg {ι : Type*} (s : Finset ι) (a : ι → EReal) (y : EReal) (ha : ∀ i ∈ s, 0 ≤ a i) :
    (0 + ∑ i ∈ s, a i) * y = ∑ i ∈ s, a i * y := by
  rw [zero_add, sum_mul_of_nonneg s a y ha]

/-- The dense adjacency product is the edge-list aggregation: summing, over the sources `r`, the collected weight
    of the edges `r → c` times `h r` is summing `n e * h (row e)` over the edges into `c`. -/
theorem dense_eq_edges {E N : Type*} [Fintype E] [Fintype N] [DecidableEq N]
    (row col : E → N) (n : E → EReal) (hn : ∀ e, 0 ≤ n e) (h : N → EReal) (c : N) :
    ∑ r : N, (0 + ∑ e ∈ univ.filter (fun e => col e = c ∧ row e = r), n e) * h r
      = ∑ e ∈ univ.filter (fun e => col e = c), n e * h (row e) := by
  have h1 : ∀ r : N, (0 + ∑ e ∈ univ.filter (fun e => col e = c ∧ row e = r), n e) * h r
      = ∑ e ∈ (univ.filter (fun e => col e = c)).filter (fun e => row e = r), n e * h (row e) := by
    intro r
    rw [zero_add_sum_mul_of_nonneg _ _ _ (fun e _ => hn e), Finset.filter_filter]
    refine Finset.sum_congr rfl fun e he => ?_
    rw [(Finset.mem_filter.1 he).2.2]
  simp only [h1]
  exact Finset.sum_fiberwise (univ.filter (fun e => col e = c)) row (fun e => n e * h (row e))

end Cert.AdjacencySum
-- ==== Proof.ConvDense.lean ====
/-
  The dense form of a graph convolution is the edge-list form.

  If entry (c, r) of the adjacency matrix is the collected weight of the edges r → c, and the weights are nonnegative,
  then "adjacency times (features times weights, plus a zero bias), plus the bias row" is the convolution that sums,
  over the edges into c, the edge's weight times the transformed row of the edge's source.
-/
import proofs.«172150_j2473901162945_1_alg».proof.Proof.Spec
import proofs.«172150_j2473901162945_1_alg».proof.Proof.AdjacencySum

set_option maxRecDepth 16384

noncomputable section

open Finset

namespace Cert.ConvDense

open Cert.Spec Idealize.ShloMosaic Idealize.ShloMosaic.ValueIdx

variable (row col : Fin 396000 → Fin 12000) (nrm : Fin 396000 → EReal)

theorem conv_of_dense {K N : Nat} (hn : ∀ e, 0 ≤ nrm e)
    (A : (⟨2, ![12000, 12000]⟩ : Shape).Idx → EReal)
    (hA : ∀ cc rr : Fin 12000, A (ix2 cc rr)
      = 0 + ∑ e ∈ univ.filter (fun e => (col e).val = cc.val ∧ (row e).val = rr.val), nrm e)
    (h : (⟨2, ![12000, K]⟩ : Shape).Idx → EReal) (W : (⟨2, ![K, N]⟩ : Shape).Idx → EReal)
    (b : (⟨1, ![N]⟩ : Shape).Idx → EReal) :
    affine A (affine h W (fun _ => 0)) (fun i => b (ix1 (i 1))) = conv row col nrm h W b := by
  funext i
  obtain ⟨cc, f, rfl⟩ : ∃ (cc : Fin 12000) (f : Fin N), i = ix2 cc f := ⟨i 0, i 1, eq_ix2 i⟩
  rw [affine_apply, conv_apply]
  refine congrArg (· + b (ix1 f)) ?_
  rw [zero_add]
  simp only [affine_apply]
  have key := Cert.AdjacencySum.dense_eq_edges row col nrm hn (fun r => ∑ k : Fin K, h (ix2 r k) * W (ix2 k f)) cc
  rw [show (univ.filter fun e => (col e).val = cc.val) = univ.filter (fun e => col e = cc) from
    Finset.filter_congr fun e _ => Fin.val_inj]
  rw [← key]
  refine Finset.sum_congr rfl fun r _ => ?_
  rw [add_zero, hA cc r,
    show (univ.filter fun e => (col e).val = cc.val ∧ (row e).val = r.val) = univ.filter (fun e => col e = cc ∧ row e = r) from
      Finset.filter_congr fun e _ => by rw [Fin.val_inj, Fin.val_inj]]

/-- The decoder with a zero bias added to the inner product is the decoder. -/
theorem decode_eq (z : (⟨2, ![12000, 64]⟩ : Shape).Idx → EReal) (p q : Fin 12000) :
    Ideal.logistic ((∑ k : Fin 64, z (ix2 p k) * z (ix2 q k)) + 0) = decode z (ix2 p q) := by
  rw [add_zero, decode_apply]

end Cert.ConvDense

end
-- ==== Proof.Payload.lean ====
/-
  The bodies' arithmetic at an index, on the extended reals.

  Every region's body is one matrix product into a zero accumulator plus a bias row spread over the rows (then, in
  some regions, a maximum with zero or the logistic function). Read at entry (p, q) the product is the plain sum over
  the contracted axis of `a (p, k) * b (k, q)`, and the bias contributes its entry in column q.
-/
import proofs.«172150_j2473901162945_1_alg».proof.Proof.Gen.KernelIdeal.Skeleton
import Idealize.ShloMosaic.Lib.ValueIdx
import Idealize.ShloMosaic.Lib.Pipeline.Value
import Idealize.ShloMosaic.PureOps.Ideal.Laws

set_option maxRecDepth 16384

noncomputable section

namespace Cert.KernelIdeal.Payload

open Cert.KernelIdeal Cert.KernelIdeal.Gen Idealize.ShloMosaic Idealize.ShloMosaic.ValueIdx

/-! ### The [1200, 512] × [512, 256] product -/

theorem lhsA_0 (i : S1200x256.Idx) (q : dot_S1200x512_S512x256_S1200x256_1_0_0_1_n_n.contr.Idx) : (dot_S1200x512_S512x256_S1200x256_1_0_0_1_n_n.lhsIdx i q 0).val = (i 0).val := by
  unfold DotDims.lhsIdx
  rw [dif_neg (show ¬(0 : Fin S1200x512.rank) ∈ dot_S1200x512_S512x256_S1200x256_1_0_0_1_n_n.lhsBatch by decide),
    dif_pos (show (0 : Fin S1200x512.rank) ∈ dot_S1200x512_S512x256_S1200x256_1_0_0_1_n_n.lhsNonContracting by decide)]
  rfl
theorem lhsA_1 (i : S1200x256.Idx) (q : dot_S1200x512_S512x256_S1200x256_1_0_0_1_n_n.contr.Idx) : (dot_S1200x512_S512x256_S1200x256_1_0_0_1_n_n.lhsIdx i q 1).val = (q ⟨0, by decide⟩).val :=
  dot_S1200x512_S512x256_S1200x256_1_0_0_1_n_n.lhsIdx_val_of_single rfl i q
theorem rhsA_0 (i : S1200x256.Idx) (q : dot_S1200x512_S512x256_S1200x256_1_0_0_1_n_n.contr.Idx) : (dot_S1200x512_S512x256_S1200x256_1_0_0_1_n_n.rhsIdx i q 0).val = (q ⟨0, by decide⟩).val :=
  dot_S1200x512_S512x256_S1200x256_1_0_0_1_n_n.rhsIdx_val_of_single rfl i q
theorem rhsA_1 (i : S1200x256.Idx) (q : dot_S1200x512_S512x256_S1200x256_1_0_0_1_n_n.contr.Idx) : (dot_S1200x512_S512x256_S1200x256_1_0_0_1_n_n.rhsIdx i q 1).val = (i 1).val := by
  unfold DotDims.rhsIdx
  rw [dif_neg (show ¬(1 : Fin S512x256.rank) ∈ dot_S1200x512_S512x256_S1200x256_1_0_0_1_n_n.rhsBatch by decide),
    dif_pos (show (1 : Fin S512x256.rank) ∈ dot_S1200x512_S512x256_S1200x256_1_0_0_1_n_n.rhsNonContracting by decide)]
  rfl

/-- Entry (p, q) of the product into a zero accumulator: row p of the left factor against column q of the right. -/
theorem mmA_apply (a : FVec Ideal S1200x512 .bf16) (b : FVec Ideal S512x256 .bf16) (p : Fin 1200) (q : Fin 256) :
    matmul dot_S1200x512_S512x256_S1200x256_1_0_0_1_n_n none a b (constant S1200x256 .f32 0x00000000#32) (ix2 p q)
      = ∑ k : Fin 512, a (ix2 p k) * b (ix2 k q) := by
  simp only [matmul]
  rw [Ideal.matmul_constant_zero_apply, ← Equiv.sum_comp (contrEquiv1 dot_S1200x512_S512x256_S1200x256_1_0_0_1_n_n 512 rfl rfl).symm]
  refine Finset.sum_congr rfl fun k _ => ?_
  have hk := contrEquiv1_symm_val dot_S1200x512_S512x256_S1200x256_1_0_0_1_n_n 512 rfl rfl k
  have el : dot_S1200x512_S512x256_S1200x256_1_0_0_1_n_n.lhsIdx (ix2 p q) ((contrEquiv1 dot_S1200x512_S512x256_S1200x256_1_0_0_1_n_n 512 rfl rfl).symm k) = ix2 p k :=
    funext fun d => Fin.ext (by
      match d with
      | ⟨0, _⟩ => exact lhsA_0 _ _
      | ⟨1, _⟩ => exact (lhsA_1 _ _).trans hk)
  have er : dot_S1200x512_S512x256_S1200x256_1_0_0_1_n_n.rhsIdx (ix2 p q) ((contrEquiv1 dot_S1200x512_S512x256_S1200x256_1_0_0_1_n_n 512 rfl rfl).symm k) = ix2 k q :=
    funext fun d => Fin.ext (by
      match d with
      | ⟨0, _⟩ => exact (rhsA_0 _ _).trans hk
      | ⟨1, _⟩ => exact rhsA_1 _ _)
  rw [el, er]

/-- The bias row [1, 256] spread over the 1200 rows reads its column. -/
theorem biasA_apply (v : FVec Ideal S1x256 .f32) (p : Fin 1200) (q : Fin 256) :
    broadcastTo S1200x256 v broadcasts_S1x256_S1200x256 (ix2 p q) = v (ix2 0 q) :=
  broadcastTo_apply v broadcasts_S1x256_S1200x256 (ix2 p q) (ix2 0 q) (fun d => by
    match d with
    | ⟨0, _⟩ => rfl
    | ⟨1, _⟩ => rfl)

/-- The whole sum at (p, q): the product into the zero accumulator plus the spread bias row (the identity casts the
    body applies to its three loads drop out). -/
theorem sumA_apply (a : FVec Ideal S1200x512 .bf16) (b : FVec Ideal S512x256 .bf16) (v : FVec Ideal S1x256 .f32) (p : Fin 1200) (q : Fin 256) :
    addf (matmul dot_S1200x512_S512x256_S1200x256_1_0_0_1_n_n none (shapeCast S1200x512 a shapeCasts_S1200x512_S1200x512) (shapeCast S512x256 b shapeCasts_S512x256_S512x256)
        (constant (F := Ideal) S1200x256 .f32 0x00000000#32))
      (broadcastTo S1200x256 (shapeCast S1x256 v shapeCasts_S1x256_S1x256) broadcasts_S1x256_S1200x256) (ix2 p q)
      = (∑ k : Fin 512, a (ix2 p k) * b (ix2 k q)) + v (ix2 0 q) := by
  rw [shapeCast_self a, shapeCast_self b, shapeCast_self v]
  exact congrArg₂ (· + ·) (mmA_apply a b p q) (biasA_apply v p q)

/-! ### The [240, 12000] × [12000, 256] product -/

theorem lhsB_0 (i : S240x256.Idx) (q : dot_S240x12000_S12000x256_S240x256_1_0_0_1_n_n.contr.Idx) : (dot_S240x12000_S12000x256_S240x256_1_0_0_1_n_n.lhsIdx i q 0).val = (i 0).val := by
  unfold DotDims.lhsIdx
  rw [dif_neg (show ¬(0 : Fin S240x12000.rank) ∈ dot_S240x12000_S12000x256_S240x256_1_0_0_1_n_n.lhsBatch by decide),
    dif_pos (show (0 : Fin S240x12000.rank) ∈ dot_S240x12000_S12000x256_S240x256_1_0_0_1_n_n.lhsNonContracting by decide)]
  rfl
theorem lhsB_1 (i : S240x256.Idx) (q : dot_S240x12000_S12000x256_S240x256_1_0_0_1_n_n.contr.Idx) : (dot_S240x12000_S12000x256_S240x256_1_0_0_1_n_n.lhsIdx i q 1).val = (q ⟨0, by decide⟩).val :=
  dot_S240x12000_S12000x256_S240x256_1_0_0_1_n_n.lhsIdx_val_of_single rfl i q
theorem rhsB_0 (i : S240x256.Idx) (q : dot_S240x12000_S12000x256_S240x256_1_0_0_1_n_n.contr.Idx) : (dot_S240x12000_S12000x256_S240x256_1_0_0_1_n_n.rhsIdx i q 0).val = (q ⟨0, by decide⟩).val :=
  dot_S240x12000_S12000x256_S240x256_1_0_0_1_n_n.rhsIdx_val_of_single rfl i q
theorem rhsB_1 (i : S240x256.Idx) (q : dot_S240x12000_S12000x256_S240x256_1_0_0_1_n_n.contr.Idx) : (dot_S240x12000_S12000x256_S240x256_1_0_0_1_n_n.rhsIdx i q 1).val = (i 1).val := by
  unfold DotDims.rhsIdx
  rw [dif_neg (show ¬(1 : Fin S12000x256.rank) ∈ dot_S240x12000_S12000x256_S240x256_1_0_0_1_n_n.rhsBatch by decide),
    dif_pos (show (1 : Fin S12000x256.rank) ∈ dot_S240x12000_S12000x256_S240x256_1_0_0_1_n_n.rhsNonContracting by decide)]
  rfl

/-- Entry (p, q) of the product into a zero accumulator: row p of the left factor against column q of the right. -/
theorem mmB_apply (a : FVec Ideal S240x12000 .bf16) (b : FVec Ideal S12000x256 .bf16) (p : Fin 240) (q : Fin 256) :
    matmul dot_S240x12000_S12000x256_S240x256_1_0_0_1_n_n none a b (constant S240x256 .f32 0x00000000#32) (ix2 p q)
      = ∑ k : Fin 12000, a (ix2 p k) * b (ix2 k q) := by
  simp only [matmul]
  rw [Ideal.matmul_constant_zero_apply, ← Equiv.sum_comp (contrEquiv1 dot_S240x12000_S12000x256_S240x256_1_0_0_1_n_n 12000 rfl rfl).symm]
  refine Finset.sum_congr rfl fun k _ => ?_
  have hk := contrEquiv1_symm_val dot_S240x12000_S12000x256_S240x256_1_0_0_1_n_n 12000 rfl rfl k
  have el : dot_S240x12000_S12000x256_S240x256_1_0_0_1_n_n.lhsIdx (ix2 p q) ((contrEquiv1 dot_S240x12000_S12000x256_S240x256_1_0_0_1_n_n 12000 rfl rfl).symm k) = ix2 p k :=
    funext fun d => Fin.ext (by
      match d with
      | ⟨0, _⟩ => exact lhsB_0 _ _
      | ⟨1, _⟩ => exact (lhsB_1 _ _).trans hk)
  have er : dot_S240x12000_S12000x256_S240x256_1_0_0_1_n_n.rhsIdx (ix2 p q) ((contrEquiv1 dot_S240x12000_S12000x256_S240x256_1_0_0_1_n_n 12000 rfl rfl).symm k) = ix2 k q :=
    funext fun d => Fin.ext (by
      match d with
      | ⟨0, _⟩ => exact (rhsB_0 _ _).trans hk
      | ⟨1, _⟩ => exact rhsB_1 _ _)
  rw [el, er]

/-- The bias row [1, 256] spread over the 240 rows reads its column. -/
theorem biasB_apply (v : FVec Ideal S1x256 .f32) (p : Fin 240) (q : Fin 256) :
    broadcastTo S240x256 v broadcasts_S1x256_S240x256 (ix2 p q) = v (ix2 0 q) :=
  broadcastTo_apply v broadcasts_S1x256_S240x256 (ix2 p q) (ix2 0 q) (fun d => by
    match d with
    | ⟨0, _⟩ => rfl
    | ⟨1, _⟩ => rfl)

/-- The whole sum at (p, q): the product into the zero accumulator plus the spread bias row (the identity casts the
    body applies to its three loads drop out). -/
theorem sumB_apply (a : FVec Ideal S240x12000 .bf16) (b : FVec Ideal S12000x256 .bf16) (v : FVec Ideal S1x256 .f32) (p : Fin 240) (q : Fin 256) :
    addf (matmul dot_S240x12000_S12000x256_S240x256_1_0_0_1_n_n none (shapeCast S240x12000 a shapeCasts_S240x12000_S240x12000) (shapeCast S12000x256 b shapeCasts_S12000x256_S12000x256)
        (constant (F := Ideal) S240x256 .f32 0x00000000#32))
      (broadcastTo S240x256 (shapeCast S1x256 v shapeCasts_S1x256_S1x256) broadcasts_S1x256_S240x256) (ix2 p q)
      = (∑ k : Fin 12000, a (ix2 p k) * b (ix2 k q)) + v (ix2 0 q) := by
  rw [shapeCast_self a, shapeCast_self b, shapeCast_self v]
  exact congrArg₂ (· + ·) (mmB_apply a b p q) (biasB_apply v p q)

/-! ### The [1200, 256] × [256, 256] product -/

theorem lhsC_0 (i : S1200x256.Idx) (q : dot_S1200x256_S256x256_S1200x256_1_0_0_1_n_n.contr.Idx) : (dot_S1200x256_S256x256_S1200x256_1_0_0_1_n_n.lhsIdx i q 0).val = (i 0).val := by
  unfold DotDims.lhsIdx
  rw [dif_neg (show ¬(0 : Fin S1200x256.rank) ∈ dot_S1200x256_S256x256_S1200x256_1_0_0_1_n_n.lhsBatch by decide),
    dif_pos (show (0 : Fin S1200x256.rank) ∈ dot_S1200x256_S256x256_S1200x256_1_0_0_1_n_n.lhsNonContracting by decide)]
  rfl
theorem lhsC_1 (i : S1200x256.Idx) (q : dot_S1200x256_S256x256_S1200x256_1_0_0_1_n_n.contr.Idx) : (dot_S1200x256_S256x256_S1200x256_1_0_0_1_n_n.lhsIdx i q 1).val = (q ⟨0, by decide⟩).val :=
  dot_S1200x256_S256x256_S1200x256_1_0_0_1_n_n.lhsIdx_val_of_single rfl i q
theorem rhsC_0 (i : S1200x256.Idx) (q : dot_S1200x256_S256x256_S1200x256_1_0_0_1_n_n.contr.Idx) : (dot_S1200x256_S256x256_S1200x256_1_0_0_1_n_n.rhsIdx i q 0).val = (q ⟨0, by decide⟩).val :=
  dot_S1200x256_S256x256_S1200x256_1_0_0_1_n_n.rhsIdx_val_of_single rfl i q
theorem rhsC_1 (i : S1200x256.Idx) (q : dot_S1200x256_S256x256_S1200x256_1_0_0_1_n_n.contr.Idx) : (dot_S1200x256_S256x256_S1200x256_1_0_0_1_n_n.rhsIdx i q 1).val = (i 1).val := by
  unfold DotDims.rhsIdx
  rw [dif_neg (show ¬(1 : Fin S256x256.rank) ∈ dot_S1200x256_S256x256_S1200x256_1_0_0_1_n_n.rhsBatch by decide),
    dif_pos (show (1 : Fin S256x256.rank) ∈ dot_S1200x256_S256x256_S1200x256_1_0_0_1_n_n.rhsNonContracting by decide)]
  rfl

/-- Entry (p, q) of the product into a zero accumulator: row p of the left factor against column q of the right. -/
theorem mmC_apply (a : FVec Ideal S1200x256 .bf16) (b : FVec Ideal S256x256 .bf16) (p : Fin 1200) (q : Fin 256) :
    matmul dot_S1200x256_S256x256_S1200x256_1_0_0_1_n_n none a b (constant S1200x256 .f32 0x00000000#32) (ix2 p q)
      = ∑ k : Fin 256, a (ix2 p k) * b (ix2 k q) := by
  simp only [matmul]
  rw [Ideal.matmul_constant_zero_apply, ← Equiv.sum_comp (contrEquiv1 dot_S1200x256_S256x256_S1200x256_1_0_0_1_n_n 256 rfl rfl).symm]
  refine Finset.sum_congr rfl fun k _ => ?_
  have hk := contrEquiv1_symm_val dot_S1200x256_S256x256_S1200x256_1_0_0_1_n_n 256 rfl rfl k
  have el : dot_S1200x256_S256x256_S1200x256_1_0_0_1_n_n.lhsIdx (ix2 p q) ((contrEquiv1 dot_S1200x256_S256x256_S1200x256_1_0_0_1_n_n 256 rfl rfl).symm k) = ix2 p k :=
    funext fun d => Fin.ext (by
      match d with
      | ⟨0, _⟩ => exact lhsC_0 _ _
      | ⟨1, _⟩ => exact (lhsC_1 _ _).trans hk)
  have er : dot_S1200x256_S256x256_S1200x256_1_0_0_1_n_n.rhsIdx (ix2 p q) ((contrEquiv1 dot_S1200x256_S256x256_S1200x256_1_0_0_1_n_n 256 rfl rfl).symm k) = ix2 k q :=
    funext fun d => Fin.ext (by
      match d with
      | ⟨0, _⟩ => exact (rhsC_0 _ _).trans hk
      | ⟨1, _⟩ => exact rhsC_1 _ _)
  rw [el, er]

/-- The bias row [1, 256] spread over the 1200 rows reads its column. -/
theorem biasC_apply (v : FVec Ideal S1x256 .f32) (p : Fin 1200) (q : Fin 256) :
    broadcastTo S1200x256 v broadcasts_S1x256_S1200x256 (ix2 p q) = v (ix2 0 q) :=
  broadcastTo_apply v broadcasts_S1x256_S1200x256 (ix2 p q) (ix2 0 q) (fun d => by
    match d with
    | ⟨0, _⟩ => rfl
    | ⟨1, _⟩ => rfl)

/-- The whole sum at (p, q): the product into the zero accumulator plus the spread bias row (the identity casts the
    body applies to its three loads drop out). -/
theorem sumC_apply (a : FVec Ideal S1200x256 .bf16) (b : FVec Ideal S256x256 .bf16) (v : FVec Ideal S1x256 .f32) (p : Fin 1200) (q : Fin 256) :
    addf (matmul dot_S1200x256_S256x256_S1200x256_1_0_0_1_n_n none (shapeCast S1200x256 a shapeCasts_S1200x256_S1200x256) (shapeCast S256x256 b shapeCasts_S256x256_S256x256)
        (constant (F := Ideal) S1200x256 .f32 0x00000000#32))
      (broadcastTo S1200x256 (shapeCast S1x256 v shapeCasts_S1x256_S1x256) broadcasts_S1x256_S1200x256) (ix2 p q)
      = (∑ k : Fin 256, a (ix2 p k) * b (ix2 k q)) + v (ix2 0 q) := by
  rw [shapeCast_self a, shapeCast_self b, shapeCast_self v]
  exact congrArg₂ (· + ·) (mmC_apply a b p q) (biasC_apply v p q)

/-! ### The [1200, 256] × [256, 64] product -/

theorem lhsD_0 (i : S1200x64.Idx) (q : dot_S1200x256_S256x64_S1200x64_1_0_0_1_n_n.contr.Idx) : (dot_S1200x256_S256x64_S1200x64_1_0_0_1_n_n.lhsIdx i q 0).val = (i 0).val := by
  unfold DotDims.lhsIdx
  rw [dif_neg (show ¬(0 : Fin S1200x256.rank) ∈ dot_S1200x256_S256x64_S1200x64_1_0_0_1_n_n.lhsBatch by decide),
    dif_pos (show (0 : Fin S1200x256.rank) ∈ dot_S1200x256_S256x64_S1200x64_1_0_0_1_n_n.lhsNonContracting by decide)]
  rfl
theorem lhsD_1 (i : S1200x64.Idx) (q : dot_S1200x256_S256x64_S1200x64_1_0_0_1_n_n.contr.Idx) : (dot_S1200x256_S256x64_S1200x64_1_0_0_1_n_n.lhsIdx i q 1).val = (q ⟨0, by decide⟩).val :=
  dot_S1200x256_S256x64_S1200x64_1_0_0_1_n_n.lhsIdx_val_of_single rfl i q
theorem rhsD_0 (i : S1200x64.Idx) (q : dot_S1200x256_S256x64_S1200x64_1_0_0_1_n_n.contr.Idx) : (dot_S1200x256_S256x64_S1200x64_1_0_0_1_n_n.rhsIdx i q 0).val = (q ⟨0, by decide⟩).val :=
  dot_S1200x256_S256x64_S1200x64_1_0_0_1_n_n.rhsIdx_val_of_single rfl i q
theorem rhsD_1 (i : S1200x64.Idx) (q : dot_S1200x256_S256x64_S1200x64_1_0_0_1_n_n.contr.Idx) : (dot_S1200x256_S256x64_S1200x64_1_0_0_1_n_n.rhsIdx i q 1).val = (i 1).val := by
  unfold DotDims.rhsIdx
  rw [dif_neg (show ¬(1 : Fin S256x64.rank) ∈ dot_S1200x256_S256x64_S1200x64_1_0_0_1_n_n.rhsBatch by decide),
    dif_pos (show (1 : Fin S256x64.rank) ∈ dot_S1200x256_S256x64_S1200x64_1_0_0_1_n_n.rhsNonContracting by decide)]
  rfl

/-- Entry (p, q) of the product into a zero accumulator: row p of the left factor against column q of the right. -/
theorem mmD_apply (a : FVec Ideal S1200x256 .bf16) (b : FVec Ideal S256x64 .bf16) (p : Fin 1200) (q : Fin 64) :
    matmul dot_S1200x256_S256x64_S1200x64_1_0_0_1_n_n none a b (constant S1200x64 .f32 0x00000000#32) (ix2 p q)
      = ∑ k : Fin 256, a (ix2 p k) * b (ix2 k q) := by
  simp only [matmul]
  rw [Ideal.matmul_constant_zero_apply, ← Equiv.sum_comp (contrEquiv1 dot_S1200x256_S256x64_S1200x64_1_0_0_1_n_n 256 rfl rfl).symm]
  refine Finset.sum_congr rfl fun k _ => ?_
  have hk := contrEquiv1_symm_val dot_S1200x256_S256x64_S1200x64_1_0_0_1_n_n 256 rfl rfl k
  have el : dot_S1200x256_S256x64_S1200x64_1_0_0_1_n_n.lhsIdx (ix2 p q) ((contrEquiv1 dot_S1200x256_S256x64_S1200x64_1_0_0_1_n_n 256 rfl rfl).symm k) = ix2 p k :=
    funext fun d => Fin.ext (by
      match d with
      | ⟨0, _⟩ => exact lhsD_0 _ _
      | ⟨1, _⟩ => exact (lhsD_1 _ _).trans hk)
  have er : dot_S1200x256_S256x64_S1200x64_1_0_0_1_n_n.rhsIdx (ix2 p q) ((contrEquiv1 dot_S1200x256_S256x64_S1200x64_1_0_0_1_n_n 256 rfl rfl).symm k) = ix2 k q :=
    funext fun d => Fin.ext (by
      match d with
      | ⟨0, _⟩ => exact (rhsD_0 _ _).trans hk
      | ⟨1, _⟩ => exact rhsD_1 _ _)
  rw [el, er]

/-- The bias row [1, 64] spread over the 1200 rows reads its column. -/
theorem biasD_apply (v : FVec Ideal S1x64 .f32) (p : Fin 1200) (q : Fin 64) :
    broadcastTo S1200x64 v broadcasts_S1x64_S1200x64 (ix2 p q) = v (ix2 0 q) :=
  broadcastTo_apply v broadcasts_S1x64_S1200x64 (ix2 p q) (ix2 0 q) (fun d => by
    match d with
    | ⟨0, _⟩ => rfl
    | ⟨1, _⟩ => rfl)

/-- The whole sum at (p, q): the product into the zero accumulator plus the spread bias row (the identity casts the
    body applies to its three loads drop out). -/
theorem sumD_apply (a : FVec Ideal S1200x256 .bf16) (b : FVec Ideal S256x64 .bf16) (v : FVec Ideal S1x64 .f32) (p : Fin 1200) (q : Fin 64) :
    addf (matmul dot_S1200x256_S256x64_S1200x64_1_0_0_1_n_n none (shapeCast S1200x256 a shapeCasts_S1200x256_S1200x256) (shapeCast S256x64 b shapeCasts_S256x64_S256x64)
        (constant (F := Ideal) S1200x64 .f32 0x00000000#32))
      (broadcastTo S1200x64 (shapeCast S1x64 v shapeCasts_S1x64_S1x64) broadcasts_S1x64_S1200x64) (ix2 p q)
      = (∑ k : Fin 256, a (ix2 p k) * b (ix2 k q)) + v (ix2 0 q) := by
  rw [shapeCast_self a, shapeCast_self b, shapeCast_self v]
  exact congrArg₂ (· + ·) (mmD_apply a b p q) (biasD_apply v p q)

/-! ### The [240, 12000] × [12000, 64] product -/

theorem lhsE_0 (i : S240x64.Idx) (q : dot_S240x12000_S12000x64_S240x64_1_0_0_1_n_n.contr.Idx) : (dot_S240x12000_S12000x64_S240x64_1_0_0_1_n_n.lhsIdx i q 0).val = (i 0).val := by
  unfold DotDims.lhsIdx
  rw [dif_neg (show ¬(0 : Fin S240x12000.rank) ∈ dot_S240x12000_S12000x64_S240x64_1_0_0_1_n_n.lhsBatch by decide),
    dif_pos (show (0 : Fin S240x12000.rank) ∈ dot_S240x12000_S12000x64_S240x64_1_0_0_1_n_n.lhsNonContracting by decide)]
  rfl
theorem lhsE_1 (i : S240x64.Idx) (q : dot_S240x12000_S12000x64_S240x64_1_0_0_1_n_n.contr.Idx) : (dot_S240x12000_S12000x64_S240x64_1_0_0_1_n_n.lhsIdx i q 1).val = (q ⟨0, by decide⟩).val :=
  dot_S240x12000_S12000x64_S240x64_1_0_0_1_n_n.lhsIdx_val_of_single rfl i q
theorem rhsE_0 (i : S240x64.Idx) (q : dot_S240x12000_S12000x64_S240x64_1_0_0_1_n_n.contr.Idx) : (dot_S240x12000_S12000x64_S240x64_1_0_0_1_n_n.rhsIdx i q 0).val = (q ⟨0, by decide⟩).val :=
  dot_S240x12000_S12000x64_S240x64_1_0_0_1_n_n.rhsIdx_val_of_single rfl i q
theorem rhsE_1 (i : S240x64.Idx) (q : dot_S240x12000_S12000x64_S240x64_1_0_0_1_n_n.contr.Idx) : (dot_S240x12000_S12000x64_S240x64_1_0_0_1_n_n.rhsIdx i q 1).val = (i 1).val := by
  unfold DotDims.rhsIdx
  rw [dif_neg (show ¬(1 : Fin S12000x64.rank) ∈ dot_S240x12000_S12000x64_S240x64_1_0_0_1_n_n.rhsBatch by decide),
    dif_pos (show (1 : Fin S12000x64.rank) ∈ dot_S240x12000_S12000x64_S240x64_1_0_0_1_n_n.rhsNonContracting by decide)]
  rfl

/-- Entry (p, q) of the product into a zero accumulator: row p of the left factor against column q of the right. -/
theorem mmE_apply (a : FVec Ideal S240x12000 .bf16) (b : FVec Ideal S12000x64 .bf16) (p : Fin 240) (q : Fin 64) :
    matmul dot_S240x12000_S12000x64_S240x64_1_0_0_1_n_n none a b (constant S240x64 .f32 0x00000000#32) (ix2 p q)
      = ∑ k : Fin 12000, a (ix2 p k) * b (ix2 k q) := by
  simp only [matmul]
  rw [Ideal.matmul_constant_zero_apply, ← Equiv.sum_comp (contrEquiv1 dot_S240x12000_S12000x64_S240x64_1_0_0_1_n_n 12000 rfl rfl).symm]
  refine Finset.sum_congr rfl fun k _ => ?_
  have hk := contrEquiv1_symm_val dot_S240x12000_S12000x64_S240x64_1_0_0_1_n_n 12000 rfl rfl k
  have el : dot_S240x12000_S12000x64_S240x64_1_0_0_1_n_n.lhsIdx (ix2 p q) ((contrEquiv1 dot_S240x12000_S12000x64_S240x64_1_0_0_1_n_n 12000 rfl rfl).symm k) = ix2 p k :=
    funext fun d => Fin.ext (by
      match d with
      | ⟨0, _⟩ => exact lhsE_0 _ _
      | ⟨1, _⟩ => exact (lhsE_1 _ _).trans hk)
  have er : dot_S240x12000_S12000x64_S240x64_1_0_0_1_n_n.rhsIdx (ix2 p q) ((contrEquiv1 dot_S240x12000_S12000x64_S240x64_1_0_0_1_n_n 12000 rfl rfl).symm k) = ix2 k q :=
    funext fun d => Fin.ext (by
      match d with
      | ⟨0, _⟩ => exact (rhsE_0 _ _).trans hk
      | ⟨1, _⟩ => exact rhsE_1 _ _)
  rw [el, er]

/-- The bias row [1, 64] spread over the 240 rows reads its column. -/
theorem biasE_apply (v : FVec Ideal S1x64 .f32) (p : Fin 240) (q : Fin 64) :
    broadcastTo S240x64 v broadcasts_S1x64_S240x64 (ix2 p q) = v (ix2 0 q) :=
  broadcastTo_apply v broadcasts_S1x64_S240x64 (ix2 p q) (ix2 0 q) (fun d => by
    match d with
    | ⟨0, _⟩ => rfl
    | ⟨1, _⟩ => rfl)

/-- The whole sum at (p, q): the product into the zero accumulator plus the spread bias row (the identity casts the
    body applies to its three loads drop out). -/
theorem sumE_apply (a : FVec Ideal S240x12000 .bf16) (b : FVec Ideal S12000x64 .bf16) (v : FVec Ideal S1x64 .f32) (p : Fin 240) (q : Fin 64) :
    addf (matmul dot_S240x12000_S12000x64_S240x64_1_0_0_1_n_n none (shapeCast S240x12000 a shapeCasts_S240x12000_S240x12000) (shapeCast S12000x64 b shapeCasts_S12000x64_S12000x64)
        (constant (F := Ideal) S240x64 .f32 0x00000000#32))
      (broadcastTo S240x64 (shapeCast S1x64 v shapeCasts_S1x64_S1x64) broadcasts_S1x64_S240x64) (ix2 p q)
      = (∑ k : Fin 12000, a (ix2 p k) * b (ix2 k q)) + v (ix2 0 q) := by
  rw [shapeCast_self a, shapeCast_self b, shapeCast_self v]
  exact congrArg₂ (· + ·) (mmE_apply a b p q) (biasE_apply v p q)

/-! ### The [1024, 64] × [64, 1024] product -/

theorem lhsG_0 (i : S1024x1024.Idx) (q : dot_S1024x64_S64x1024_S1024x1024_1_0_0_1_n_n.contr.Idx) : (dot_S1024x64_S64x1024_S1024x1024_1_0_0_1_n_n.lhsIdx i q 0).val = (i 0).val := by
  unfold DotDims.lhsIdx
  rw [dif_neg (show ¬(0 : Fin S1024x64.rank) ∈ dot_S1024x64_S64x1024_S1024x1024_1_0_0_1_n_n.lhsBatch by decide),
    dif_pos (show (0 : Fin S1024x64.rank) ∈ dot_S1024x64_S64x1024_S1024x1024_1_0_0_1_n_n.lhsNonContracting by decide)]
  rfl
theorem lhsG_1 (i : S1024x1024.Idx) (q : dot_S1024x64_S64x1024_S1024x1024_1_0_0_1_n_n.contr.Idx) : (dot_S1024x64_S64x1024_S1024x1024_1_0_0_1_n_n.lhsIdx i q 1).val = (q ⟨0, by decide⟩).val :=
  dot_S1024x64_S64x1024_S1024x1024_1_0_0_1_n_n.lhsIdx_val_of_single rfl i q
theorem rhsG_0 (i : S1024x1024.Idx) (q : dot_S1024x64_S64x1024_S1024x1024_1_0_0_1_n_n.contr.Idx) : (dot_S1024x64_S64x1024_S1024x1024_1_0_0_1_n_n.rhsIdx i q 0).val = (q ⟨0, by decide⟩).val :=
  dot_S1024x64_S64x1024_S1024x1024_1_0_0_1_n_n.rhsIdx_val_of_single rfl i q
theorem rhsG_1 (i : S1024x1024.Idx) (q : dot_S1024x64_S64x1024_S1024x1024_1_0_0_1_n_n.contr.Idx) : (dot_S1024x64_S64x1024_S1024x1024_1_0_0_1_n_n.rhsIdx i q 1).val = (i 1).val := by
  unfold DotDims.rhsIdx
  rw [dif_neg (show ¬(1 : Fin S64x1024.rank) ∈ dot_S1024x64_S64x1024_S1024x1024_1_0_0_1_n_n.rhsBatch by decide),
    dif_pos (show (1 : Fin S64x1024.rank) ∈ dot_S1024x64_S64x1024_S1024x1024_1_0_0_1_n_n.rhsNonContracting by decide)]
  rfl

/-- Entry (p, q) of the product into a zero accumulator: row p of the left factor against column q of the right. -/
theorem mmG_apply (a : FVec Ideal S1024x64 .bf16) (b : FVec Ideal S64x1024 .bf16) (p : Fin 1024) (q : Fin 1024) :
    matmul dot_S1024x64_S64x1024_S1024x1024_1_0_0_1_n_n none a b (constant S1024x1024 .f32 0x00000000#32) (ix2 p q)
      = ∑ k : Fin 64, a (ix2 p k) * b (ix2 k q) := by
  simp only [matmul]
  rw [Ideal.matmul_constant_zero_apply, ← Equiv.sum_comp (contrEquiv1 dot_S1024x64_S64x1024_S1024x1024_1_0_0_1_n_n 64 rfl rfl).symm]
  refine Finset.sum_congr rfl fun k _ => ?_
  have hk := contrEquiv1_symm_val dot_S1024x64_S64x1024_S1024x1024_1_0_0_1_n_n 64 rfl rfl k
  have el : dot_S1024x64_S64x1024_S1024x1024_1_0_0_1_n_n.lhsIdx (ix2 p q) ((contrEquiv1 dot_S1024x64_S64x1024_S1024x1024_1_0_0_1_n_n 64 rfl rfl).symm k) = ix2 p k :=
    funext fun d => Fin.ext (by
      match d with
      | ⟨0, _⟩ => exact lhsG_0 _ _
      | ⟨1, _⟩ => exact (lhsG_1 _ _).trans hk)
  have er : dot_S1024x64_S64x1024_S1024x1024_1_0_0_1_n_n.rhsIdx (ix2 p q) ((contrEquiv1 dot_S1024x64_S64x1024_S1024x1024_1_0_0_1_n_n 64 rfl rfl).symm k) = ix2 k q :=
    funext fun d => Fin.ext (by
      match d with
      | ⟨0, _⟩ => exact (rhsG_0 _ _).trans hk
      | ⟨1, _⟩ => exact rhsG_1 _ _)
  rw [el, er]

/-- The bias row [1, 1024] spread over the 1024 rows reads its column. -/
theorem biasG_apply (v : FVec Ideal S1x1024 .f32) (p : Fin 1024) (q : Fin 1024) :
    broadcastTo S1024x1024 v broadcasts_S1x1024_S1024x1024 (ix2 p q) = v (ix2 0 q) :=
  broadcastTo_apply v broadcasts_S1x1024_S1024x1024 (ix2 p q) (ix2 0 q) (fun d => by
    match d with
    | ⟨0, _⟩ => rfl
    | ⟨1, _⟩ => rfl)

/-- The whole sum at (p, q): the product into the zero accumulator plus the spread bias row (the identity casts the
    body applies to its three loads drop out). -/
theorem sumG_apply (a : FVec Ideal S1024x64 .bf16) (b : FVec Ideal S64x1024 .bf16) (v : FVec Ideal S1x1024 .f32) (p : Fin 1024) (q : Fin 1024) :
    addf (matmul dot_S1024x64_S64x1024_S1024x1024_1_0_0_1_n_n none (shapeCast S1024x64 a shapeCasts_S1024x64_S1024x64) (shapeCast S64x1024 b shapeCasts_S64x1024_S64x1024)
        (constant (F := Ideal) S1024x1024 .f32 0x00000000#32))
      (broadcastTo S1024x1024 (shapeCast S1x1024 v shapeCasts_S1x1024_S1x1024) broadcasts_S1x1024_S1024x1024) (ix2 p q)
      = (∑ k : Fin 64, a (ix2 p k) * b (ix2 k q)) + v (ix2 0 q) := by
  rw [shapeCast_self a, shapeCast_self b, shapeCast_self v]
  exact congrArg₂ (· + ·) (mmG_apply a b p q) (biasG_apply v p q)

/-! ## The seven bodies -/

/-- Region 0's stored value at (p, q): the product's entry plus the bias. -/
theorem pay0_apply (v0 : Vec Ideal S1200x512 .bf16) (v2 : Vec Ideal S512x256 .bf16) (v5 : Vec Ideal S1x256 .f32) (p : Fin 1200) (q : Fin 256) :
    k0_pay1 (F := Ideal) v0 v2 v5 (ix2 p q) = (∑ k : Fin 512, v0 (ix2 p k) * v2 (ix2 k q)) + v5 (ix2 0 q) :=
  sumA_apply v0 v2 v5 p q

/-- Region 1's stored value at (p, q): the larger of zero and the product's entry plus the bias. -/
theorem pay1_apply (v0 : Vec Ideal S240x12000 .bf16) (v2 : Vec Ideal S12000x256 .bf16) (v5 : Vec Ideal S1x256 .f32) (p : Fin 240) (q : Fin 256) :
    k1_pay1 (F := Ideal) v0 v2 v5 (ix2 p q) = max ((∑ k : Fin 12000, v0 (ix2 p k) * v2 (ix2 k q)) + v5 (ix2 0 q)) 0 :=
by
  refine (congrArg (fun x : EReal => max x (Ideal.ofBits .f32 0x00000000#32)) (sumB_apply v0 v2 v5 p q)).trans ?_
  rw [Ideal.ofBits_zero_f32]

/-- Region 2's stored value at (p, q): the product's entry plus the bias. -/
theorem pay2_apply (v0 : Vec Ideal S1200x256 .bf16) (v2 : Vec Ideal S256x256 .bf16) (v5 : Vec Ideal S1x256 .f32) (p : Fin 1200) (q : Fin 256) :
    k2_pay1 (F := Ideal) v0 v2 v5 (ix2 p q) = (∑ k : Fin 256, v0 (ix2 p k) * v2 (ix2 k q)) + v5 (ix2 0 q) :=
  sumC_apply v0 v2 v5 p q

/-- Region 3's stored value at (p, q): the larger of zero and the product's entry plus the bias. -/
theorem pay3_apply (v0 : Vec Ideal S240x12000 .bf16) (v2 : Vec Ideal S12000x256 .bf16) (v5 : Vec Ideal S1x256 .f32) (p : Fin 240) (q : Fin 256) :
    k3_pay1 (F := Ideal) v0 v2 v5 (ix2 p q) = max ((∑ k : Fin 12000, v0 (ix2 p k) * v2 (ix2 k q)) + v5 (ix2 0 q)) 0 :=
by
  refine (congrArg (fun x : EReal => max x (Ideal.ofBits .f32 0x00000000#32)) (sumB_apply v0 v2 v5 p q)).trans ?_
  rw [Ideal.ofBits_zero_f32]

/-- Region 4's stored value at (p, q): the product's entry plus the bias. -/
theorem pay4_apply (v0 : Vec Ideal S1200x256 .bf16) (v2 : Vec Ideal S256x64 .bf16) (v5 : Vec Ideal S1x64 .f32) (p : Fin 1200) (q : Fin 64) :
    k4_pay1 (F := Ideal) v0 v2 v5 (ix2 p q) = (∑ k : Fin 256, v0 (ix2 p k) * v2 (ix2 k q)) + v5 (ix2 0 q) :=
  sumD_apply v0 v2 v5 p q

/-- Region 5's stored value at (p, q): the product's entry plus the bias. -/
theorem pay5_apply (v0 : Vec Ideal S240x12000 .bf16) (v2 : Vec Ideal S12000x64 .bf16) (v5 : Vec Ideal S1x64 .f32) (p : Fin 240) (q : Fin 64) :
    k5_pay1 (F := Ideal) v0 v2 v5 (ix2 p q) = (∑ k : Fin 12000, v0 (ix2 p k) * v2 (ix2 k q)) + v5 (ix2 0 q) :=
  sumE_apply v0 v2 v5 p q

/-- Region 6's stored value at (p, q): the logistic function of the product's entry plus the bias. -/
theorem pay6_apply (v0 : Vec Ideal S1024x64 .bf16) (v2 : Vec Ideal S64x1024 .bf16) (v5 : Vec Ideal S1x1024 .f32) (p : Fin 1024) (q : Fin 1024) :
    k6_pay1 (F := Ideal) v0 v2 v5 (ix2 p q) = Ideal.logistic ((∑ k : Fin 64, v0 (ix2 p k) * v2 (ix2 k q)) + v5 (ix2 0 q)) :=
  congrArg Ideal.logistic (sumG_apply v0 v2 v5 p q)

end Cert.KernelIdeal.Payload

end
-- ==== Proof.Region0.lean ====
/-
  Region 0: what its output array holds when the region is left.

  The grid has 10 × 1 points. Point (i, j) reads rows [1200·i, 1200·i + 1200) of the left factor (all 512 columns), columns
  [256·j, 256·j + 256) of the right factor and of the one-row bias, and writes that 1200 × 256 block of the output: the product plus
  the bias. The blocks tile the 12000 × 256 output, so the whole array ends as one function of the
  whole input arrays, entry by entry.
-/
import proofs.«172150_j2473901162945_1_alg».proof.Proof.Gen.KernelIdeal.Frame
import proofs.«172150_j2473901162945_1_alg».proof.Proof.Payload
import proofs.«172150_j2473901162945_1_alg».proof.Proof.Spec
import Idealize.ShloMosaic.Lib.Pipeline.Value
import Idealize.ShloMosaic.Lib.ValueIdx

set_option maxRecDepth 16384
set_option maxHeartbeats 4000000

noncomputable section

namespace Cert.KernelIdeal.Region0

open Cert.KernelIdeal Cert.KernelIdeal.Gen Cert.KernelIdeal.Payload
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the left factor's block moves down with the output's and stays in the first block
    column; the right factor's and the bias's move right with the output's and stay in the first block row. -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = win0_3.index t (1 : Fin 2)
    ∧ win0_2.index t (0 : Fin 2) = 0 ∧ win0_2.index t (1 : Fin 2) = win0_3.index t (1 : Fin 2)
    ∧ win0_3.index t (0 : Fin 2) ≤ 9 ∧ win0_3.index t (1 : Fin 2) ≤ 0 :=
  (by decide +kernel : ∀ t : Fin grid0.N, _)

/-- Every block of the output is some point's. -/
theorem idx_onto : ∀ (q0 : Fin 10) (q1 : Fin 1), ∃ t : Fin cfg0.N, win0_3.index t = ![q0.val, q1.val] :=
  (by decide +kernel : ∀ (q0 : Fin 10) (q1 : Fin 1), ∃ t : Fin grid0.N, win0_3.index t = ![q0.val, q1.val])

/-- What point `t` writes back is block `t` of the whole-array function of the arrays the region found. -/
theorem flushed_eq (c : Dev nD) (t : Fin cfg0.N) :
    (dat0 V c).flushed 3 t = ((cfg0.win 3).blk t).view.read (Elt Ideal) (Spec.affine (M := 12000) (K := 512) (N := 256) (V c main_v49) (V c main_v50) (V c main_v48)) := by
  show (cfg0.win 3).cut (grid0.coords t) ((dat0 V c).after 3 t) = _
  rw [after0_3]
  unfold out0_3
  rw [View.canon_unit_zero hz]
  simp only [View.ld_unit_zero (S := S1200x512) hz, View.ld_unit_zero (S := S512x256) hz, View.ld_unit_zero (S := S1x256) hz]
  obtain ⟨e0, e1, e2, e3, e4, e5, e6, e7⟩ := idx_facts t
  funext j
  obtain ⟨p, q, rfl⟩ : ∃ (p : Fin 1200) (q : Fin 256), j = ix2 p q := ⟨j 0, j 1, eq_ix2 j⟩
  show k0_pay1 (F := Ideal) (iblk0 V c 0 t) (iblk0 V c 1 t) (iblk0 V c 2 t) (ix2 p q)
      = (Spec.affine (M := 12000) (K := 512) (N := 256) (V c main_v49) (V c main_v50) (V c main_v48)) (((cfg0.win 3).blk t).view.emb (ix2 p q))
  refine (pay0_apply (iblk0 V c 0 t) (iblk0 V c 1 t) (iblk0 V c 2 t) p q).trans ?_
  have hrow : ((((cfg0.win 3).blk t).view.emb (ix2 p q)) 0).val = win0_3.index t (0 : Fin 2) * 1200 + 1 * p.val := rfl
  have hcol : ((((cfg0.win 3).blk t).view.emb (ix2 p q)) 1).val = win0_3.index t (1 : Fin 2) * 256 + 1 * q.val := rfl
  have hA : ∀ k : Fin 512, iblk0 V c 0 t (ix2 p k) = V c main_v49 (ix2 ((((cfg0.win 3).blk t).view.emb (ix2 p q)) 0) k) := by
    intro k
    show V c main_v49 (((cfg0.win 0).blk t).view.emb (ix2 p k)) = _
    refine congrArg (V c main_v49) (funext fun d => Fin.ext ?_)
    match d with
    | ⟨0, _⟩ =>
      show win0_0.index t (0 : Fin 2) * 1200 + 1 * p.val = ((((cfg0.win 3).blk t).view.emb (ix2 p q)) 0).val
      rw [hrow]; omega
    | ⟨1, _⟩ =>
      show win0_0.index t (1 : Fin 2) * 512 + 1 * k.val = k.val
      omega
  have hB : ∀ k : Fin 512, iblk0 V c 1 t (ix2 k q) = V c main_v50 (ix2 k ((((cfg0.win 3).blk t).view.emb (ix2 p q)) 1)) := by
    intro k
    show V c main_v50 (((cfg0.win 1).blk t).view.emb (ix2 k q)) = _
    refine congrArg (V c main_v50) (funext fun d => Fin.ext ?_)
    match d with
    | ⟨0, _⟩ =>
      show win0_1.index t (0 : Fin 2) * 512 + 1 * k.val = k.val
      omega
    | ⟨1, _⟩ =>
      show win0_1.index t (1 : Fin 2) * 256 + 1 * q.val = ((((cfg0.win 3).blk t).view.emb (ix2 p q)) 1).val
      rw [hcol]; omega
  have hC : iblk0 V c 2 t (ix2 0 q) = V c main_v48 (ix2 0 ((((cfg0.win 3).blk t).view.emb (ix2 p q)) 1)) := by
    show V c main_v48 (((cfg0.win 2).blk t).view.emb (ix2 0 q)) = _
    refine congrArg (V c main_v48) (funext fun d => Fin.ext ?_)
    match d with
    | ⟨0, _⟩ =>
      show win0_2.index t (0 : Fin 2) * 1 + 1 * 0 = 0
      omega
    | ⟨1, _⟩ =>
      show win0_2.index t (1 : Fin 2) * 256 + 1 * q.val = ((((cfg0.win 3).blk t).view.emb (ix2 p q)) 1).val
      rw [hcol]; omega
  unfold Spec.affine Spec.mm
  rw [hC]
  exact congrArg (· + _) (Finset.sum_congr rfl fun k _ => by rw [hA k, hB k])

/-- An index of the output array is in point `t`'s block iff each coordinate is in the block's range on its axis. -/
theorem mem_blk (t : Fin cfg0.N) (i : S12000x256.Idx) :
    i ∈ ((cfg0.win 3).blk t).view.set ↔ ∀ a : Fin 2, win0_3.index t a * S1200x256.size a ≤ (i a).val ∧ (i a).val < win0_3.index t a * S1200x256.size a + S1200x256.size a := by
  show i ∈ ((View.whole main_v51).slice (win0_3.rect t)).set ↔ _
  rw [View.set_slice_whole, Rect.mem_set_unit]
  exact Iff.rfl

/-- The blocks tile the output: entry (r, s) is in the block of the point (r / 1200, s / 256). -/
theorem cover (i : S12000x256.Idx) : ∃ t : Fin cfg0.N, (cfg0.win 3).flush t = true ∧ i ∈ ((cfg0.win 3).blk t).view.set := by
  have hi0 : (i 0).val < 12000 := (i 0).isLt
  have hi1 : (i 1).val < 256 := (i 1).isLt
  obtain ⟨t, ht⟩ := idx_onto ⟨(i 0).val / 1200, by omega⟩ ⟨(i 1).val / 256, by omega⟩
  have q0 : win0_3.index t (0 : Fin 2) = (i 0).val / 1200 := congrFun ht 0
  have q1 : win0_3.index t (1 : Fin 2) = (i 1).val / 256 := congrFun ht 1
  refine ⟨t, flush0_3 t, ?_⟩
  rw [mem_blk]
  intro a
  match a with
  | ⟨0, _⟩ => show win0_3.index t (0 : Fin 2) * 1200 ≤ (i 0).val ∧ (i 0).val < win0_3.index t (0 : Fin 2) * 1200 + 1200; omega
  | ⟨1, _⟩ => show win0_3.index t (1 : Fin 2) * 256 ≤ (i 1).val ∧ (i 1).val < win0_3.index t (1 : Fin 2) * 256 + 256; omega

/-- After the region its output array is that function of the arrays the region found. -/
theorem final (c : Dev nD) : (dat0 V c).arrAt 3 cfg0.N = Spec.affine (M := 12000) (K := 512) (N := 256) (V c main_v49) (V c main_v50) (V c main_v48) :=
  (dat0 V c).arrAt_eq_of_cover 3 _ (fun t _ => flushed_eq V c t) cover

end Cert.KernelIdeal.Region0

end
-- ==== Proof.Region1.lean ====
/-
  Region 1: what its output array holds when the region is left.

  The grid has 50 × 1 points. Point (i, j) reads rows [240·i, 240·i + 240) of the left factor (all 12000 columns), columns
  [256·j, 256·j + 256) of the right factor and of the one-row bias, and writes that 240 × 256 block of the output: the product plus
  the bias, then the larger of it and zero. The blocks tile the 12000 × 256 output, so the whole array ends as one function of the
  whole input arrays, entry by entry.
-/
import proofs.«172150_j2473901162945_1_alg».proof.Proof.Gen.KernelIdeal.Frame
import proofs.«172150_j2473901162945_1_alg».proof.Proof.Payload
import proofs.«172150_j2473901162945_1_alg».proof.Proof.Spec
import Idealize.ShloMosaic.Lib.Pipeline.Value
import Idealize.ShloMosaic.Lib.ValueIdx

set_option maxRecDepth 16384
set_option maxHeartbeats 4000000

noncomputable section

namespace Cert.KernelIdeal.Region1

open Cert.KernelIdeal Cert.KernelIdeal.Gen Cert.KernelIdeal.Payload
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the left factor's block moves down with the output's and stays in the first block
    column; the right factor's and the bias's move right with the output's and stay in the first block row. -/
theorem idx_facts : ∀ t : Fin cfg1.N,
    win1_0.index t (0 : Fin 2) = win1_3.index t (0 : Fin 2) ∧ win1_0.index t (1 : Fin 2) = 0
    ∧ win1_1.index t (0 : Fin 2) = 0 ∧ win1_1.index t (1 : Fin 2) = win1_3.index t (1 : Fin 2)
    ∧ win1_2.index t (0 : Fin 2) = 0 ∧ win1_2.index t (1 : Fin 2) = win1_3.index t (1 : Fin 2)
    ∧ win1_3.index t (0 : Fin 2) ≤ 49 ∧ win1_3.index t (1 : Fin 2) ≤ 0 :=
  (by decide +kernel : ∀ t : Fin grid1.N, _)

/-- Every block of the output is some point's. -/
theorem idx_onto : ∀ (q0 : Fin 50) (q1 : Fin 1), ∃ t : Fin cfg1.N, win1_3.index t = ![q0.val, q1.val] :=
  (by decide +kernel : ∀ (q0 : Fin 50) (q1 : Fin 1), ∃ t : Fin grid1.N, win1_3.index t = ![q0.val, q1.val])

/-- What point `t` writes back is block `t` of the whole-array function of the arrays the region found. -/
theorem flushed_eq (c : Dev nD) (t : Fin cfg1.N) :
    (dat1 V c).flushed 3 t = ((cfg1.win 3).blk t).view.read (Elt Ideal) (Spec.relu (Spec.affine (M := 12000) (K := 12000) (N := 256) (V c main_v47) (V c main_v53) (V c main_v52))) := by
  show (cfg1.win 3).cut (grid1.coords t) ((dat1 V c).after 3 t) = _
  rw [after1_3]
  unfold out1_3
  rw [View.canon_unit_zero hz]
  simp only [View.ld_unit_zero (S := S240x12000) hz, View.ld_unit_zero (S := S12000x256) hz, View.ld_unit_zero (S := S1x256) hz]
  obtain ⟨e0, e1, e2, e3, e4, e5, e6, e7⟩ := idx_facts t
  funext j
  obtain ⟨p, q, rfl⟩ : ∃ (p : Fin 240) (q : Fin 256), j = ix2 p q := ⟨j 0, j 1, eq_ix2 j⟩
  show k1_pay1 (F := Ideal) (iblk1 V c 0 t) (iblk1 V c 1 t) (iblk1 V c 2 t) (ix2 p q)
      = (Spec.relu (Spec.affine (M := 12000) (K := 12000) (N := 256) (V c main_v47) (V c main_v53) (V c main_v52))) (((cfg1.win 3).blk t).view.emb (ix2 p q))
  refine (pay1_apply (iblk1 V c 0 t) (iblk1 V c 1 t) (iblk1 V c 2 t) p q).trans ?_
  show max _ (0 : EReal) = max (Spec.affine (M := 12000) (K := 12000) (N := 256) (V c main_v47) (V c main_v53) (V c main_v52) (((cfg1.win 3).blk t).view.emb (ix2 p q))) 0
  refine congrArg (fun x : EReal => max x 0) ?_
  have hrow : ((((cfg1.win 3).blk t).view.emb (ix2 p q)) 0).val = win1_3.index t (0 : Fin 2) * 240 + 1 * p.val := rfl
  have hcol : ((((cfg1.win 3).blk t).view.emb (ix2 p q)) 1).val = win1_3.index t (1 : Fin 2) * 256 + 1 * q.val := rfl
  have hA : ∀ k : Fin 12000, iblk1 V c 0 t (ix2 p k) = V c main_v47 (ix2 ((((cfg1.win 3).blk t).view.emb (ix2 p q)) 0) k) := by
    intro k
    show V c main_v47 (((cfg1.win 0).blk t).view.emb (ix2 p k)) = _
    refine congrArg (V c main_v47) (funext fun d => Fin.ext ?_)
    match d with
    | ⟨0, _⟩ =>
      show win1_0.index t (0 : Fin 2) * 240 + 1 * p.val = ((((cfg1.win 3).blk t).view.emb (ix2 p q)) 0).val
      rw [hrow]; omega
    | ⟨1, _⟩ =>
      show win1_0.index t (1 : Fin 2) * 12000 + 1 * k.val = k.val
      omega
  have hB : ∀ k : Fin 12000, iblk1 V c 1 t (ix2 k q) = V c main_v53 (ix2 k ((((cfg1.win 3).blk t).view.emb (ix2 p q)) 1)) := by
    intro k
    show V c main_v53 (((cfg1.win 1).blk t).view.emb (ix2 k q)) = _
    refine congrArg (V c main_v53) (funext fun d => Fin.ext ?_)
    match d with
    | ⟨0, _⟩ =>
      show win1_1.index t (0 : Fin 2) * 12000 + 1 * k.val = k.val
      omega
    | ⟨1, _⟩ =>
      show win1_1.index t (1 : Fin 2) * 256 + 1 * q.val = ((((cfg1.win 3).blk t).view.emb (ix2 p q)) 1).val
      rw [hcol]; omega
  have hC : iblk1 V c 2 t (ix2 0 q) = V c main_v52 (ix2 0 ((((cfg1.win 3).blk t).view.emb (ix2 p q)) 1)) := by
    show V c main_v52 (((cfg1.win 2).blk t).view.emb (ix2 0 q)) = _
    refine congrArg (V c main_v52) (funext fun d => Fin.ext ?_)
    match d with
    | ⟨0, _⟩ =>
      show win1_2.index t (0 : Fin 2) * 1 + 1 * 0 = 0
      omega
    | ⟨1, _⟩ =>
      show win1_2.index t (1 : Fin 2) * 256 + 1 * q.val = ((((cfg1.win 3).blk t).view.emb (ix2 p q)) 1).val
      rw [hcol]; omega
  unfold Spec.affine Spec.mm
  rw [hC]
  exact congrArg (· + _) (Finset.sum_congr rfl fun k _ => by rw [hA k, hB k])

/-- An index of the output array is in point `t`'s block iff each coordinate is in the block's range on its axis. -/
theorem mem_blk (t : Fin cfg1.N) (i : S12000x256.Idx) :
    i ∈ ((cfg1.win 3).blk t).view.set ↔ ∀ a : Fin 2, win1_3.index t a * S240x256.size a ≤ (i a).val ∧ (i a).val < win1_3.index t a * S240x256.size a + S240x256.size a := by
  show i ∈ ((View.whole main_v54).slice (win1_3.rect t)).set ↔ _
  rw [View.set_slice_whole, Rect.mem_set_unit]
  exact Iff.rfl

/-- The blocks tile the output: entry (r, s) is in the block of the point (r / 240, s / 256). -/
theorem cover (i : S12000x256.Idx) : ∃ t : Fin cfg1.N, (cfg1.win 3).flush t = true ∧ i ∈ ((cfg1.win 3).blk t).view.set := by
  have hi0 : (i 0).val < 12000 := (i 0).isLt
  have hi1 : (i 1).val < 256 := (i 1).isLt
  obtain ⟨t, ht⟩ := idx_onto ⟨(i 0).val / 240, by omega⟩ ⟨(i 1).val / 256, by omega⟩
  have q0 : win1_3.index t (0 : Fin 2) = (i 0).val / 240 := congrFun ht 0
  have q1 : win1_3.index t (1 : Fin 2) = (i 1).val / 256 := congrFun ht 1
  refine ⟨t, flush1_3 t, ?_⟩
  rw [mem_blk]
  intro a
  match a with
  | ⟨0, _⟩ => show win1_3.index t (0 : Fin 2) * 240 ≤ (i 0).val ∧ (i 0).val < win1_3.index t (0 : Fin 2) * 240 + 240; omega
  | ⟨1, _⟩ => show win1_3.index t (1 : Fin 2) * 256 ≤ (i 1).val ∧ (i 1).val < win1_3.index t (1 : Fin 2) * 256 + 256; omega

/-- After the region its output array is that function of the arrays the region found. -/
theorem final (c : Dev nD) : (dat1 V c).arrAt 3 cfg1.N = Spec.relu (Spec.affine (M := 12000) (K := 12000) (N := 256) (V c main_v47) (V c main_v53) (V c main_v52)) :=
  (dat1 V c).arrAt_eq_of_cover 3 _ (fun t _ => flushed_eq V c t) cover

end Cert.KernelIdeal.Region1

end
-- ==== Proof.Region2.lean ====
/-
  Region 2: what its output array holds when the region is left.

  The grid has 10 × 1 points. Point (i, j) reads rows [1200·i, 1200·i + 1200) of the left factor (all 256 columns), columns
  [256·j, 256·j + 256) of the right factor and of the one-row bias, and writes that 1200 × 256 block of the output: the product plus
  the bias. The blocks tile the 12000 × 256 output, so the whole array ends as one function of the
  whole input arrays, entry by entry.
-/
import proofs.«172150_j2473901162945_1_alg».proof.Proof.Gen.KernelIdeal.Frame
import proofs.«172150_j2473901162945_1_alg».proof.Proof.Payload
import proofs.«172150_j2473901162945_1_alg».proof.Proof.Spec
import Idealize.ShloMosaic.Lib.Pipeline.Value
import Idealize.ShloMosaic.Lib.ValueIdx

set_option maxRecDepth 16384
set_option maxHeartbeats 4000000

noncomputable section

namespace Cert.KernelIdeal.Region2

open Cert.KernelIdeal Cert.KernelIdeal.Gen Cert.KernelIdeal.Payload
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the left factor's block moves down with the output's and stays in the first block
    column; the right factor's and the bias's move right with the output's and stay in the first block row. -/
theorem idx_facts : ∀ t : Fin cfg2.N,
    win2_0.index t (0 : Fin 2) = win2_3.index t (0 : Fin 2) ∧ win2_0.index t (1 : Fin 2) = 0
    ∧ win2_1.index t (0 : Fin 2) = 0 ∧ win2_1.index t (1 : Fin 2) = win2_3.index t (1 : Fin 2)
    ∧ win2_2.index t (0 : Fin 2) = 0 ∧ win2_2.index t (1 : Fin 2) = win2_3.index t (1 : Fin 2)
    ∧ win2_3.index t (0 : Fin 2) ≤ 9 ∧ win2_3.index t (1 : Fin 2) ≤ 0 :=
  (by decide +kernel : ∀ t : Fin grid2.N, _)

/-- Every block of the output is some point's. -/
theorem idx_onto : ∀ (q0 : Fin 10) (q1 : Fin 1), ∃ t : Fin cfg2.N, win2_3.index t = ![q0.val, q1.val] :=
  (by decide +kernel : ∀ (q0 : Fin 10) (q1 : Fin 1), ∃ t : Fin grid2.N, win2_3.index t = ![q0.val, q1.val])

/-- What point `t` writes back is block `t` of the whole-array function of the arrays the region found. -/
theorem flushed_eq (c : Dev nD) (t : Fin cfg2.N) :
    (dat2 V c).flushed 3 t = ((cfg2.win 3).blk t).view.read (Elt Ideal) (Spec.affine (M := 12000) (K := 256) (N := 256) (V c main_v56) (V c main_v57) (V c main_v55)) := by
  show (cfg2.win 3).cut (grid2.coords t) ((dat2 V c).after 3 t) = _
  rw [after2_3]
  unfold out2_3
  rw [View.canon_unit_zero hz]
  simp only [View.ld_unit_zero (S := S1200x256) hz, View.ld_unit_zero (S := S256x256) hz, View.ld_unit_zero (S := S1x256) hz]
  obtain ⟨e0, e1, e2, e3, e4, e5, e6, e7⟩ := idx_facts t
  funext j
  obtain ⟨p, q, rfl⟩ : ∃ (p : Fin 1200) (q : Fin 256), j = ix2 p q := ⟨j 0, j 1, eq_ix2 j⟩
  show k2_pay1 (F := Ideal) (iblk2 V c 0 t) (iblk2 V c 1 t) (iblk2 V c 2 t) (ix2 p q)
      = (Spec.affine (M := 12000) (K := 256) (N := 256) (V c main_v56) (V c main_v57) (V c main_v55)) (((cfg2.win 3).blk t).view.emb (ix2 p q))
  refine (pay2_apply (iblk2 V c 0 t) (iblk2 V c 1 t) (iblk2 V c 2 t) p q).trans ?_
  have hrow : ((((cfg2.win 3).blk t).view.emb (ix2 p q)) 0).val = win2_3.index t (0 : Fin 2) * 1200 + 1 * p.val := rfl
  have hcol : ((((cfg2.win 3).blk t).view.emb (ix2 p q)) 1).val = win2_3.index t (1 : Fin 2) * 256 + 1 * q.val := rfl
  have hA : ∀ k : Fin 256, iblk2 V c 0 t (ix2 p k) = V c main_v56 (ix2 ((((cfg2.win 3).blk t).view.emb (ix2 p q)) 0) k) := by
    intro k
    show V c main_v56 (((cfg2.win 0).blk t).view.emb (ix2 p k)) = _
    refine congrArg (V c main_v56) (funext fun d => Fin.ext ?_)
    match d with
    | ⟨0, _⟩ =>
      show win2_0.index t (0 : Fin 2) * 1200 + 1 * p.val = ((((cfg2.win 3).blk t).view.emb (ix2 p q)) 0).val
      rw [hrow]; omega
    | ⟨1, _⟩ =>
      show win2_0.index t (1 : Fin 2) * 256 + 1 * k.val = k.val
      omega
  have hB : ∀ k : Fin 256, iblk2 V c 1 t (ix2 k q) = V c main_v57 (ix2 k ((((cfg2.win 3).blk t).view.emb (ix2 p q)) 1)) := by
    intro k
    show V c main_v57 (((cfg2.win 1).blk t).view.emb (ix2 k q)) = _
    refine congrArg (V c main_v57) (funext fun d => Fin.ext ?_)
    match d with
    | ⟨0, _⟩ =>
      show win2_1.index t (0 : Fin 2) * 256 + 1 * k.val = k.val
      omega
    | ⟨1, _⟩ =>
      show win2_1.index t (1 : Fin 2) * 256 + 1 * q.val = ((((cfg2.win 3).blk t).view.emb (ix2 p q)) 1).val
      rw [hcol]; omega
  have hC : iblk2 V c 2 t (ix2 0 q) = V c main_v55 (ix2 0 ((((cfg2.win 3).blk t).view.emb (ix2 p q)) 1)) := by
    show V c main_v55 (((cfg2.win 2).blk t).view.emb (ix2 0 q)) = _
    refine congrArg (V c main_v55) (funext fun d => Fin.ext ?_)
    match d with
    | ⟨0, _⟩ =>
      show win2_2.index t (0 : Fin 2) * 1 + 1 * 0 = 0
      omega
    | ⟨1, _⟩ =>
      show win2_2.index t (1 : Fin 2) * 256 + 1 * q.val = ((((cfg2.win 3).blk t).view.emb (ix2 p q)) 1).val
      rw [hcol]; omega
  unfold Spec.affine Spec.mm
  rw [hC]
  exact congrArg (· + _) (Finset.sum_congr rfl fun k _ => by rw [hA k, hB k])

/-- An index of the output array is in point `t`'s block iff each coordinate is in the block's range on its axis. -/
theorem mem_blk (t : Fin cfg2.N) (i : S12000x256.Idx) :
    i ∈ ((cfg2.win 3).blk t).view.set ↔ ∀ a : Fin 2, win2_3.index t a * S1200x256.size a ≤ (i a).val ∧ (i a).val < win2_3.index t a * S1200x256.size a + S1200x256.size a := by
  show i ∈ ((View.whole main_v58).slice (win2_3.rect t)).set ↔ _
  rw [View.set_slice_whole, Rect.mem_set_unit]
  exact Iff.rfl

/-- The blocks tile the output: entry (r, s) is in the block of the point (r / 1200, s / 256). -/
theorem cover (i : S12000x256.Idx) : ∃ t : Fin cfg2.N, (cfg2.win 3).flush t = true ∧ i ∈ ((cfg2.win 3).blk t).view.set := by
  have hi0 : (i 0).val < 12000 := (i 0).isLt
  have hi1 : (i 1).val < 256 := (i 1).isLt
  obtain ⟨t, ht⟩ := idx_onto ⟨(i 0).val / 1200, by omega⟩ ⟨(i 1).val / 256, by omega⟩
  have q0 : win2_3.index t (0 : Fin 2) = (i 0).val / 1200 := congrFun ht 0
  have q1 : win2_3.index t (1 : Fin 2) = (i 1).val / 256 := congrFun ht 1
  refine ⟨t, flush2_3 t, ?_⟩
  rw [mem_blk]
  intro a
  match a with
  | ⟨0, _⟩ => show win2_3.index t (0 : Fin 2) * 1200 ≤ (i 0).val ∧ (i 0).val < win2_3.index t (0 : Fin 2) * 1200 + 1200; omega
  | ⟨1, _⟩ => show win2_3.index t (1 : Fin 2) * 256 ≤ (i 1).val ∧ (i 1).val < win2_3.index t (1 : Fin 2) * 256 + 256; omega

/-- After the region its output array is that function of the arrays the region found. -/
theorem final (c : Dev nD) : (dat2 V c).arrAt 3 cfg2.N = Spec.affine (M := 12000) (K := 256) (N := 256) (V c main_v56) (V c main_v57) (V c main_v55) :=
  (dat2 V c).arrAt_eq_of_cover 3 _ (fun t _ => flushed_eq V c t) cover

end Cert.KernelIdeal.Region2

end
-- ==== Proof.Region3.lean ====
/-
  Region 3: what its output array holds when the region is left.

  The grid has 50 × 1 points. Point (i, j) reads rows [240·i, 240·i + 240) of the left factor (all 12000 columns), columns
  [256·j, 256·j + 256) of the right factor and of the one-row bias, and writes that 240 × 256 block of the output: the product plus
  the bias, then the larger of it and zero. The blocks tile the 12000 × 256 output, so the whole array ends as one function of the
  whole input arrays, entry by entry.
-/
import proofs.«172150_j2473901162945_1_alg».proof.Proof.Gen.KernelIdeal.Frame
import proofs.«172150_j2473901162945_1_alg».proof.Proof.Payload
import proofs.«172150_j2473901162945_1_alg».proof.Proof.Spec
import Idealize.ShloMosaic.Lib.Pipeline.Value
import Idealize.ShloMosaic.Lib.ValueIdx

set_option maxRecDepth 16384
set_option maxHeartbeats 4000000

noncomputable section

namespace Cert.KernelIdeal.Region3

open Cert.KernelIdeal Cert.KernelIdeal.Gen Cert.KernelIdeal.Payload
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the left factor's block moves down with the output's and stays in the first block
    column; the right factor's and the bias's move right with the output's and stay in the first block row. -/
theorem idx_facts : ∀ t : Fin cfg3.N,
    win3_0.index t (0 : Fin 2) = win3_3.index t (0 : Fin 2) ∧ win3_0.index t (1 : Fin 2) = 0
    ∧ win3_1.index t (0 : Fin 2) = 0 ∧ win3_1.index t (1 : Fin 2) = win3_3.index t (1 : Fin 2)
    ∧ win3_2.index t (0 : Fin 2) = 0 ∧ win3_2.index t (1 : Fin 2) = win3_3.index t (1 : Fin 2)
    ∧ win3_3.index t (0 : Fin 2) ≤ 49 ∧ win3_3.index t (1 : Fin 2) ≤ 0 :=
  (by decide +kernel : ∀ t : Fin grid3.N, _)

/-- Every block of the output is some point's. -/
theorem idx_onto : ∀ (q0 : Fin 50) (q1 : Fin 1), ∃ t : Fin cfg3.N, win3_3.index t = ![q0.val, q1.val] :=
  (by decide +kernel : ∀ (q0 : Fin 50) (q1 : Fin 1), ∃ t : Fin grid3.N, win3_3.index t = ![q0.val, q1.val])

/-- What point `t` writes back is block `t` of the whole-array function of the arrays the region found. -/
theorem flushed_eq (c : Dev nD) (t : Fin cfg3.N) :
    (dat3 V c).flushed 3 t = ((cfg3.win 3).blk t).view.read (Elt Ideal) (Spec.relu (Spec.affine (M := 12000) (K := 12000) (N := 256) (V c main_v47) (V c main_v60) (V c main_v59))) := by
  show (cfg3.win 3).cut (grid3.coords t) ((dat3 V c).after 3 t) = _
  rw [after3_3]
  unfold out3_3
  rw [View.canon_unit_zero hz]
  simp only [View.ld_unit_zero (S := S240x12000) hz, View.ld_unit_zero (S := S12000x256) hz, View.ld_unit_zero (S := S1x256) hz]
  obtain ⟨e0, e1, e2, e3, e4, e5, e6, e7⟩ := idx_facts t
  funext j
  obtain ⟨p, q, rfl⟩ : ∃ (p : Fin 240) (q : Fin 256), j = ix2 p q := ⟨j 0, j 1, eq_ix2 j⟩
  show k3_pay1 (F := Ideal) (iblk3 V c 0 t) (iblk3 V c 1 t) (iblk3 V c 2 t) (ix2 p q)
      = (Spec.relu (Spec.affine (M := 12000) (K := 12000) (N := 256) (V c main_v47) (V c main_v60) (V c main_v59))) (((cfg3.win 3).blk t).view.emb (ix2 p q))
  refine (pay3_apply (iblk3 V c 0 t) (iblk3 V c 1 t) (iblk3 V c 2 t) p q).trans ?_
  show max _ (0 : EReal) = max (Spec.affine (M := 12000) (K := 12000) (N := 256) (V c main_v47) (V c main_v60) (V c main_v59) (((cfg3.win 3).blk t).view.emb (ix2 p q))) 0
  refine congrArg (fun x : EReal => max x 0) ?_
  have hrow : ((((cfg3.win 3).blk t).view.emb (ix2 p q)) 0).val = win3_3.index t (0 : Fin 2) * 240 + 1 * p.val := rfl
  have hcol : ((((cfg3.win 3).blk t).view.emb (ix2 p q)) 1).val = win3_3.index t (1 : Fin 2) * 256 + 1 * q.val := rfl
  have hA : ∀ k : Fin 12000, iblk3 V c 0 t (ix2 p k) = V c main_v47 (ix2 ((((cfg3.win 3).blk t).view.emb (ix2 p q)) 0) k) := by
    intro k
    show V c main_v47 (((cfg3.win 0).blk t).view.emb (ix2 p k)) = _
    refine congrArg (V c main_v47) (funext fun d => Fin.ext ?_)
    match d with
    | ⟨0, _⟩ =>
      show win3_0.index t (0 : Fin 2) * 240 + 1 * p.val = ((((cfg3.win 3).blk t).view.emb (ix2 p q)) 0).val
      rw [hrow]; omega
    | ⟨1, _⟩ =>
      show win3_0.index t (1 : Fin 2) * 12000 + 1 * k.val = k.val
      omega
  have hB : ∀ k : Fin 12000, iblk3 V c 1 t (ix2 k q) = V c main_v60 (ix2 k ((((cfg3.win 3).blk t).view.emb (ix2 p q)) 1)) := by
    intro k
    show V c main_v60 (((cfg3.win 1).blk t).view.emb (ix2 k q)) = _
    refine congrArg (V c main_v60) (funext fun d => Fin.ext ?_)
    match d with
    | ⟨0, _⟩ =>
      show win3_1.index t (0 : Fin 2) * 12000 + 1 * k.val = k.val
      omega
    | ⟨1, _⟩ =>
      show win3_1.index t (1 : Fin 2) * 256 + 1 * q.val = ((((cfg3.win 3).blk t).view.emb (ix2 p q)) 1).val
      rw [hcol]; omega
  have hC : iblk3 V c 2 t (ix2 0 q) = V c main_v59 (ix2 0 ((((cfg3.win 3).blk t).view.emb (ix2 p q)) 1)) := by
    show V c main_v59 (((cfg3.win 2).blk t).view.emb (ix2 0 q)) = _
    refine congrArg (V c main_v59) (funext fun d => Fin.ext ?_)
    match d with
    | ⟨0, _⟩ =>
      show win3_2.index t (0 : Fin 2) * 1 + 1 * 0 = 0
      omega
    | ⟨1, _⟩ =>
      show win3_2.index t (1 : Fin 2) * 256 + 1 * q.val = ((((cfg3.win 3).blk t).view.emb (ix2 p q)) 1).val
      rw [hcol]; omega
  unfold Spec.affine Spec.mm
  rw [hC]
  exact congrArg (· + _) (Finset.sum_congr rfl fun k _ => by rw [hA k, hB k])

/-- An index of the output array is in point `t`'s block iff each coordinate is in the block's range on its axis. -/
theorem mem_blk (t : Fin cfg3.N) (i : S12000x256.Idx) :
    i ∈ ((cfg3.win 3).blk t).view.set ↔ ∀ a : Fin 2, win3_3.index t a * S240x256.size a ≤ (i a).val ∧ (i a).val < win3_3.index t a * S240x256.size a + S240x256.size a := by
  show i ∈ ((View.whole main_v61).slice (win3_3.rect t)).set ↔ _
  rw [View.set_slice_whole, Rect.mem_set_unit]
  exact Iff.rfl

/-- The blocks tile the output: entry (r, s) is in the block of the point (r / 240, s / 256). -/
theorem cover (i : S12000x256.Idx) : ∃ t : Fin cfg3.N, (cfg3.win 3).flush t = true ∧ i ∈ ((cfg3.win 3).blk t).view.set := by
  have hi0 : (i 0).val < 12000 := (i 0).isLt
  have hi1 : (i 1).val < 256 := (i 1).isLt
  obtain ⟨t, ht⟩ := idx_onto ⟨(i 0).val / 240, by omega⟩ ⟨(i 1).val / 256, by omega⟩
  have q0 : win3_3.index t (0 : Fin 2) = (i 0).val / 240 := congrFun ht 0
  have q1 : win3_3.index t (1 : Fin 2) = (i 1).val / 256 := congrFun ht 1
  refine ⟨t, flush3_3 t, ?_⟩
  rw [mem_blk]
  intro a
  match a with
  | ⟨0, _⟩ => show win3_3.index t (0 : Fin 2) * 240 ≤ (i 0).val ∧ (i 0).val < win3_3.index t (0 : Fin 2) * 240 + 240; omega
  | ⟨1, _⟩ => show win3_3.index t (1 : Fin 2) * 256 ≤ (i 1).val ∧ (i 1).val < win3_3.index t (1 : Fin 2) * 256 + 256; omega

/-- After the region its output array is that function of the arrays the region found. -/
theorem final (c : Dev nD) : (dat3 V c).arrAt 3 cfg3.N = Spec.relu (Spec.affine (M := 12000) (K := 12000) (N := 256) (V c main_v47) (V c main_v60) (V c main_v59)) :=
  (dat3 V c).arrAt_eq_of_cover 3 _ (fun t _ => flushed_eq V c t) cover

end Cert.KernelIdeal.Region3

end
-- ==== Proof.Region4.lean ====
/-
  Region 4: what its output array holds when the region is left.

  The grid has 10 × 1 points. Point (i, j) reads rows [1200·i, 1200·i + 1200) of the left factor (all 256 columns), columns
  [64·j, 64·j + 64) of the right factor and of the one-row bias, and writes that 1200 × 64 block of the output: the product plus
  the bias. The blocks tile the 12000 × 64 output, so the whole array ends as one function of the
  whole input arrays, entry by entry.
-/
import proofs.«172150_j2473901162945_1_alg».proof.Proof.Gen.KernelIdeal.Frame
import proofs.«172150_j2473901162945_1_alg».proof.Proof.Payload
import proofs.«172150_j2473901162945_1_alg».proof.Proof.Spec
import Idealize.ShloMosaic.Lib.Pipeline.Value
import Idealize.ShloMosaic.Lib.ValueIdx

set_option maxRecDepth 16384
set_option maxHeartbeats 4000000

noncomputable section

namespace Cert.KernelIdeal.Region4

open Cert.KernelIdeal Cert.KernelIdeal.Gen Cert.KernelIdeal.Payload
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the left factor's block moves down with the output's and stays in the first block
    column; the right factor's and the bias's move right with the output's and stay in the first block row. -/
theorem idx_facts : ∀ t : Fin cfg4.N,
    win4_0.index t (0 : Fin 2) = win4_3.index t (0 : Fin 2) ∧ win4_0.index t (1 : Fin 2) = 0
    ∧ win4_1.index t (0 : Fin 2) = 0 ∧ win4_1.index t (1 : Fin 2) = win4_3.index t (1 : Fin 2)
    ∧ win4_2.index t (0 : Fin 2) = 0 ∧ win4_2.index t (1 : Fin 2) = win4_3.index t (1 : Fin 2)
    ∧ win4_3.index t (0 : Fin 2) ≤ 9 ∧ win4_3.index t (1 : Fin 2) ≤ 0 :=
  (by decide +kernel : ∀ t : Fin grid4.N, _)

/-- Every block of the output is some point's. -/
theorem idx_onto : ∀ (q0 : Fin 10) (q1 : Fin 1), ∃ t : Fin cfg4.N, win4_3.index t = ![q0.val, q1.val] :=
  (by decide +kernel : ∀ (q0 : Fin 10) (q1 : Fin 1), ∃ t : Fin grid4.N, win4_3.index t = ![q0.val, q1.val])

/-- What point `t` writes back is block `t` of the whole-array function of the arrays the region found. -/
theorem flushed_eq (c : Dev nD) (t : Fin cfg4.N) :
    (dat4 V c).flushed 3 t = ((cfg4.win 3).blk t).view.read (Elt Ideal) (Spec.affine (M := 12000) (K := 256) (N := 64) (V c main_v63) (V c main_v64) (V c main_v62)) := by
  show (cfg4.win 3).cut (grid4.coords t) ((dat4 V c).after 3 t) = _
  rw [after4_3]
  unfold out4_3
  rw [View.canon_unit_zero hz]
  simp only [View.ld_unit_zero (S := S1200x256) hz, View.ld_unit_zero (S := S256x64) hz, View.ld_unit_zero (S := S1x64) hz]
  obtain ⟨e0, e1, e2, e3, e4, e5, e6, e7⟩ := idx_facts t
  funext j
  obtain ⟨p, q, rfl⟩ : ∃ (p : Fin 1200) (q : Fin 64), j = ix2 p q := ⟨j 0, j 1, eq_ix2 j⟩
  show k4_pay1 (F := Ideal) (iblk4 V c 0 t) (iblk4 V c 1 t) (iblk4 V c 2 t) (ix2 p q)
      = (Spec.affine (M := 12000) (K := 256) (N := 64) (V c main_v63) (V c main_v64) (V c main_v62)) (((cfg4.win 3).blk t).view.emb (ix2 p q))
  refine (pay4_apply (iblk4 V c 0 t) (iblk4 V c 1 t) (iblk4 V c 2 t) p q).trans ?_
  have hrow : ((((cfg4.win 3).blk t).view.emb (ix2 p q)) 0).val = win4_3.index t (0 : Fin 2) * 1200 + 1 * p.val := rfl
  have hcol : ((((cfg4.win 3).blk t).view.emb (ix2 p q)) 1).val = win4_3.index t (1 : Fin 2) * 64 + 1 * q.val := rfl
  have hA : ∀ k : Fin 256, iblk4 V c 0 t (ix2 p k) = V c main_v63 (ix2 ((((cfg4.win 3).blk t).view.emb (ix2 p q)) 0) k) := by
    intro k
    show V c main_v63 (((cfg4.win 0).blk t).view.emb (ix2 p k)) = _
    refine congrArg (V c main_v63) (funext fun d => Fin.ext ?_)
    match d with
    | ⟨0, _⟩ =>
      show win4_0.index t (0 : Fin 2) * 1200 + 1 * p.val = ((((cfg4.win 3).blk t).view.emb (ix2 p q)) 0).val
      rw [hrow]; omega
    | ⟨1, _⟩ =>
      show win4_0.index t (1 : Fin 2) * 256 + 1 * k.val = k.val
      omega
  have hB : ∀ k : Fin 256, iblk4 V c 1 t (ix2 k q) = V c main_v64 (ix2 k ((((cfg4.win 3).blk t).view.emb (ix2 p q)) 1)) := by
    intro k
    show V c main_v64 (((cfg4.win 1).blk t).view.emb (ix2 k q)) = _
    refine congrArg (V c main_v64) (funext fun d => Fin.ext ?_)
    match d with
    | ⟨0, _⟩ =>
      show win4_1.index t (0 : Fin 2) * 256 + 1 * k.val = k.val
      omega
    | ⟨1, _⟩ =>
      show win4_1.index t (1 : Fin 2) * 64 + 1 * q.val = ((((cfg4.win 3).blk t).view.emb (ix2 p q)) 1).val
      rw [hcol]; omega
  have hC : iblk4 V c 2 t (ix2 0 q) = V c main_v62 (ix2 0 ((((cfg4.win 3).blk t).view.emb (ix2 p q)) 1)) := by
    show V c main_v62 (((cfg4.win 2).blk t).view.emb (ix2 0 q)) = _
    refine congrArg (V c main_v62) (funext fun d => Fin.ext ?_)
    match d with
    | ⟨0, _⟩ =>
      show win4_2.index t (0 : Fin 2) * 1 + 1 * 0 = 0
      omega
    | ⟨1, _⟩ =>
      show win4_2.index t (1 : Fin 2) * 64 + 1 * q.val = ((((cfg4.win 3).blk t).view.emb (ix2 p q)) 1).val
      rw [hcol]; omega
  unfold Spec.affine Spec.mm
  rw [hC]
  exact congrArg (· + _) (Finset.sum_congr rfl fun k _ => by rw [hA k, hB k])

/-- An index of the output array is in point `t`'s block iff each coordinate is in the block's range on its axis. -/
theorem mem_blk (t : Fin cfg4.N) (i : S12000x64.Idx) :
    i ∈ ((cfg4.win 3).blk t).view.set ↔ ∀ a : Fin 2, win4_3.index t a * S1200x64.size a ≤ (i a).val ∧ (i a).val < win4_3.index t a * S1200x64.size a + S1200x64.size a := by
  show i ∈ ((View.whole main_v65).slice (win4_3.rect t)).set ↔ _
  rw [View.set_slice_whole, Rect.mem_set_unit]
  exact Iff.rfl

/-- The blocks tile the output: entry (r, s) is in the block of the point (r / 1200, s / 64). -/
theorem cover (i : S12000x64.Idx) : ∃ t : Fin cfg4.N, (cfg4.win 3).flush t = true ∧ i ∈ ((cfg4.win 3).blk t).view.set := by
  have hi0 : (i 0).val < 12000 := (i 0).isLt
  have hi1 : (i 1).val < 64 := (i 1).isLt
  obtain ⟨t, ht⟩ := idx_onto ⟨(i 0).val / 1200, by omega⟩ ⟨(i 1).val / 64, by omega⟩
  have q0 : win4_3.index t (0 : Fin 2) = (i 0).val / 1200 := congrFun ht 0
  have q1 : win4_3.index t (1 : Fin 2) = (i 1).val / 64 := congrFun ht 1
  refine ⟨t, flush4_3 t, ?_⟩
  rw [mem_blk]
  intro a
  match a with
  | ⟨0, _⟩ => show win4_3.index t (0 : Fin 2) * 1200 ≤ (i 0).val ∧ (i 0).val < win4_3.index t (0 : Fin 2) * 1200 + 1200; omega
  | ⟨1, _⟩ => show win4_3.index t (1 : Fin 2) * 64 ≤ (i 1).val ∧ (i 1).val < win4_3.index t (1 : Fin 2) * 64 + 64; omega

/-- After the region its output array is that function of the arrays the region found. -/
theorem final (c : Dev nD) : (dat4 V c).arrAt 3 cfg4.N = Spec.affine (M := 12000) (K := 256) (N := 64) (V c main_v63) (V c main_v64) (V c main_v62) :=
  (dat4 V c).arrAt_eq_of_cover 3 _ (fun t _ => flushed_eq V c t) cover

end Cert.KernelIdeal.Region4

end
-- ==== Proof.Region5.lean ====
/-
  Region 5: what its output array holds when the region is left.

  The grid has 50 × 1 points. Point (i, j) reads rows [240·i, 240·i + 240) of the left factor (all 12000 columns), columns
  [64·j, 64·j + 64) of the right factor and of the one-row bias, and writes that 240 × 64 block of the output: the product plus
  the bias. The blocks tile the 12000 × 64 output, so the whole array ends as one function of the
  whole input arrays, entry by entry.
-/
import proofs.«172150_j2473901162945_1_alg».proof.Proof.Gen.KernelIdeal.Frame
import proofs.«172150_j2473901162945_1_alg».proof.Proof.Payload
import proofs.«172150_j2473901162945_1_alg».proof.Proof.Spec
import Idealize.ShloMosaic.Lib.Pipeline.Value
import Idealize.ShloMosaic.Lib.ValueIdx

set_option maxRecDepth 16384
set_option maxHeartbeats 4000000

noncomputable section

namespace Cert.KernelIdeal.Region5

open Cert.KernelIdeal Cert.KernelIdeal.Gen Cert.KernelIdeal.Payload
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the left factor's block moves down with the output's and stays in the first block
    column; the right factor's and the bias's move right with the output's and stay in the first block row. -/
theorem idx_facts : ∀ t : Fin cfg5.N,
    win5_0.index t (0 : Fin 2) = win5_3.index t (0 : Fin 2) ∧ win5_0.index t (1 : Fin 2) = 0
    ∧ win5_1.index t (0 : Fin 2) = 0 ∧ win5_1.index t (1 : Fin 2) = win5_3.index t (1 : Fin 2)
    ∧ win5_2.index t (0 : Fin 2) = 0 ∧ win5_2.index t (1 : Fin 2) = win5_3.index t (1 : Fin 2)
    ∧ win5_3.index t (0 : Fin 2) ≤ 49 ∧ win5_3.index t (1 : Fin 2) ≤ 0 :=
  (by decide +kernel : ∀ t : Fin grid5.N, _)

/-- Every block of the output is some point's. -/
theorem idx_onto : ∀ (q0 : Fin 50) (q1 : Fin 1), ∃ t : Fin cfg5.N, win5_3.index t = ![q0.val, q1.val] :=
  (by decide +kernel : ∀ (q0 : Fin 50) (q1 : Fin 1), ∃ t : Fin grid5.N, win5_3.index t = ![q0.val, q1.val])

/-- What point `t` writes back is block `t` of the whole-array function of the arrays the region found. -/
theorem flushed_eq (c : Dev nD) (t : Fin cfg5.N) :
    (dat5 V c).flushed 3 t = ((cfg5.win 3).blk t).view.read (Elt Ideal) (Spec.affine (M := 12000) (K := 12000) (N := 64) (V c main_v47) (V c main_v67) (V c main_v66)) := by
  show (cfg5.win 3).cut (grid5.coords t) ((dat5 V c).after 3 t) = _
  rw [after5_3]
  unfold out5_3
  rw [View.canon_unit_zero hz]
  simp only [View.ld_unit_zero (S := S240x12000) hz, View.ld_unit_zero (S := S12000x64) hz, View.ld_unit_zero (S := S1x64) hz]
  obtain ⟨e0, e1, e2, e3, e4, e5, e6, e7⟩ := idx_facts t
  funext j
  obtain ⟨p, q, rfl⟩ : ∃ (p : Fin 240) (q : Fin 64), j = ix2 p q := ⟨j 0, j 1, eq_ix2 j⟩
  show k5_pay1 (F := Ideal) (iblk5 V c 0 t) (iblk5 V c 1 t) (iblk5 V c 2 t) (ix2 p q)
      = (Spec.affine (M := 12000) (K := 12000) (N := 64) (V c main_v47) (V c main_v67) (V c main_v66)) (((cfg5.win 3).blk t).view.emb (ix2 p q))
  refine (pay5_apply (iblk5 V c 0 t) (iblk5 V c 1 t) (iblk5 V c 2 t) p q).trans ?_
  have hrow : ((((cfg5.win 3).blk t).view.emb (ix2 p q)) 0).val = win5_3.index t (0 : Fin 2) * 240 + 1 * p.val := rfl
  have hcol : ((((cfg5.win 3).blk t).view.emb (ix2 p q)) 1).val = win5_3.index t (1 : Fin 2) * 64 + 1 * q.val := rfl
  have hA : ∀ k : Fin 12000, iblk5 V c 0 t (ix2 p k) = V c main_v47 (ix2 ((((cfg5.win 3).blk t).view.emb (ix2 p q)) 0) k) := by
    intro k
    show V c main_v47 (((cfg5.win 0).blk t).view.emb (ix2 p k)) = _
    refine congrArg (V c main_v47) (funext fun d => Fin.ext ?_)
    match d with
    | ⟨0, _⟩ =>
      show win5_0.index t (0 : Fin 2) * 240 + 1 * p.val = ((((cfg5.win 3).blk t).view.emb (ix2 p q)) 0).val
      rw [hrow]; omega
    | ⟨1, _⟩ =>
      show win5_0.index t (1 : Fin 2) * 12000 + 1 * k.val = k.val
      omega
  have hB : ∀ k : Fin 12000, iblk5 V c 1 t (ix2 k q) = V c main_v67 (ix2 k ((((cfg5.win 3).blk t).view.emb (ix2 p q)) 1)) := by
    intro k
    show V c main_v67 (((cfg5.win 1).blk t).view.emb (ix2 k q)) = _
    refine congrArg (V c main_v67) (funext fun d => Fin.ext ?_)
    match d with
    | ⟨0, _⟩ =>
      show win5_1.index t (0 : Fin 2) * 12000 + 1 * k.val = k.val
      omega
    | ⟨1, _⟩ =>
      show win5_1.index t (1 : Fin 2) * 64 + 1 * q.val = ((((cfg5.win 3).blk t).view.emb (ix2 p q)) 1).val
      rw [hcol]; omega
  have hC : iblk5 V c 2 t (ix2 0 q) = V c main_v66 (ix2 0 ((((cfg5.win 3).blk t).view.emb (ix2 p q)) 1)) := by
    show V c main_v66 (((cfg5.win 2).blk t).view.emb (ix2 0 q)) = _
    refine congrArg (V c main_v66) (funext fun d => Fin.ext ?_)
    match d with
    | ⟨0, _⟩ =>
      show win5_2.index t (0 : Fin 2) * 1 + 1 * 0 = 0
      omega
    | ⟨1, _⟩ =>
      show win5_2.index t (1 : Fin 2) * 64 + 1 * q.val = ((((cfg5.win 3).blk t).view.emb (ix2 p q)) 1).val
      rw [hcol]; omega
  unfold Spec.affine Spec.mm
  rw [hC]
  exact congrArg (· + _) (Finset.sum_congr rfl fun k _ => by rw [hA k, hB k])

/-- An index of the output array is in point `t`'s block iff each coordinate is in the block's range on its axis. -/
theorem mem_blk (t : Fin cfg5.N) (i : S12000x64.Idx) :
    i ∈ ((cfg5.win 3).blk t).view.set ↔ ∀ a : Fin 2, win5_3.index t a * S240x64.size a ≤ (i a).val ∧ (i a).val < win5_3.index t a * S240x64.size a + S240x64.size a := by
  show i ∈ ((View.whole main_v68).slice (win5_3.rect t)).set ↔ _
  rw [View.set_slice_whole, Rect.mem_set_unit]
  exact Iff.rfl

/-- The blocks tile the output: entry (r, s) is in the block of the point (r / 240, s / 64). -/
theorem cover (i : S12000x64.Idx) : ∃ t : Fin cfg5.N, (cfg5.win 3).flush t = true ∧ i ∈ ((cfg5.win 3).blk t).view.set := by
  have hi0 : (i 0).val < 12000 := (i 0).isLt
  have hi1 : (i 1).val < 64 := (i 1).isLt
  obtain ⟨t, ht⟩ := idx_onto ⟨(i 0).val / 240, by omega⟩ ⟨(i 1).val / 64, by omega⟩
  have q0 : win5_3.index t (0 : Fin 2) = (i 0).val / 240 := congrFun ht 0
  have q1 : win5_3.index t (1 : Fin 2) = (i 1).val / 64 := congrFun ht 1
  refine ⟨t, flush5_3 t, ?_⟩
  rw [mem_blk]
  intro a
  match a with
  | ⟨0, _⟩ => show win5_3.index t (0 : Fin 2) * 240 ≤ (i 0).val ∧ (i 0).val < win5_3.index t (0 : Fin 2) * 240 + 240; omega
  | ⟨1, _⟩ => show win5_3.index t (1 : Fin 2) * 64 ≤ (i 1).val ∧ (i 1).val < win5_3.index t (1 : Fin 2) * 64 + 64; omega

/-- After the region its output array is that function of the arrays the region found. -/
theorem final (c : Dev nD) : (dat5 V c).arrAt 3 cfg5.N = Spec.affine (M := 12000) (K := 12000) (N := 64) (V c main_v47) (V c main_v67) (V c main_v66) :=
  (dat5 V c).arrAt_eq_of_cover 3 _ (fun t _ => flushed_eq V c t) cover

end Cert.KernelIdeal.Region5

end
-- ==== Proof.Region6.lean ====
/-
  Region 6: what its output array holds when the region is left.

  The grid has 12 × 12 points. Point (i, j) reads rows [1024·i, 1024·i + 1024) of the left factor (all 64 columns), columns
  [1024·j, 1024·j + 1024) of the right factor and of the one-row bias, and writes that 1024 × 1024 block of the output: the product plus
  the bias, then the logistic function of it. The blocks tile the 12288 × 12288 output, so the whole array ends as one function of the
  whole input arrays, entry by entry.
-/
import proofs.«172150_j2473901162945_1_alg».proof.Proof.Gen.KernelIdeal.Frame
import proofs.«172150_j2473901162945_1_alg».proof.Proof.Payload
import proofs.«172150_j2473901162945_1_alg».proof.Proof.Spec
import Idealize.ShloMosaic.Lib.Pipeline.Value
import Idealize.ShloMosaic.Lib.ValueIdx

set_option maxRecDepth 16384
set_option maxHeartbeats 4000000

noncomputable section

namespace Cert.KernelIdeal.Region6

open Cert.KernelIdeal Cert.KernelIdeal.Gen Cert.KernelIdeal.Payload
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the left factor's block moves down with the output's and stays in the first block
    column; the right factor's and the bias's move right with the output's and stay in the first block row. -/
theorem idx_facts : ∀ t : Fin cfg6.N,
    win6_0.index t (0 : Fin 2) = win6_3.index t (0 : Fin 2) ∧ win6_0.index t (1 : Fin 2) = 0
    ∧ win6_1.index t (0 : Fin 2) = 0 ∧ win6_1.index t (1 : Fin 2) = win6_3.index t (1 : Fin 2)
    ∧ win6_2.index t (0 : Fin 2) = 0 ∧ win6_2.index t (1 : Fin 2) = win6_3.index t (1 : Fin 2)
    ∧ win6_3.index t (0 : Fin 2) ≤ 11 ∧ win6_3.index t (1 : Fin 2) ≤ 11 :=
  (by decide +kernel : ∀ t : Fin grid6.N, _)

/-- Every block of the output is some point's. -/
theorem idx_form : ∀ t : Fin cfg6.N, win6_3.index t (0 : Fin 2) = t.val / 12 ∧ win6_3.index t (1 : Fin 2) = t.val % 12 :=
  (by decide +kernel : ∀ t : Fin grid6.N, _)
theorem idx_onto (q0 : Fin 12) (q1 : Fin 12) : ∃ t : Fin cfg6.N, win6_3.index t = ![q0.val, q1.val] := by
  have h0 := q0.isLt
  have h1 := q1.isLt
  refine ⟨⟨q0.val * 12 + q1.val, by show q0.val * 12 + q1.val < 144; omega⟩, funext fun a => ?_⟩
  match a with
  | ⟨0, _⟩ =>
    refine (idx_form _).1.trans ?_
    show (q0.val * 12 + q1.val) / 12 = q0.val
    omega
  | ⟨1, _⟩ =>
    refine (idx_form _).2.trans ?_
    show (q0.val * 12 + q1.val) % 12 = q1.val
    omega

/-- What point `t` writes back is block `t` of the whole-array function of the arrays the region found. -/
theorem flushed_eq (c : Dev nD) (t : Fin cfg6.N) :
    (dat6 V c).flushed 3 t = ((cfg6.win 3).blk t).view.read (Elt Ideal) ((fun i => Ideal.logistic (Spec.affine (M := 12288) (K := 64) (N := 12288) (V c main_v72) (V c main_v73) (V c main_v71) i))) := by
  show (cfg6.win 3).cut (grid6.coords t) ((dat6 V c).after 3 t) = _
  rw [after6_3]
  unfold out6_3
  rw [View.canon_unit_zero hz]
  simp only [View.ld_unit_zero (S := S1024x64) hz, View.ld_unit_zero (S := S64x1024) hz, View.ld_unit_zero (S := S1x1024) hz]
  obtain ⟨e0, e1, e2, e3, e4, e5, e6, e7⟩ := idx_facts t
  funext j
  obtain ⟨p, q, rfl⟩ : ∃ (p : Fin 1024) (q : Fin 1024), j = ix2 p q := ⟨j 0, j 1, eq_ix2 j⟩
  show k6_pay1 (F := Ideal) (iblk6 V c 0 t) (iblk6 V c 1 t) (iblk6 V c 2 t) (ix2 p q)
      = ((fun i => Ideal.logistic (Spec.affine (M := 12288) (K := 64) (N := 12288) (V c main_v72) (V c main_v73) (V c main_v71) i))) (((cfg6.win 3).blk t).view.emb (ix2 p q))
  refine (pay6_apply (iblk6 V c 0 t) (iblk6 V c 1 t) (iblk6 V c 2 t) p q).trans ?_
  show Ideal.logistic _ = Ideal.logistic (Spec.affine (M := 12288) (K := 64) (N := 12288) (V c main_v72) (V c main_v73) (V c main_v71) (((cfg6.win 3).blk t).view.emb (ix2 p q)))
  refine congrArg Ideal.logistic ?_
  have hrow : ((((cfg6.win 3).blk t).view.emb (ix2 p q)) 0).val = win6_3.index t (0 : Fin 2) * 1024 + 1 * p.val := rfl
  have hcol : ((((cfg6.win 3).blk t).view.emb (ix2 p q)) 1).val = win6_3.index t (1 : Fin 2) * 1024 + 1 * q.val := rfl
  have hA : ∀ k : Fin 64, iblk6 V c 0 t (ix2 p k) = V c main_v72 (ix2 ((((cfg6.win 3).blk t).view.emb (ix2 p q)) 0) k) := by
    intro k
    show V c main_v72 (((cfg6.win 0).blk t).view.emb (ix2 p k)) = _
    refine congrArg (V c main_v72) (funext fun d => Fin.ext ?_)
    match d with
    | ⟨0, _⟩ =>
      show win6_0.index t (0 : Fin 2) * 1024 + 1 * p.val = ((((cfg6.win 3).blk t).view.emb (ix2 p q)) 0).val
      rw [hrow]; omega
    | ⟨1, _⟩ =>
      show win6_0.index t (1 : Fin 2) * 64 + 1 * k.val = k.val
      omega
  have hB : ∀ k : Fin 64, iblk6 V c 1 t (ix2 k q) = V c main_v73 (ix2 k ((((cfg6.win 3).blk t).view.emb (ix2 p q)) 1)) := by
    intro k
    show V c main_v73 (((cfg6.win 1).blk t).view.emb (ix2 k q)) = _
    refine congrArg (V c main_v73) (funext fun d => Fin.ext ?_)
    match d with
    | ⟨0, _⟩ =>
      show win6_1.index t (0 : Fin 2) * 64 + 1 * k.val = k.val
      omega
    | ⟨1, _⟩ =>
      show win6_1.index t (1 : Fin 2) * 1024 + 1 * q.val = ((((cfg6.win 3).blk t).view.emb (ix2 p q)) 1).val
      rw [hcol]; omega
  have hC : iblk6 V c 2 t (ix2 0 q) = V c main_v71 (ix2 0 ((((cfg6.win 3).blk t).view.emb (ix2 p q)) 1)) := by
    show V c main_v71 (((cfg6.win 2).blk t).view.emb (ix2 0 q)) = _
    refine congrArg (V c main_v71) (funext fun d => Fin.ext ?_)
    match d with
    | ⟨0, _⟩ =>
      show win6_2.index t (0 : Fin 2) * 1 + 1 * 0 = 0
      omega
    | ⟨1, _⟩ =>
      show win6_2.index t (1 : Fin 2) * 1024 + 1 * q.val = ((((cfg6.win 3).blk t).view.emb (ix2 p q)) 1).val
      rw [hcol]; omega
  unfold Spec.affine Spec.mm
  rw [hC]
  exact congrArg (· + _) (Finset.sum_congr rfl fun k _ => by rw [hA k, hB k])

/-- An index of the output array is in point `t`'s block iff each coordinate is in the block's range on its axis. -/
theorem mem_blk (t : Fin cfg6.N) (i : S12288x12288.Idx) :
    i ∈ ((cfg6.win 3).blk t).view.set ↔ ∀ a : Fin 2, win6_3.index t a * S1024x1024.size a ≤ (i a).val ∧ (i a).val < win6_3.index t a * S1024x1024.size a + S1024x1024.size a := by
  show i ∈ ((View.whole main_v74).slice (win6_3.rect t)).set ↔ _
  rw [View.set_slice_whole, Rect.mem_set_unit]
  exact Iff.rfl

/-- The blocks tile the output: entry (r, s) is in the block of the point (r / 1024, s / 1024). -/
theorem cover (i : S12288x12288.Idx) : ∃ t : Fin cfg6.N, (cfg6.win 3).flush t = true ∧ i ∈ ((cfg6.win 3).blk t).view.set := by
  have hi0 : (i 0).val < 12288 := (i 0).isLt
  have hi1 : (i 1).val < 12288 := (i 1).isLt
  obtain ⟨t, ht⟩ := idx_onto ⟨(i 0).val / 1024, by omega⟩ ⟨(i 1).val / 1024, by omega⟩
  have q0 : win6_3.index t (0 : Fin 2) = (i 0).val / 1024 := congrFun ht 0
  have q1 : win6_3.index t (1 : Fin 2) = (i 1).val / 1024 := congrFun ht 1
  refine ⟨t, flush6_3 t, ?_⟩
  rw [mem_blk]
  intro a
  match a with
  | ⟨0, _⟩ => show win6_3.index t (0 : Fin 2) * 1024 ≤ (i 0).val ∧ (i 0).val < win6_3.index t (0 : Fin 2) * 1024 + 1024; omega
  | ⟨1, _⟩ => show win6_3.index t (1 : Fin 2) * 1024 ≤ (i 1).val ∧ (i 1).val < win6_3.index t (1 : Fin 2) * 1024 + 1024; omega

/-- After the region its output array is that function of the arrays the region found. -/
theorem final (c : Dev nD) : (dat6 V c).arrAt 3 cfg6.N = (fun i => Ideal.logistic (Spec.affine (M := 12288) (K := 64) (N := 12288) (V c main_v72) (V c main_v73) (V c main_v71) i)) :=
  (dat6 V c).arrAt_eq_of_cover 3 _ (fun t _ => flushed_eq V c t) cover

end Cert.KernelIdeal.Region6

end
-- ==== Proof.KernelValue.lean ====
/-
  The kernel's result is the network.

  Region by region: each region's output is the product-plus-bias of its operands, its operands are the previous
  region's output, an argument, a bias row or the adjacency, so the seven regions compose into three dense graph
  convolutions and the decoder. Where the adjacency's entry (c, r) is the collected weight of the edges r → c and the
  weights are nonnegative, each dense convolution is the edge-list convolution, and the whole is the specification.
-/
import proofs.«172150_j2473901162945_1_alg».proof.Proof.ChainTail
import proofs.«172150_j2473901162945_1_alg».proof.Proof.ConvDense
import proofs.«172150_j2473901162945_1_alg».proof.Proof.Region0
import proofs.«172150_j2473901162945_1_alg».proof.Proof.Region1
import proofs.«172150_j2473901162945_1_alg».proof.Proof.Region2
import proofs.«172150_j2473901162945_1_alg».proof.Proof.Region3
import proofs.«172150_j2473901162945_1_alg».proof.Proof.Region4
import proofs.«172150_j2473901162945_1_alg».proof.Proof.Region5
import proofs.«172150_j2473901162945_1_alg».proof.Proof.Region6

set_option maxRecDepth 16384
set_option maxHeartbeats 4000000

noncomputable section

open Finset

namespace Cert.KernelIdeal.Value

open Cert.KernelIdeal Cert.KernelIdeal.Gen Cert.KernelIdeal.Chain Cert.KernelIdeal.ChainTail Cert.Spec
open Idealize.ShloMosaic Idealize.ShloMosaic.TcCoe Idealize.ShloMosaic.StableHlo Idealize.ShloMosaic.ValueIdx Idealize.SL.Sem

variable (m : (ℓ : Loc nD τ sig) → Buf (Elt Ideal) ℓ) (ρ : Dev nD → PrngReg) (c : Dev nD)

/-- The adjacency as the first region finds it. -/
abbrev adj : S12000x12000.Idx → EReal := W3 m ρ c (Proc.devRef .tc main_v47)

/-! ## The regions' outputs -/

theorem out0 : (W4 m ρ c (Proc.devRef .tc main_v51) : S12000x256.Idx → EReal)
    = affine (M := 12000) (K := 512) (N := 256) (m ((c : Thread nD τ).loc main_arg0)) (m ((c : Thread nD τ).loc main_arg2)) (fun _ => 0) := by
  refine (W4_arr m ρ c 3).trans ((Region0.final (V3 m ρ) c).trans ?_)
  show affine (M := 12000) (K := 512) (N := 256) (W3 m ρ c (Proc.devRef .tc main_v49)) (W3 m ρ c (Proc.devRef .tc main_v50)) (W3 m ρ c (Proc.devRef .tc main_v48)) = _
  rw [W3_v49, W3_v50, W3_v48]
  rfl

theorem out1 : (W6 m ρ c (Proc.devRef .tc main_v54) : S12000x256.Idx → EReal)
    = relu (affine (M := 12000) (K := 12000) (N := 256) (adj m ρ c)
        (affine (M := 12000) (K := 512) (N := 256) (m ((c : Thread nD τ).loc main_arg0)) (m ((c : Thread nD τ).loc main_arg2)) (fun _ => 0))
        (fun i => m ((c : Thread nD τ).loc main_arg3) (ix1 (i 1)))) := by
  refine (W6_arr m ρ c 3).trans ((Region1.final (V5 m ρ) c).trans ?_)
  show relu (affine (M := 12000) (K := 12000) (N := 256) (W5 m ρ c (Proc.devRef .tc main_v47)) (W5 m ρ c (Proc.devRef .tc main_v53)) (W5 m ρ c (Proc.devRef .tc main_v52))) = _
  rw [v47_W5, W5_v53, W5_v52, out0, arg3_W4]
  rfl

theorem out2 : (W8 m ρ c (Proc.devRef .tc main_v58) : S12000x256.Idx → EReal)
    = affine (M := 12000) (K := 256) (N := 256) (W6 m ρ c (Proc.devRef .tc main_v54)) (m ((c : Thread nD τ).loc main_arg4)) (fun _ => 0) := by
  refine (W8_arr m ρ c 3).trans ((Region2.final (V7 m ρ) c).trans ?_)
  show affine (M := 12000) (K := 256) (N := 256) (W7 m ρ c (Proc.devRef .tc main_v56)) (W7 m ρ c (Proc.devRef .tc main_v57)) (W7 m ρ c (Proc.devRef .tc main_v55)) = _
  rw [W7_v56, W7_v57, W7_v55, arg4_W6]
  rfl

theorem out3 : (W10 m ρ c (Proc.devRef .tc main_v61) : S12000x256.Idx → EReal)
    = relu (affine (M := 12000) (K := 12000) (N := 256) (adj m ρ c) (W8 m ρ c (Proc.devRef .tc main_v58))
        (fun i => m ((c : Thread nD τ).loc main_arg5) (ix1 (i 1)))) := by
  refine (W10_arr m ρ c 3).trans ((Region3.final (V9 m ρ) c).trans ?_)
  show relu (affine (M := 12000) (K := 12000) (N := 256) (W9 m ρ c (Proc.devRef .tc main_v47)) (W9 m ρ c (Proc.devRef .tc main_v60)) (W9 m ρ c (Proc.devRef .tc main_v59))) = _
  rw [v47_W9, W9_v60, W9_v59, arg5_W8]
  rfl

theorem out4 : (W12 m ρ c (Proc.devRef .tc main_v65) : S12000x64.Idx → EReal)
    = affine (M := 12000) (K := 256) (N := 64) (W10 m ρ c (Proc.devRef .tc main_v61)) (m ((c : Thread nD τ).loc main_arg6)) (fun _ => 0) := by
  refine (W12_arr m ρ c 3).trans ((Region4.final (V11 m ρ) c).trans ?_)
  show affine (M := 12000) (K := 256) (N := 64) (W11 m ρ c (Proc.devRef .tc main_v63)) (W11 m ρ c (Proc.devRef .tc main_v64)) (W11 m ρ c (Proc.devRef .tc main_v62)) = _
  rw [W11_v63, W11_v64, W11_v62, arg6_W10]
  rfl

theorem out5 : (W14 m ρ c (Proc.devRef .tc main_v68) : S12000x64.Idx → EReal)
    = affine (M := 12000) (K := 12000) (N := 64) (adj m ρ c) (W12 m ρ c (Proc.devRef .tc main_v65))
        (fun i => m ((c : Thread nD τ).loc main_arg7) (ix1 (i 1))) := by
  refine (W14_arr m ρ c 3).trans ((Region5.final (V13 m ρ) c).trans ?_)
  show affine (M := 12000) (K := 12000) (N := 64) (W13 m ρ c (Proc.devRef .tc main_v47)) (W13 m ρ c (Proc.devRef .tc main_v67)) (W13 m ρ c (Proc.devRef .tc main_v66)) = _
  rw [v47_W13, W13_v67, W13_v66, arg7_W12]
  rfl

theorem out6 : (W18 m ρ c (Proc.devRef .tc main_v74) : S12288x12288.Idx → EReal)
    = fun i => Ideal.logistic (affine (M := 12288) (K := 64) (N := 12288) (W17 m ρ c (Proc.devRef .tc main_v72)) (W17 m ρ c (Proc.devRef .tc main_v73)) (W17 m ρ c (Proc.devRef .tc main_v71)) i) :=
  (W18_arr m ρ c 3).trans (Region6.final (V17 m ρ) c)

/-! ## The whole -/

section Whole
variable (row col : Fin 396000 → Fin 12000) (nrm : Fin 396000 → EReal)

/-- With the adjacency's entries the collected edge weights, and those nonnegative, the node features the last region
    multiplies are the specification's. -/
theorem features (hn : ∀ e, 0 ≤ nrm e)
    (hA : ∀ cc rr : Fin 12000, adj m ρ c (ix2 cc rr)
      = 0 + ∑ e ∈ univ.filter (fun e => (col e).val = cc.val ∧ (row e).val = rr.val), nrm e) :
    (W14 m ρ c (Proc.devRef .tc main_v68) : S12000x64.Idx → EReal)
      = encode row col nrm (m ((c : Thread nD τ).loc main_arg0)) (m ((c : Thread nD τ).loc main_arg2)) (m ((c : Thread nD τ).loc main_arg3))
          (m ((c : Thread nD τ).loc main_arg4)) (m ((c : Thread nD τ).loc main_arg5)) (m ((c : Thread nD τ).loc main_arg6)) (m ((c : Thread nD τ).loc main_arg7)) := by
  rw [out5, out4, out3, out2, out1]
  unfold encode
  rw [← Cert.ConvDense.conv_of_dense row col nrm hn (adj m ρ c) hA (m ((c : Thread nD τ).loc main_arg0)) (m ((c : Thread nD τ).loc main_arg2)) (m ((c : Thread nD τ).loc main_arg3))]
  rw [← Cert.ConvDense.conv_of_dense row col nrm hn (adj m ρ c) hA _ (m ((c : Thread nD τ).loc main_arg4)) (m ((c : Thread nD τ).loc main_arg5))]
  rw [← Cert.ConvDense.conv_of_dense row col nrm hn (adj m ρ c) hA _ (m ((c : Thread nD τ).loc main_arg6)) (m ((c : Thread nD τ).loc main_arg7))]

/-- The kernel's result array is the specification of the argument arrays. -/
theorem result (hn : ∀ e, 0 ≤ nrm e)
    (hA : ∀ cc rr : Fin 12000, adj m ρ c (ix2 cc rr)
      = 0 + ∑ e ∈ univ.filter (fun e => (col e).val = cc.val ∧ (row e).val = rr.val), nrm e) :
    (W19 m ρ c (Proc.devRef .tc main_v75) : S12000x12000.Idx → EReal)
      = G row col nrm (m ((c : Thread nD τ).loc main_arg0)) (m ((c : Thread nD τ).loc main_arg2)) (m ((c : Thread nD τ).loc main_arg3))
          (m ((c : Thread nD τ).loc main_arg4)) (m ((c : Thread nD τ).loc main_arg5)) (m ((c : Thread nD τ).loc main_arg6)) (m ((c : Thread nD τ).loc main_arg7)) := by
  funext i
  obtain ⟨p, q, rfl⟩ : ∃ (p q : Fin 12000), i = ix2 p q := ⟨i 0, i 1, eq_ix2 i⟩
  rw [W19_v75_apply, out6]
  show Ideal.logistic (affine (M := 12288) (K := 64) (N := 12288) (W17 m ρ c (Proc.devRef .tc main_v72)) (W17 m ρ c (Proc.devRef .tc main_v73)) (W17 m ρ c (Proc.devRef .tc main_v71))
    (ix2 (⟨p.val, by have := p.isLt; omega⟩ : Fin 12288) (⟨q.val, by have := q.isLt; omega⟩ : Fin 12288))) = _
  rw [affine_apply, W17_v71]
  simp only [W17_v72_low m ρ c p, W17_v73_low m ρ c _ q]
  rw [Cert.ConvDense.decode_eq, features m ρ c row col nrm hn hA]
  rfl

end Whole

end Cert.KernelIdeal.Value

end
-- ==== Proof.Prologue.lean ====
/-
  The graph both programs build from the edge list, as the operations spell it.

  The edge list holds 384000 edges as two rows of node numbers (sources, then targets); both programs append one
  self-loop per node, so there are 396000 edges. A node's degree is the number of edges INTO it; its scale is one over
  the square root of the degree (of at least one), or zero at degree zero; an edge's weight is the product of its two
  endpoints' scales. Node numbers are read through the wrap of a negative number by 12000 that array indexing applies
  (the identity on a number in range).
-/
import proofs.«172150_j2473901162945_1_alg».proof.Proof.Gen.ReferenceIdeal
import Idealize.ShloMosaic.Lib.ValueIdx

noncomputable section

namespace Cert.Prologue

open Cert.ReferenceIdeal Cert.ReferenceIdeal.Gen Idealize.ShloMosaic Idealize.ShloMosaic.ValueIdx

variable {F : FTy → Type} [FloatOps F]

/-- The sources of the 396000 edges: row 0 of the edge list, then the nodes 0 … 11999 (the self-loops). -/
def rowVec (ei : IVec S2x384000 32) : IVec S396000 32 :=
  concatenate S396000 0 [⟨S384000, (shapeCast _ (extractStridedSlice S1x384000 ![0, 0] ei slices_S2x384000_S1x384000_0_0) shapeCasts_S1x384000_S384000)⟩, ⟨S12000, (iotaInDim S12000 32 0)⟩] concatenates_S384000_S12000_S396000_d0

/-- The targets of the 396000 edges: row 1 of the edge list, then the nodes 0 … 11999. -/
def colVec (ei : IVec S2x384000 32) : IVec S396000 32 :=
  concatenate S396000 0 [⟨S384000, (shapeCast _ (extractStridedSlice S1x384000 ![1, 0] ei slices_S2x384000_S1x384000_1_0) shapeCasts_S1x384000_S384000)⟩, ⟨S12000, (iotaInDim S12000 32 0)⟩] concatenates_S384000_S12000_S396000_d0

/-- A node's degree: zero plus one for every edge whose target it is. -/
def deg (ei : IVec S2x384000 32) : FVec F S12000 .f32 :=
  Host.scatterAdd scatter_S12000_S396000x1_S396000_n_0_0_1 (broadcastInDim S12000 ![] bcast_S_S12000 (constant S_ .f32 0x00000000#32)) (broadcastInDim S396000x1 ![0] bcast_S396000_S396000x1_0 (colVec ei)) (broadcastInDim S396000 ![] bcast_S_S396000 (constant S_ .f32 0x3F800000#32))

/-- A node's scale: one over the square root of the larger of its degree and one, or zero where the degree is not
    positive. -/
def dinv (ei : IVec S2x384000 32) : FVec F S12000 .f32 :=
  select (cmpf (F := F) .ogt (deg ei) (broadcastInDim S12000 ![] bcast_S_S12000 (constant S_ .f32 0x00000000#32))) (Host.rsqrt (maximumf (deg ei) (broadcastInDim S12000 ![] bcast_S_S12000 (constant S_ .f32 0x3F800000#32)))) (broadcastInDim S12000 ![] bcast_S_S12000 (id (constant S_ .f32 0x00000000#32)))

/-- Array indexing's treatment of a negative node number: 12000 is added to it. -/
def wrap (v : IVec S396000 32) : IVec S396000 32 :=
  select (cmpi .slt v (broadcastInDim S396000 ![] bcast_S_S396000 (constantI S_ 32 0#32))) (addi v (broadcastInDim S396000 ![] bcast_S_S396000 (constantI S_ 32 12000#32))) v

/-- An edge's weight: the product of its source's and its target's scales. -/
def nrmVec (ei : IVec S2x384000 32) : FVec F S396000 .f32 :=
  mulf (Host.gather gather_S12000_S396000x1_S396000_n_0_n_n_0_1_1 (dinv ei) (broadcastInDim S396000x1 ![0] bcast_S396000_S396000x1_0 (wrap (rowVec ei))))
    (Host.gather gather_S12000_S396000x1_S396000_n_0_n_n_0_1_1 (dinv ei) (broadcastInDim S396000x1 ![0] bcast_S396000_S396000x1_0 (wrap (colVec ei))))

/-- A 32-bit word as a node, read signed and brought into 0 … 11999 (the identity on a word in that range). -/
def node (w : BitVec 32) : Fin 12000 := ⟨min w.toInt.toNat 11999, by omega⟩

/-- Edge `e`'s source. -/
def row (ei : IVec S2x384000 32) (e : Fin 396000) : Fin 12000 := node (rowVec ei (ix1 e))
/-- Edge `e`'s target. -/
def col (ei : IVec S2x384000 32) (e : Fin 396000) : Fin 12000 := node (colVec ei (ix1 e))
/-- Edge `e`'s weight, as an extended real. -/
def nrm (ei : IVec S2x384000 32) (e : Fin 396000) : EReal := nrmVec (F := Ideal) ei (ix1 e)

/-- Every entry of the edge list is a node number. -/
def InRange (ei : IVec S2x384000 32) : Prop := ∀ i, 0 ≤ (ei i).toInt ∧ (ei i).toInt < 12000

end Cert.Prologue

end
-- ==== Proof.PrologueFacts.lean ====
/-
  Facts about the edge list that the value proofs of both programs use.

  A node number in range is unchanged by the wrap of negative numbers and is read back exactly as a node; every
  source and target of the 396000 edges is a node number once the edge list's entries are; an edge's weight is a
  product of two nonnegative scales, hence nonnegative; and the last conjunct of the precondition says exactly that
  the edge list's entries are node numbers.
-/
import proofs.«172150_j2473901162945_1_alg».proof.Proof.Prologue
import proofs.«172150_j2473901162945_1_alg».proof.Proof.Gen.Pre_finite_inputs
import Idealize.ShloMosaic.Lib.Pipeline.Value
import Idealize.ShloMosaic.Lib.ReduceAll
import Idealize.ShloMosaic.PureOps.Ideal.Laws
import Idealize.ShloMosaic.Lib.IdealHost

noncomputable section

namespace Cert.PrologueFacts

open Cert.Prologue Cert.ReferenceIdeal Cert.ReferenceIdeal.Gen Idealize.ShloMosaic Idealize.ShloMosaic.ValueIdx

/-! ## The wrap of a negative node number, and a word read back as a node -/

/-- A word that reads nonnegative does not test "less than zero". -/
theorem cmpi_slt_zero_of_nonneg (w : BitVec 32) (h : 0 ≤ w.toInt) : IntOp.cmpi .slt w 0#32 = 0#1 := by
  have : w.slt 0#32 = false := by
    rw [BitVec.slt]
    simp only [BitVec.toInt_zero, decide_eq_false_iff_not, not_lt]
    exact h
  show BitVec.ofBool (w.slt 0#32) = 0#1
  rw [this]; rfl

/-- The wrap leaves a nonnegative entry as it is: the select on "entry < 0" takes its second branch. -/
theorem wrap_of_nonneg (v : IVec S396000 32) (e : Fin 396000) (h : 0 ≤ (v (ix1 e)).toInt) :
    wrap v (ix1 e) = v (ix1 e) := by
  show Scalar.select (IntOp.cmpi .slt (v (ix1 e)) 0#32) _ _ = _
  rw [cmpi_slt_zero_of_nonneg _ h, select_zero]

/-- A word in 0 … 11999 read as a node is that number. -/
theorem node_val (w : BitVec 32) (h0 : 0 ≤ w.toInt) (h1 : w.toInt < 12000) : ((node w).val : Int) = w.toInt := by
  show ((min w.toInt.toNat 11999 : Nat) : Int) = w.toInt
  omega

/-! ## The sources and targets of the 396000 edges -/

/-- A number below 12000 as a 32-bit word reads signed as itself. -/
theorem toInt_ofNat_small (n : Nat) (h : n < 12000) : (BitVec.ofNat 32 n).toInt = n := by
  have hn : (BitVec.ofNat 32 n).toNat = n := by rw [BitVec.toNat_ofNat]; omega
  rw [BitVec.toInt_eq_toNat_of_lt (by rw [hn]; omega), hn]

/-- Edge `e` below 384000 has as its source entry `(0, e)` of the edge list. -/
theorem rowVec_lt (ei : IVec S2x384000 32) (e : Fin 396000) (h : e.val < 384000) :
    rowVec ei (ix1 e) = ei (ix2 (0 : Fin 2) (⟨e.val, h⟩ : Fin 384000)) := by
  unfold rowVec
  rw [concatenate_pair_apply_left (0 : Fin S396000.rank) _ _ concatenates_S384000_S12000_S396000_d0 (ix1 e) rfl
    (ix1 (⟨e.val, h⟩ : Fin 384000)) (fun b => by match b with | ⟨0, _⟩ => rfl)]
  rw [shapeCast_apply _ shapeCasts_S1x384000_S384000 (ix1 (⟨e.val, h⟩ : Fin 384000)) (ix2 (0 : Fin 1) (⟨e.val, h⟩ : Fin 384000))
    (by rw [Shape.rowMajor_val_two, Shape.rowMajor_val_one]; show 0 * 384000 + e.val = e.val; omega)]
  exact extractStridedSlice_apply _ ei _ _ (ix2 (0 : Fin 2) (⟨e.val, h⟩ : Fin 384000))
    (fun a => by match a with | ⟨0, _⟩ => rfl | ⟨1, _⟩ => (show e.val = 0 + e.val; omega))

/-- Edge `e` from 384000 on is the self-loop of node `e - 384000`: its source is that number as a word. -/
theorem rowVec_ge (ei : IVec S2x384000 32) (e : Fin 396000) (h : 384000 ≤ e.val) :
    rowVec ei (ix1 e) = BitVec.ofNat 32 (e.val - 384000) := by
  unfold rowVec
  rw [concatenate_pair_apply_right (0 : Fin S396000.rank) _ _ concatenates_S384000_S12000_S396000_d0 (ix1 e) rfl rfl
    (ix1 (⟨e.val - 384000, by omega⟩ : Fin 12000)) (fun b hb => by match b with | ⟨0, _⟩ => exact absurd rfl hb)
    (by show e.val - 384000 + 384000 = e.val; omega)]
  rfl

/-- Edge `e` below 384000 has as its target entry `(1, e)` of the edge list. -/
theorem colVec_lt (ei : IVec S2x384000 32) (e : Fin 396000) (h : e.val < 384000) :
    colVec ei (ix1 e) = ei (ix2 (1 : Fin 2) (⟨e.val, h⟩ : Fin 384000)) := by
  unfold colVec
  rw [concatenate_pair_apply_left (0 : Fin S396000.rank) _ _ concatenates_S384000_S12000_S396000_d0 (ix1 e) rfl
    (ix1 (⟨e.val, h⟩ : Fin 384000)) (fun b => by match b with | ⟨0, _⟩ => rfl)]
  rw [shapeCast_apply _ shapeCasts_S1x384000_S384000 (ix1 (⟨e.val, h⟩ : Fin 384000)) (ix2 (0 : Fin 1) (⟨e.val, h⟩ : Fin 384000))
    (by rw [Shape.rowMajor_val_two, Shape.rowMajor_val_one]; show 0 * 384000 + e.val = e.val; omega)]
  exact extractStridedSlice_apply _ ei _ _ (ix2 (1 : Fin 2) (⟨e.val, h⟩ : Fin 384000))
    (fun a => by match a with | ⟨0, _⟩ => rfl | ⟨1, _⟩ => (show e.val = 0 + e.val; omega))

/-- The target of a self-loop is its node, as for the source. -/
theorem colVec_ge (ei : IVec S2x384000 32) (e : Fin 396000) (h : 384000 ≤ e.val) :
    colVec ei (ix1 e) = BitVec.ofNat 32 (e.val - 384000) := by
  unfold colVec
  rw [concatenate_pair_apply_right (0 : Fin S396000.rank) _ _ concatenates_S384000_S12000_S396000_d0 (ix1 e) rfl rfl
    (ix1 (⟨e.val - 384000, by omega⟩ : Fin 12000)) (fun b hb => by match b with | ⟨0, _⟩ => exact absurd rfl hb)
    (by show e.val - 384000 + 384000 = e.val; omega)]
  rfl

/-- Every edge's source is a node number once the edge list's entries are. -/
theorem rowVec_range (ei : IVec S2x384000 32) (h : InRange ei) (e : Fin 396000) :
    0 ≤ (rowVec ei (ix1 e)).toInt ∧ (rowVec ei (ix1 e)).toInt < 12000 := by
  have he := e.isLt
  by_cases hlt : e.val < 384000
  · rw [rowVec_lt ei e hlt]; exact h _
  · rw [rowVec_ge ei e (by omega), toInt_ofNat_small _ (by omega)]; omega

/-- Every edge's target is a node number once the edge list's entries are. -/
theorem colVec_range (ei : IVec S2x384000 32) (h : InRange ei) (e : Fin 396000) :
    0 ≤ (colVec ei (ix1 e)).toInt ∧ (colVec ei (ix1 e)).toInt < 12000 := by
  have he := e.isLt
  by_cases hlt : e.val < 384000
  · rw [colVec_lt ei e hlt]; exact h _
  · rw [colVec_ge ei e (by omega), toInt_ofNat_small _ (by omega)]; omega

/-! ## An edge's weight is nonnegative -/

/-- One over the square root of a nonnegative extended real is nonnegative (it is zero at plus infinity and plus
    infinity at zero). -/
theorem rsqrt_nonneg (x : EReal) (h : 0 ≤ x) : 0 ≤ Ideal.rsqrt x := by
  induction x using EReal.rec with
  | bot => exact absurd h (by simp)
  | top => simp
  | coe r =>
    have hr : 0 ≤ r := by exact_mod_cast h
    rw [Ideal.rsqrt_coe, if_neg (not_lt.2 hr)]
    split
    · exact le_top
    · exact_mod_cast inv_nonneg.2 (Real.sqrt_nonneg r)

/-- The host's reciprocal square root at an index is the extended reals' of the element. -/
theorem hostRsqrt_apply {s : Shape} {φ : FTy} (a : FVec Ideal s φ) (i : s.Idx) :
    Host.rsqrt a i = Ideal.rsqrt (a i) := rfl

/-- Every node's scale is nonnegative: it is one over the square root of a number that is at least one, or zero. -/
theorem dinv_nonneg (ei : IVec S2x384000 32) (i : S12000.Idx) : (0 : EReal) ≤ dinv (F := Ideal) ei i := by
  unfold dinv
  rw [select_apply]
  unfold Scalar.select
  split
  · rw [hostRsqrt_apply, maximumf_apply, broadcastInDim_scalar_apply, constant_apply, Ideal.ofBits_one_f32]
    exact rsqrt_nonneg _ (le_trans zero_le_one (le_max_right _ _))
  · rw [broadcastInDim_scalar_apply, id_eq, constant_apply, Ideal.ofBits_zero_f32]

/-- An edge's weight, the product of two scales, is nonnegative. -/
theorem nrm_nonneg (ei : IVec S2x384000 32) (e : Fin 396000) : 0 ≤ nrm ei e := by
  unfold nrm nrmVec
  rw [mulf_apply]
  unfold Host.gather
  exact EReal.mul_nonneg (dinv_nonneg ei _) (dinv_nonneg ei _)

/-! ## The precondition's last conjunct: the edge list's entries are node numbers -/

/-- The scalar shape has one index. -/
instance : Subsingleton Cert.Pre_finite_inputs.S_.Idx := ⟨fun a b => funext fun d => d.elim0⟩

/-- The precondition is an "and" of ten tests, each an "all" over one argument; the last says of every entry of the
    edge list that it is at least 0 and below 12000, compared as signed numbers. -/
theorem inRange_of_pre (a0 : FVec Ideal Cert.Pre_finite_inputs.S12000x512 .f32) (a1 : IVec Cert.Pre_finite_inputs.S2x384000 32)
    (a2 : FVec Ideal Cert.Pre_finite_inputs.S512x256 .f32) (a3 : FVec Ideal Cert.Pre_finite_inputs.S256 .f32)
    (a4 : FVec Ideal Cert.Pre_finite_inputs.S256x256 .f32) (a5 : FVec Ideal Cert.Pre_finite_inputs.S256 .f32)
    (a6 : FVec Ideal Cert.Pre_finite_inputs.S256x64 .f32) (a7 : FVec Ideal Cert.Pre_finite_inputs.S64 .f32)
    (a8 : FVec Ideal Cert.Pre_finite_inputs.S256x64 .f32) (a9 : FVec Ideal Cert.Pre_finite_inputs.S64 .f32)
    (h : Cert.Pre_finite_inputs.fn (F := Ideal) a0 a1 a2 a3 a4 a5 a6 a7 a8 a9 = fun _ => 1#1) : InRange a1 := by
  have e := congrFun h ValueIdx.ix0
  dsimp only [Cert.Pre_finite_inputs.fn, Cert.Pre_finite_inputs.fn_part1, Cert.Pre_finite_inputs.fn_part2] at e
  have e49 := (IntOp.andi_eq_one.1 e).2
  intro i
  have hi := Host.reduce_andi_all _ _ _ _ _ e49 i
  obtain ⟨h0, h1⟩ := IntOp.andi_eq_one.1 hi
  have h0' : (0#32 : BitVec 32).toInt ≤ (a1 i).toInt := IntOp.cmpi_sge.1 h0
  have h1' : (a1 i).toInt < (12000#32 : BitVec 32).toInt := IntOp.cmpi_slt.1 h1
  rw [show (0#32 : BitVec 32).toInt = 0 from by decide] at h0'
  rw [show (12000#32 : BitVec 32).toInt = 12000 from by decide] at h1'
  exact ⟨h0', h1'⟩

end Cert.PrologueFacts

end
-- ==== Proof.Adjacency.lean ====
/-
  The kernel's dense adjacency, entry by entry.

  Before its first region the kernel scatter-adds every edge's weight into a 12000 × 12000 matrix of zeros at the pair
  (target, source) of the edge's two node numbers. An update lands on entry (c, r) exactly when those two numbers, read
  signed, are c and r; so entry (c, r) is zero plus the sum of the weights of the edges from r to c.
-/
import proofs.«172150_j2473901162945_1_alg».proof.Proof.Gen.KernelIdeal.Frame
import proofs.«172150_j2473901162945_1_alg».proof.Proof.PrologueFacts
import Idealize.ShloMosaic.Lib.StableHlo.Run
import Idealize.ShloMosaic.Lib.Pipeline.Frame
import Idealize.ShloMosaic.Lib.Pipeline.Value
import Idealize.ShloMosaic.Lib.ValueIdx
import Idealize.ShloMosaic.PureOps.Ideal.Laws

set_option maxRecDepth 16384

noncomputable section

open Finset

namespace Cert.KernelIdeal.Adjacency

open Cert.KernelIdeal Cert.KernelIdeal.Gen
open Idealize.ShloMosaic Idealize.ShloMosaic.TcCoe Idealize.ShloMosaic.StableHlo Idealize.ShloMosaic.ValueIdx Idealize.SL.Sem

/-! ## Where an edge's update lands -/

theorem start0 (idx : IVec S396000x2 32) (e : Fin 396000) :
    scatter_S12000x12000_S396000x2_S396000_n_01_01_1.start (ix1 e) idx (0 : Fin 2) = (idx (ix2 e 0)).toInt := by
  unfold ScatterDims.start
  rw [dif_pos (show (0 : Fin 2) ∈ scatter_S12000x12000_S396000x2_S396000_n_01_01_1.scatterDimsToOperandDims from by decide)]
  refine congrArg (fun k => (idx k).toInt) (funext fun b => Fin.ext ?_)
  match b with
  | ⟨0, _⟩ => rfl
  | ⟨1, _⟩ => rfl

theorem start1 (idx : IVec S396000x2 32) (e : Fin 396000) :
    scatter_S12000x12000_S396000x2_S396000_n_01_01_1.start (ix1 e) idx (1 : Fin 2) = (idx (ix2 e 1)).toInt := by
  unfold ScatterDims.start
  rw [dif_pos (show (1 : Fin 2) ∈ scatter_S12000x12000_S396000x2_S396000_n_01_01_1.scatterDimsToOperandDims from by decide)]
  refine congrArg (fun k => (idx k).toInt) (funext fun b => Fin.ext ?_)
  match b with
  | ⟨0, _⟩ => rfl
  | ⟨1, _⟩ => rfl

theorem window0 (e : Fin 396000) (a : Fin 2) :
    scatter_S12000x12000_S396000x2_S396000_n_01_01_1.window (ix1 e) a = 0 := by
  unfold ScatterDims.window
  rw [dif_neg (by fin_cases a <;> decide)]

/-- Edge `e`'s update lands on adjacency entry `i` exactly when the edge's two index words, read signed, are `i`'s
    two coordinates. -/
theorem resultIdx_iff (idx : IVec S396000x2 32) (e : Fin 396000) (i : S12000x12000.Idx) :
    scatter_S12000x12000_S396000x2_S396000_n_01_01_1.resultIdx? (ix1 e) idx = some i
      ↔ (idx (ix2 e 0)).toInt = ((i 0).val : Int) ∧ (idx (ix2 e 1)).toInt = ((i 1).val : Int) := by
  have hi0 : (i 0).val < 12000 := idx2_lt0 i
  have hi1 : (i 1).val < 12000 := idx2_lt1 i
  unfold ScatterDims.resultIdx?
  split
  · next h =>
    have h0 := h 0
    have h1 := h 1
    rw [start0, window0] at h0
    rw [start1, window0] at h1
    constructor
    · intro he
      have he' := Option.some.inj he
      have e0 : ((scatter_S12000x12000_S396000x2_S396000_n_01_01_1.start (ix1 e) idx 0 + (scatter_S12000x12000_S396000x2_S396000_n_01_01_1.window (ix1 e) 0 : Nat)).toNat) = (i 0).val := congrArg (fun f => (f 0).val) he'
      have e1 : ((scatter_S12000x12000_S396000x2_S396000_n_01_01_1.start (ix1 e) idx 1 + (scatter_S12000x12000_S396000x2_S396000_n_01_01_1.window (ix1 e) 1 : Nat)).toNat) = (i 1).val := congrArg (fun f => (f 1).val) he'
      rw [start0, window0] at e0
      rw [start1, window0] at e1
      omega
    · rintro ⟨a0, a1⟩
      refine congrArg some (funext fun a => Fin.ext ?_)
      match a with
      | ⟨0, _⟩ =>
        show (scatter_S12000x12000_S396000x2_S396000_n_01_01_1.start (ix1 e) idx 0 + (scatter_S12000x12000_S396000x2_S396000_n_01_01_1.window (ix1 e) 0 : Nat)).toNat = (i 0).val
        rw [start0, window0]; omega
      | ⟨1, _⟩ =>
        show (scatter_S12000x12000_S396000x2_S396000_n_01_01_1.start (ix1 e) idx 1 + (scatter_S12000x12000_S396000x2_S396000_n_01_01_1.window (ix1 e) 1 : Nat)).toNat = (i 1).val
        rw [start1, window0]; omega
  · next h =>
    constructor
    · intro he; exact absurd he (by simp)
    · rintro ⟨a0, a1⟩
      refine absurd (fun a => ?_) h
      match a with
      | ⟨0, _⟩ =>
        show 0 ≤ scatter_S12000x12000_S396000x2_S396000_n_01_01_1.start (ix1 e) idx 0 + (scatter_S12000x12000_S396000x2_S396000_n_01_01_1.window (ix1 e) 0 : Nat) ∧ scatter_S12000x12000_S396000x2_S396000_n_01_01_1.start (ix1 e) idx 0 + (scatter_S12000x12000_S396000x2_S396000_n_01_01_1.window (ix1 e) 0 : Nat) < (12000 : Nat)
        rw [start0, window0]; omega
      | ⟨1, _⟩ =>
        show 0 ≤ scatter_S12000x12000_S396000x2_S396000_n_01_01_1.start (ix1 e) idx 1 + (scatter_S12000x12000_S396000x2_S396000_n_01_01_1.window (ix1 e) 1 : Nat) ∧ scatter_S12000x12000_S396000x2_S396000_n_01_01_1.start (ix1 e) idx 1 + (scatter_S12000x12000_S396000x2_S396000_n_01_01_1.window (ix1 e) 1 : Nat) < (12000 : Nat)
        rw [start1, window0]; omega

/-! ## The two node numbers of every edge, side by side -/

/-- The index pairs the scatter reads: per edge, the wrapped target then the wrapped source. -/
def idxPairs (ei : IVec S2x384000 32) : IVec S396000x2 32 :=
  concatenate S396000x2 1 [⟨S396000x1, broadcastInDim S396000x1 ![0] bcast_S396000_S396000x1_0 (Cert.Prologue.wrap (Cert.Prologue.colVec ei))⟩,
    ⟨S396000x1, broadcastInDim S396000x1 ![0] bcast_S396000_S396000x1_0 (Cert.Prologue.wrap (Cert.Prologue.rowVec ei))⟩] concatenates_S396000x1_S396000x1_S396000x2_d1

theorem idxPairs_col (ei : IVec S2x384000 32) (e : Fin 396000) :
    idxPairs ei (ix2 e (0 : Fin 2)) = Cert.Prologue.wrap (Cert.Prologue.colVec ei) (ix1 e) := by
  unfold idxPairs
  rw [concatenate_pair_apply_left (1 : Fin S396000x2.rank) _ _ concatenates_S396000x1_S396000x1_S396000x2_d1
    (ix2 e (0 : Fin 2)) rfl (ix2 e (0 : Fin 1)) (fun b => by match b with | ⟨0, _⟩ => rfl | ⟨1, _⟩ => rfl)]
  exact broadcastInDim_apply _ bcast_S396000_S396000x1_0 _ (ix2 e (0 : Fin 1)) (ix1 e) (fun a => by
    match a with
    | ⟨0, _⟩ => rfl)

theorem idxPairs_row (ei : IVec S2x384000 32) (e : Fin 396000) :
    idxPairs ei (ix2 e (1 : Fin 2)) = Cert.Prologue.wrap (Cert.Prologue.rowVec ei) (ix1 e) := by
  unfold idxPairs
  rw [concatenate_pair_apply_right (1 : Fin S396000x2.rank) _ _ concatenates_S396000x1_S396000x1_S396000x2_d1
    (ix2 e (1 : Fin 2)) rfl rfl (ix2 e (0 : Fin 1))
    (fun b hb => by match b with | ⟨0, _⟩ => rfl | ⟨1, _⟩ => exact absurd rfl hb) rfl]
  exact broadcastInDim_apply _ bcast_S396000_S396000x1_0 _ (ix2 e (0 : Fin 1)) (ix1 e) (fun a => by
    match a with
    | ⟨0, _⟩ => rfl)

/-! ## The operations before region 0, in seven stretches -/

section Stretches
variable {F : FTy → Type} [FloatOps F]

/-- The first nine of the operations before region 0: the scales of the edges' sources. -/
def opsA : List (HloOp τ sig (Elt F)) :=
  [ StableHlo.nullary main_c (constantI S_ 32 0#32),
    StableHlo.unary main_c main_v17 (broadcastInDim S396000 ![] bcast_S_S396000 : (⟨S_, .i32⟩ : BufTy).Contents (Elt F) → (⟨S396000, .i32⟩ : BufTy).Contents (Elt F)),
    StableHlo.binary main_v3 main_v17 main_v18 (cmpi .slt : (⟨S396000, .i32⟩ : BufTy).Contents (Elt F) → (⟨S396000, .i32⟩ : BufTy).Contents (Elt F) → (⟨S396000, .i1⟩ : BufTy).Contents (Elt F)),
    StableHlo.nullary main_c_4 (constantI S_ 32 12000#32),
    StableHlo.unary main_c_4 main_v19 (broadcastInDim S396000 ![] bcast_S_S396000 : (⟨S_, .i32⟩ : BufTy).Contents (Elt F) → (⟨S396000, .i32⟩ : BufTy).Contents (Elt F)),
    StableHlo.binary main_v3 main_v19 main_v20 (addi : (⟨S396000, .i32⟩ : BufTy).Contents (Elt F) → (⟨S396000, .i32⟩ : BufTy).Contents (Elt F) → (⟨S396000, .i32⟩ : BufTy).Contents (Elt F)),
    StableHlo.ternary main_v18 main_v20 main_v3 main_v21 (select : (⟨S396000, .i1⟩ : BufTy).Contents (Elt F) → (⟨S396000, .i32⟩ : BufTy).Contents (Elt F) → (⟨S396000, .i32⟩ : BufTy).Contents (Elt F) → (⟨S396000, .i32⟩ : BufTy).Contents (Elt F)),
    StableHlo.unary main_v21 main_v22 (broadcastInDim S396000x1 ![0] bcast_S396000_S396000x1_0 : (⟨S396000, .i32⟩ : BufTy).Contents (Elt F) → (⟨S396000x1, .i32⟩ : BufTy).Contents (Elt F)),
    StableHlo.binary main_v16 main_v22 main_v23 ((fun x i => Host.gather gather_S12000_S396000x1_S396000_n_0_n_n_0_1_1 x i) : (⟨S12000, .f32⟩ : BufTy).Contents (Elt F) → (⟨S396000x1, .i32⟩ : BufTy).Contents (Elt F) → (⟨S396000, .f32⟩ : BufTy).Contents (Elt F)) ]

/-- The next nine: the scales of the edges' targets. -/
def opsB : List (HloOp τ sig (Elt F)) :=
  [ StableHlo.nullary main_c_5 (constantI S_ 32 0#32),
    StableHlo.unary main_c_5 main_v24 (broadcastInDim S396000 ![] bcast_S_S396000 : (⟨S_, .i32⟩ : BufTy).Contents (Elt F) → (⟨S396000, .i32⟩ : BufTy).Contents (Elt F)),
    StableHlo.binary main_v6 main_v24 main_v25 (cmpi .slt : (⟨S396000, .i32⟩ : BufTy).Contents (Elt F) → (⟨S396000, .i32⟩ : BufTy).Contents (Elt F) → (⟨S396000, .i1⟩ : BufTy).Contents (Elt F)),
    StableHlo.nullary main_c_6 (constantI S_ 32 12000#32),
    StableHlo.unary main_c_6 main_v26 (broadcastInDim S396000 ![] bcast_S_S396000 : (⟨S_, .i32⟩ : BufTy).Contents (Elt F) → (⟨S396000, .i32⟩ : BufTy).Contents (Elt F)),
    StableHlo.binary main_v6 main_v26 main_v27 (addi : (⟨S396000, .i32⟩ : BufTy).Contents (Elt F) → (⟨S396000, .i32⟩ : BufTy).Contents (Elt F) → (⟨S396000, .i32⟩ : BufTy).Contents (Elt F)),
    StableHlo.ternary main_v25 main_v27 main_v6 main_v28 (select : (⟨S396000, .i1⟩ : BufTy).Contents (Elt F) → (⟨S396000, .i32⟩ : BufTy).Contents (Elt F) → (⟨S396000, .i32⟩ : BufTy).Contents (Elt F) → (⟨S396000, .i32⟩ : BufTy).Contents (Elt F)),
    StableHlo.unary main_v28 main_v29 (broadcastInDim S396000x1 ![0] bcast_S396000_S396000x1_0 : (⟨S396000, .i32⟩ : BufTy).Contents (Elt F) → (⟨S396000x1, .i32⟩ : BufTy).Contents (Elt F)),
    StableHlo.binary main_v16 main_v29 main_v30 ((fun x i => Host.gather gather_S12000_S396000x1_S396000_n_0_n_n_0_1_1 x i) : (⟨S12000, .f32⟩ : BufTy).Contents (Elt F) → (⟨S396000x1, .i32⟩ : BufTy).Contents (Elt F) → (⟨S396000, .f32⟩ : BufTy).Contents (Elt F)) ]

/-- The next three: the edges' weights, and a matrix of zeros. -/
def opsC : List (HloOp τ sig (Elt F)) :=
  [ StableHlo.binary main_v23 main_v30 main_v31 (mulf : (⟨S396000, .f32⟩ : BufTy).Contents (Elt F) → (⟨S396000, .f32⟩ : BufTy).Contents (Elt F) → (⟨S396000, .f32⟩ : BufTy).Contents (Elt F)),
    StableHlo.nullary main_cst_7 (constant S_ .f32 0x00000000#32),
    StableHlo.unary main_cst_7 main_v32 (broadcastInDim S12000x12000 ![] bcast_S_S12000x12000 : (⟨S_, .f32⟩ : BufTy).Contents (Elt F) → (⟨S12000x12000, .f32⟩ : BufTy).Contents (Elt F)) ]

/-- The next seven: the wrapped targets. -/
def opsD : List (HloOp τ sig (Elt F)) :=
  [ StableHlo.nullary main_c_8 (constantI S_ 32 0#32),
    StableHlo.unary main_c_8 main_v33 (broadcastInDim S396000 ![] bcast_S_S396000 : (⟨S_, .i32⟩ : BufTy).Contents (Elt F) → (⟨S396000, .i32⟩ : BufTy).Contents (Elt F)),
    StableHlo.binary main_v6 main_v33 main_v34 (cmpi .slt : (⟨S396000, .i32⟩ : BufTy).Contents (Elt F) → (⟨S396000, .i32⟩ : BufTy).Contents (Elt F) → (⟨S396000, .i1⟩ : BufTy).Contents (Elt F)),
    StableHlo.nullary main_c_9 (constantI S_ 32 12000#32),
    StableHlo.unary main_c_9 main_v35 (broadcastInDim S396000 ![] bcast_S_S396000 : (⟨S_, .i32⟩ : BufTy).Contents (Elt F) → (⟨S396000, .i32⟩ : BufTy).Contents (Elt F)),
    StableHlo.binary main_v6 main_v35 main_v36 (addi : (⟨S396000, .i32⟩ : BufTy).Contents (Elt F) → (⟨S396000, .i32⟩ : BufTy).Contents (Elt F) → (⟨S396000, .i32⟩ : BufTy).Contents (Elt F)),
    StableHlo.ternary main_v34 main_v36 main_v6 main_v37 (select : (⟨S396000, .i1⟩ : BufTy).Contents (Elt F) → (⟨S396000, .i32⟩ : BufTy).Contents (Elt F) → (⟨S396000, .i32⟩ : BufTy).Contents (Elt F) → (⟨S396000, .i32⟩ : BufTy).Contents (Elt F)) ]

/-- The next seven: the wrapped sources. -/
def opsE : List (HloOp τ sig (Elt F)) :=
  [ StableHlo.nullary main_c_10 (constantI S_ 32 0#32),
    StableHlo.unary main_c_10 main_v38 (broadcastInDim S396000 ![] bcast_S_S396000 : (⟨S_, .i32⟩ : BufTy).Contents (Elt F) → (⟨S396000, .i32⟩ : BufTy).Contents (Elt F)),
    StableHlo.binary main_v3 main_v38 main_v39 (cmpi .slt : (⟨S396000, .i32⟩ : BufTy).Contents (Elt F) → (⟨S396000, .i32⟩ : BufTy).Contents (Elt F) → (⟨S396000, .i1⟩ : BufTy).Contents (Elt F)),
    StableHlo.nullary main_c_11 (constantI S_ 32 12000#32),
    StableHlo.unary main_c_11 main_v40 (broadcastInDim S396000 ![] bcast_S_S396000 : (⟨S_, .i32⟩ : BufTy).Contents (Elt F) → (⟨S396000, .i32⟩ : BufTy).Contents (Elt F)),
    StableHlo.binary main_v3 main_v40 main_v41 (addi : (⟨S396000, .i32⟩ : BufTy).Contents (Elt F) → (⟨S396000, .i32⟩ : BufTy).Contents (Elt F) → (⟨S396000, .i32⟩ : BufTy).Contents (Elt F)),
    StableHlo.ternary main_v39 main_v41 main_v3 main_v42 (select : (⟨S396000, .i1⟩ : BufTy).Contents (Elt F) → (⟨S396000, .i32⟩ : BufTy).Contents (Elt F) → (⟨S396000, .i32⟩ : BufTy).Contents (Elt F) → (⟨S396000, .i32⟩ : BufTy).Contents (Elt F)) ]

/-- The next five: the index pairs, the scatter-add, and the change of format. -/
def opsG : List (HloOp τ sig (Elt F)) :=
  [ StableHlo.unary main_v37 main_v43 (broadcastInDim S396000x1 ![0] bcast_S396000_S396000x1_0 : (⟨S396000, .i32⟩ : BufTy).Contents (Elt F) → (⟨S396000x1, .i32⟩ : BufTy).Contents (Elt F)),
    StableHlo.unary main_v42 main_v44 (broadcastInDim S396000x1 ![0] bcast_S396000_S396000x1_0 : (⟨S396000, .i32⟩ : BufTy).Contents (Elt F) → (⟨S396000x1, .i32⟩ : BufTy).Contents (Elt F)),
    StableHlo.binary main_v43 main_v44 main_v45 ((fun a b => concatenate S396000x2 1 [⟨S396000x1, a⟩, ⟨S396000x1, b⟩] concatenates_S396000x1_S396000x1_S396000x2_d1) : (⟨S396000x1, .i32⟩ : BufTy).Contents (Elt F) → (⟨S396000x1, .i32⟩ : BufTy).Contents (Elt F) → (⟨S396000x2, .i32⟩ : BufTy).Contents (Elt F)),
    StableHlo.ternary main_v32 main_v45 main_v31 main_v46 ((fun x i u => Host.scatterAdd scatter_S12000x12000_S396000x2_S396000_n_01_01_1 x i u) : (⟨S12000x12000, .f32⟩ : BufTy).Contents (Elt F) → (⟨S396000x2, .i32⟩ : BufTy).Contents (Elt F) → (⟨S396000, .f32⟩ : BufTy).Contents (Elt F) → (⟨S12000x12000, .f32⟩ : BufTy).Contents (Elt F)),
    StableHlo.unary main_v46 main_v47 ((truncf .bf16 · bitsLt_bf16_f32) : (⟨S12000x12000, .f32⟩ : BufTy).Contents (Elt F) → (⟨S12000x12000, .bf16⟩ : BufTy).Contents (Elt F)) ]

/-- The last four: region 0's other operands. -/
def opsH : List (HloOp τ sig (Elt F)) :=
  [ StableHlo.nullary main_cst_12 (constant S_ .f32 0x00000000#32),
    StableHlo.unary main_cst_12 main_v48 (broadcastInDim S1x256 ![] bcast_S_S1x256 : (⟨S_, .f32⟩ : BufTy).Contents (Elt F) → (⟨S1x256, .f32⟩ : BufTy).Contents (Elt F)),
    StableHlo.unary main_arg0 main_v49 ((truncf .bf16 · bitsLt_bf16_f32) : (⟨S12000x512, .f32⟩ : BufTy).Contents (Elt F) → (⟨S12000x512, .bf16⟩ : BufTy).Contents (Elt F)),
    StableHlo.unary main_arg2 main_v50 ((truncf .bf16 · bitsLt_bf16_f32) : (⟨S512x256, .f32⟩ : BufTy).Contents (Elt F) → (⟨S512x256, .bf16⟩ : BufTy).Contents (Elt F)) ]

/-- The seven stretches, one after the other, are @main's operations before region 0, in order. -/
theorem hostOps0_2_eq : (hostOps0_2 : List (HloOp τ sig (Elt F))) = opsA ++ (opsB ++ (opsC ++ (opsD ++ (opsE ++ (opsG ++ opsH))))) := rfl

end Stretches

/-! ### What each stretch computes, and what it leaves alone, from any contents `V` (`V` is the contents of all
    buffers when the stretch starts) -/

theorem opsA_v23 (V : Valuation τ sig (Elt Ideal)) :
    (StableHlo.after (opsA (F := Ideal)) V (Proc.devRef .tc main_v23) : FVec Ideal S396000 .f32) = Host.gather gather_S12000_S396000x1_S396000_n_0_n_n_0_1_1 (V (Proc.devRef .tc main_v16) : FVec Ideal S12000 .f32) (broadcastInDim S396000x1 ![0] bcast_S396000_S396000x1_0 (Cert.Prologue.wrap (V (Proc.devRef .tc main_v3) : IVec S396000 32))) := by
  unfold opsA
  after_results
  all_goals rfl
theorem opsA_v3 (V : Valuation τ sig (Elt Ideal)) : StableHlo.after (opsA (F := Ideal)) V (Proc.devRef .tc main_v3) = V (Proc.devRef .tc main_v3) := by
  unfold opsA
  after_results
theorem opsA_v6 (V : Valuation τ sig (Elt Ideal)) : StableHlo.after (opsA (F := Ideal)) V (Proc.devRef .tc main_v6) = V (Proc.devRef .tc main_v6) := by
  unfold opsA
  after_results
theorem opsA_v16 (V : Valuation τ sig (Elt Ideal)) : StableHlo.after (opsA (F := Ideal)) V (Proc.devRef .tc main_v16) = V (Proc.devRef .tc main_v16) := by
  unfold opsA
  after_results

theorem opsB_v30 (V : Valuation τ sig (Elt Ideal)) :
    (StableHlo.after (opsB (F := Ideal)) V (Proc.devRef .tc main_v30) : FVec Ideal S396000 .f32) = Host.gather gather_S12000_S396000x1_S396000_n_0_n_n_0_1_1 (V (Proc.devRef .tc main_v16) : FVec Ideal S12000 .f32) (broadcastInDim S396000x1 ![0] bcast_S396000_S396000x1_0 (Cert.Prologue.wrap (V (Proc.devRef .tc main_v6) : IVec S396000 32))) := by
  unfold opsB
  after_results
  all_goals rfl
theorem opsB_v23 (V : Valuation τ sig (Elt Ideal)) : StableHlo.after (opsB (F := Ideal)) V (Proc.devRef .tc main_v23) = V (Proc.devRef .tc main_v23) := by
  unfold opsB
  after_results
theorem opsB_v3 (V : Valuation τ sig (Elt Ideal)) : StableHlo.after (opsB (F := Ideal)) V (Proc.devRef .tc main_v3) = V (Proc.devRef .tc main_v3) := by
  unfold opsB
  after_results
theorem opsB_v6 (V : Valuation τ sig (Elt Ideal)) : StableHlo.after (opsB (F := Ideal)) V (Proc.devRef .tc main_v6) = V (Proc.devRef .tc main_v6) := by
  unfold opsB
  after_results

theorem opsC_v31 (V : Valuation τ sig (Elt Ideal)) :
    (StableHlo.after (opsC (F := Ideal)) V (Proc.devRef .tc main_v31) : FVec Ideal S396000 .f32)
      = mulf (F := Ideal) (s := S396000) (φ := .f32) (V (Proc.devRef .tc main_v23) : FVec Ideal S396000 .f32) (V (Proc.devRef .tc main_v30) : FVec Ideal S396000 .f32) := by
  unfold opsC
  after_results
  all_goals rfl
theorem opsC_v32 (V : Valuation τ sig (Elt Ideal)) :
    (StableHlo.after (opsC (F := Ideal)) V (Proc.devRef .tc main_v32) : FVec Ideal S12000x12000 .f32)
      = broadcastInDim S12000x12000 ![] bcast_S_S12000x12000 (constant (F := Ideal) S_ .f32 0x00000000#32) := by
  unfold opsC
  after_results
  all_goals rfl
theorem opsC_v3 (V : Valuation τ sig (Elt Ideal)) : StableHlo.after (opsC (F := Ideal)) V (Proc.devRef .tc main_v3) = V (Proc.devRef .tc main_v3) := by
  unfold opsC
  after_results
theorem opsC_v6 (V : Valuation τ sig (Elt Ideal)) : StableHlo.after (opsC (F := Ideal)) V (Proc.devRef .tc main_v6) = V (Proc.devRef .tc main_v6) := by
  unfold opsC
  after_results

theorem opsD_v37 (V : Valuation τ sig (Elt Ideal)) :
    (StableHlo.after (opsD (F := Ideal)) V (Proc.devRef .tc main_v37) : IVec S396000 32) = Cert.Prologue.wrap (V (Proc.devRef .tc main_v6) : IVec S396000 32) := by
  unfold opsD
  after_results
  all_goals rfl
theorem opsD_v31 (V : Valuation τ sig (Elt Ideal)) : StableHlo.after (opsD (F := Ideal)) V (Proc.devRef .tc main_v31) = V (Proc.devRef .tc main_v31) := by
  unfold opsD
  after_results
theorem opsD_v32 (V : Valuation τ sig (Elt Ideal)) : StableHlo.after (opsD (F := Ideal)) V (Proc.devRef .tc main_v32) = V (Proc.devRef .tc main_v32) := by
  unfold opsD
  after_results
theorem opsD_v3 (V : Valuation τ sig (Elt Ideal)) : StableHlo.after (opsD (F := Ideal)) V (Proc.devRef .tc main_v3) = V (Proc.devRef .tc main_v3) := by
  unfold opsD
  after_results

theorem opsE_v42 (V : Valuation τ sig (Elt Ideal)) :
    (StableHlo.after (opsE (F := Ideal)) V (Proc.devRef .tc main_v42) : IVec S396000 32) = Cert.Prologue.wrap (V (Proc.devRef .tc main_v3) : IVec S396000 32) := by
  unfold opsE
  after_results
  all_goals rfl
theorem opsE_v31 (V : Valuation τ sig (Elt Ideal)) : StableHlo.after (opsE (F := Ideal)) V (Proc.devRef .tc main_v31) = V (Proc.devRef .tc main_v31) := by
  unfold opsE
  after_results
theorem opsE_v32 (V : Valuation τ sig (Elt Ideal)) : StableHlo.after (opsE (F := Ideal)) V (Proc.devRef .tc main_v32) = V (Proc.devRef .tc main_v32) := by
  unfold opsE
  after_results
theorem opsE_v37 (V : Valuation τ sig (Elt Ideal)) : StableHlo.after (opsE (F := Ideal)) V (Proc.devRef .tc main_v37) = V (Proc.devRef .tc main_v37) := by
  unfold opsE
  after_results

theorem opsG_v47 (V : Valuation τ sig (Elt Ideal)) :
    (StableHlo.after (opsG (F := Ideal)) V (Proc.devRef .tc main_v47) : S12000x12000.Idx → EReal)
      = Host.scatterAdd (F := Ideal) (φ := .f32) scatter_S12000x12000_S396000x2_S396000_n_01_01_1 (V (Proc.devRef .tc main_v32) : FVec Ideal S12000x12000 .f32)
          (concatenate S396000x2 1 [⟨S396000x1, (broadcastInDim S396000x1 ![0] bcast_S396000_S396000x1_0 (V (Proc.devRef .tc main_v37) : IVec S396000 32))⟩, ⟨S396000x1, (broadcastInDim S396000x1 ![0] bcast_S396000_S396000x1_0 (V (Proc.devRef .tc main_v42) : IVec S396000 32))⟩]
            concatenates_S396000x1_S396000x1_S396000x2_d1)
          (V (Proc.devRef .tc main_v31) : FVec Ideal S396000 .f32) := by
  unfold opsG
  after_results
  all_goals rfl
theorem opsH_v47 (V : Valuation τ sig (Elt Ideal)) : StableHlo.after (opsH (F := Ideal)) V (Proc.devRef .tc main_v47) = V (Proc.devRef .tc main_v47) := by
  unfold opsH
  after_results

/-- The dense adjacency after @main's operations before region 0, from any contents `V` of all buffers when they start. -/
theorem stage2 (V : Valuation τ sig (Elt Ideal)) :
    (StableHlo.after hostOps0_2 V (Proc.devRef .tc main_v47) : S12000x12000.Idx → EReal)
      = Host.scatterAdd (F := Ideal) (φ := .f32) scatter_S12000x12000_S396000x2_S396000_n_01_01_1
          (broadcastInDim S12000x12000 ![] bcast_S_S12000x12000 (constant (F := Ideal) S_ .f32 0x00000000#32))
          (concatenate S396000x2 1
            [⟨S396000x1, (broadcastInDim S396000x1 ![0] bcast_S396000_S396000x1_0 (Cert.Prologue.wrap (V (Proc.devRef .tc main_v6) : IVec S396000 32)))⟩,
             ⟨S396000x1, (broadcastInDim S396000x1 ![0] bcast_S396000_S396000x1_0 (Cert.Prologue.wrap (V (Proc.devRef .tc main_v3) : IVec S396000 32)))⟩]
            concatenates_S396000x1_S396000x1_S396000x2_d1)
          (mulf (Host.gather gather_S12000_S396000x1_S396000_n_0_n_n_0_1_1 (V (Proc.devRef .tc main_v16) : FVec Ideal S12000 .f32) (broadcastInDim S396000x1 ![0] bcast_S396000_S396000x1_0 (Cert.Prologue.wrap (V (Proc.devRef .tc main_v3) : IVec S396000 32)))) (Host.gather gather_S12000_S396000x1_S396000_n_0_n_n_0_1_1 (V (Proc.devRef .tc main_v16) : FVec Ideal S12000 .f32) (broadcastInDim S396000x1 ![0] bcast_S396000_S396000x1_0 (Cert.Prologue.wrap (V (Proc.devRef .tc main_v6) : IVec S396000 32))))) := by
  rw [hostOps0_2_eq]
  simp only [StableHlo.after_append]
  rw [opsH_v47, opsG_v47, opsE_v32, opsE_v37, opsE_v42, opsE_v31, opsD_v32, opsD_v37, opsD_v3, opsD_v31,
    opsC_v32, opsC_v6, opsC_v3, opsC_v31, opsB_v23, opsB_v30, opsB_v3, opsB_v6, opsA_v23, opsA_v3, opsA_v6, opsA_v16]

/-! ## The operations before those: the select of the called function _where (it keeps a node's scale where the
    degree is positive and puts zero elsewhere), which @main runs between its first operations and the rest; and the
    first operations themselves, which build the edge list's vectors and the scales -/

/-- The node scales after that select, from any contents `V` of all buffers when it starts. -/
theorem stage1_v16 (V : Valuation τ sig (Elt Ideal)) :
    (StableHlo.after hostOps0_1 V (Proc.devRef .tc main_v16) : FVec Ideal S12000 .f32)
      = select (s := S12000) (V (Proc.devRef .tc main_v12) : IVec S12000 1) (V (Proc.devRef .tc main_v15) : FVec Ideal S12000 .f32)
          (broadcastInDim S12000 ![] bcast_S_S12000 (id (V (Proc.devRef .tc main_cst_3) : FVec Ideal S_ .f32))) := by
  after_results
  all_goals rfl
theorem stage1_v3 (V : Valuation τ sig (Elt Ideal)) :
    StableHlo.after hostOps0_1 V (Proc.devRef .tc main_v3) = V (Proc.devRef .tc main_v3) := by
  after_results
theorem stage1_v6 (V : Valuation τ sig (Elt Ideal)) :
    StableHlo.after hostOps0_1 V (Proc.devRef .tc main_v6) = V (Proc.devRef .tc main_v6) := by
  after_results

/-- The edges' sources after @main's first operations, from any contents `V` of all buffers when they start. -/
theorem stage0_v3 (V : Valuation τ sig (Elt Ideal)) :
    (StableHlo.after hostOps0 V (Proc.devRef .tc main_v3) : IVec S396000 32)
      = Cert.Prologue.rowVec (V (Proc.devRef .tc main_arg1) : IVec S2x384000 32) := by
  after_results
  all_goals rfl
/-- The edges' targets. -/
theorem stage0_v6 (V : Valuation τ sig (Elt Ideal)) :
    (StableHlo.after hostOps0 V (Proc.devRef .tc main_v6) : IVec S396000 32)
      = Cert.Prologue.colVec (V (Proc.devRef .tc main_arg1) : IVec S2x384000 32) := by
  after_results
  all_goals rfl
/-- The test "degree is positive". -/
theorem stage0_v12 (V : Valuation τ sig (Elt Ideal)) :
    (StableHlo.after hostOps0 V (Proc.devRef .tc main_v12) : IVec S12000 1)
      = cmpf (F := Ideal) (s := S12000) (φ := .f32) .ogt (Cert.Prologue.deg (F := Ideal) (V (Proc.devRef .tc main_arg1) : IVec S2x384000 32))
          (broadcastInDim S12000 ![] bcast_S_S12000 (constant (F := Ideal) S_ .f32 0x00000000#32)) := by
  after_results
  all_goals rfl
/-- One over the square root of the larger of the degree and one. -/
theorem stage0_v15 (V : Valuation τ sig (Elt Ideal)) :
    (StableHlo.after hostOps0 V (Proc.devRef .tc main_v15) : FVec Ideal S12000 .f32)
      = Host.rsqrt (F := Ideal) (s := S12000) (φ := .f32) (maximumf (Cert.Prologue.deg (F := Ideal) (V (Proc.devRef .tc main_arg1) : IVec S2x384000 32))
          (broadcastInDim S12000 ![] bcast_S_S12000 (constant (F := Ideal) S_ .f32 0x3F800000#32))) := by
  after_results
  all_goals rfl
/-- The zero the select falls back to. -/
theorem stage0_cst3 (V : Valuation τ sig (Elt Ideal)) :
    (StableHlo.after hostOps0 V (Proc.devRef .tc main_cst_3) : FVec Ideal S_ .f32)
      = constant (F := Ideal) S_ .f32 0x00000000#32 := by
  after_results
  all_goals rfl

/-! ## The adjacency -/

section
variable (m : (ℓ : Loc nD τ sig) → Buf (Elt Ideal) ℓ) (ρ : Dev nD → PrngReg) (c : Dev nD)

/-- The edges' sources, as the kernel holds them after its first operations. -/
theorem W1_v3 : (W1 m ρ c (Proc.devRef .tc main_v3) : IVec S396000 32) = Cert.Prologue.rowVec (m ((c : Thread nD τ).loc main_arg1)) :=
  stage0_v3 (W0 m ρ c)
/-- The edges' targets. -/
theorem W1_v6 : (W1 m ρ c (Proc.devRef .tc main_v6) : IVec S396000 32) = Cert.Prologue.colVec (m ((c : Thread nD τ).loc main_arg1)) :=
  stage0_v6 (W0 m ρ c)
/-- The select of _where leaves the sources alone. -/
theorem W2_v3 : (W2 m ρ c (Proc.devRef .tc main_v3) : IVec S396000 32) = Cert.Prologue.rowVec (m ((c : Thread nD τ).loc main_arg1)) :=
  (stage1_v3 (W1 m ρ c)).trans (W1_v3 m ρ c)
/-- The select of _where leaves the targets alone. -/
theorem W2_v6 : (W2 m ρ c (Proc.devRef .tc main_v6) : IVec S396000 32) = Cert.Prologue.colVec (m ((c : Thread nD τ).loc main_arg1)) :=
  (stage1_v6 (W1 m ρ c)).trans (W1_v6 m ρ c)
/-- The node scales, as the kernel holds them after the select of _where. -/
theorem W2_v16 : (W2 m ρ c (Proc.devRef .tc main_v16) : FVec Ideal S12000 .f32) = Cert.Prologue.dinv (F := Ideal) (m ((c : Thread nD τ).loc main_arg1)) := by
  have e12 : W1 m ρ c (Proc.devRef .tc main_v12) = _ := stage0_v12 (W0 m ρ c)
  have e15 : W1 m ρ c (Proc.devRef .tc main_v15) = _ := stage0_v15 (W0 m ρ c)
  have ec3 : W1 m ρ c (Proc.devRef .tc main_cst_3) = _ := stage0_cst3 (W0 m ρ c)
  have h := stage1_v16 (W1 m ρ c)
  rw [e12, e15, ec3] at h
  exact h

/-- The dense adjacency as the kernel builds it: the edge weights scatter-added into a zero matrix at the index pairs. -/
theorem adj_term :
    (W3 m ρ c (Proc.devRef .tc main_v47) : S12000x12000.Idx → EReal)
      = Host.scatterAdd (F := Ideal) scatter_S12000x12000_S396000x2_S396000_n_01_01_1
          (broadcastInDim S12000x12000 ![] bcast_S_S12000x12000 (constant (F := Ideal) S_ .f32 0x00000000#32))
          (idxPairs (m ((c : Thread nD τ).loc main_arg1)))
          (Cert.Prologue.nrmVec (F := Ideal) (m ((c : Thread nD τ).loc main_arg1))) := by
  have e := stage2 (W2 m ρ c)
  rw [W2_v16 m ρ c, W2_v3 m ρ c, W2_v6 m ρ c] at e
  exact e

/-- A rank-1 index is its one coordinate. -/
def idx1Equiv (n : Nat) : Fin n ≃ (⟨1, ![n]⟩ : Shape).Idx :=
  ⟨ix1, fun j => j 0, fun _ => rfl, fun j => (eq_ix1 j).symm⟩

/-- Entry (c, r) of the adjacency is zero plus the collected weight of the edges from r to c. -/
theorem adjacency
    (hr : ∀ e : Fin 396000, 0 ≤ (Cert.Prologue.rowVec (m ((c : Thread nD τ).loc main_arg1)) (ix1 e)).toInt ∧ (Cert.Prologue.rowVec (m ((c : Thread nD τ).loc main_arg1)) (ix1 e)).toInt < 12000)
    (hc : ∀ e : Fin 396000, 0 ≤ (Cert.Prologue.colVec (m ((c : Thread nD τ).loc main_arg1)) (ix1 e)).toInt ∧ (Cert.Prologue.colVec (m ((c : Thread nD τ).loc main_arg1)) (ix1 e)).toInt < 12000)
    (cc rr : Fin 12000) :
    (W3 m ρ c (Proc.devRef .tc main_v47) : S12000x12000.Idx → EReal) (ix2 cc rr)
      = 0 + ∑ e ∈ univ.filter (fun e : Fin 396000 =>
            (Cert.Prologue.col (m ((c : Thread nD τ).loc main_arg1)) e).val = cc.val ∧ (Cert.Prologue.row (m ((c : Thread nD τ).loc main_arg1)) e).val = rr.val),
          Cert.Prologue.nrm (m ((c : Thread nD τ).loc main_arg1)) e := by
  rw [adj_term]
  simp only [Host.scatterAdd]
  rw [Ideal.hostScatterAdd_def]
  unfold Ideal.hostScatterAdd
  refine congrArg₂ (· + ·) ?_ ?_
  · exact (broadcastInDim_apply _ bcast_S_S12000x12000 _ (ix2 cc rr) ix0 (fun a => a.elim0)).trans Ideal.ofBits_zero_f32
  · rw [Finset.sum_filter, Finset.sum_filter, ← Equiv.sum_comp (idx1Equiv 396000)]
    refine Finset.sum_congr rfl fun e _ => ?_
    refine if_congr ?_ rfl rfl
    show scatter_S12000x12000_S396000x2_S396000_n_01_01_1.resultIdx? (ix1 e) (idxPairs (m ((c : Thread nD τ).loc main_arg1))) = some (ix2 cc rr) ↔ _
    rw [resultIdx_iff, idxPairs_col, idxPairs_row,
      Cert.PrologueFacts.wrap_of_nonneg _ _ (hc e).1, Cert.PrologueFacts.wrap_of_nonneg _ _ (hr e).1]
    unfold Cert.Prologue.col Cert.Prologue.row
    rw [← Cert.PrologueFacts.node_val _ (hc e).1 (hc e).2, ← Cert.PrologueFacts.node_val _ (hr e).1 (hr e).2]
    exact and_congr Int.natCast_inj Int.natCast_inj

end

end Cert.KernelIdeal.Adjacency

end
-- ==== Proof.RefIndex.lean ====
/-
  Two index computations shared by the three graph convolutions.

  Taking rows: from a matrix of M rows, the result's row e is the matrix's row number idx[e] (read as a signed number
  and brought into 0 … M-1), entry by entry. Adding rows: the update's row e is added into the operand's row number
  idx[e] (read as a signed number; a row whose number is outside 0 … M-1 is dropped), entry by entry.
-/
import Idealize.ShloMosaic.Lib.ValueIdx

noncomputable section

namespace Cert.ReferenceIdeal.RefValue

open Idealize.ShloMosaic Idealize.ShloMosaic.ValueIdx

section Rows
variable {E M N : Nat}

/-- The dimension numbers of "take whole rows": an operand [M, N], one row number per result row (an [E, 1] array),
    a result [E, N]. -/
abbrev rowGather (wf : GatherDims.WF ⟨2, ![M, N]⟩ ⟨2, ![E, 1]⟩ ⟨2, ![E, N]⟩ [1] [0] [] [0] [] 1 ![1, N]) :
    GatherDims ⟨2, ![M, N]⟩ ⟨2, ![E, 1]⟩ ⟨2, ![E, N]⟩ where
  offsetDims := [1]
  collapsedSliceDims := [0]
  operandBatchingDims := []
  startIndicesBatchingDims := []
  startIndexMap := [0]
  indexVectorDim := 1
  sliceSizes := ![1, N]
  wf := wf

section Gather
variable {w : Nat} (wf : GatherDims.WF ⟨2, ![M, N]⟩ ⟨2, ![E, 1]⟩ ⟨2, ![E, N]⟩ [1] [0] [] [0] [] 1 ![1, N])
  (idx : IVec ⟨2, ![E, 1]⟩ w) (e : Fin E) (f : Fin N)

/-- The operand's row read for result row e: the row number idx[e], brought into range. -/
theorem rowGather_coord0 :
    ((rowGather wf).operandIdx (ix2 e f) idx (0 : Fin 2)).val = min (idx (ix2 e 0)).toInt.toNat (M - 1) := by
  show (rowGather wf).start (ix2 e f) idx (0 : Fin 2) + (rowGather wf).batchCoord (ix2 e f) (0 : Fin 2)
    + (rowGather wf).offCoord (ix2 e f) (0 : Fin 2) = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather wf).startIndexMap from List.mem_singleton.mpr rfl)]
  have hsi : (rowGather wf).siIdx (ix2 e f) ⟨List.idxOf (0 : Fin 2) (rowGather wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- The operand's column read for result column f: f itself. -/
theorem rowGather_coord1 : ((rowGather wf).operandIdx (ix2 e f) idx (1 : Fin 2)).val = f.val := by
  show (rowGather wf).start (ix2 e f) idx (1 : Fin 2) + (rowGather wf).batchCoord (ix2 e f) (1 : Fin 2)
    + (rowGather wf).offCoord (ix2 e f) (1 : Fin 2) = _
  have hs : (rowGather wf).start (ix2 e f) idx (1 : Fin 2) = 0 := by
    unfold GatherDims.start
    rw [dif_neg (show ¬ (1 : Fin 2) ∈ [(0 : Fin 2)] by decide)]
  have hk : (1 : Fin 2) ∈ (rowGather wf).sKept :=
    (GatherDims.mem_sKept _ _).mpr ⟨(show ¬ (1 : Fin 2) ∈ [(0 : Fin 2)] by decide), List.not_mem_nil⟩
  have ho : (rowGather wf).offCoord (ix2 e f) (1 : Fin 2) = f.val := by
    unfold GatherDims.offCoord
    rw [dif_pos hk]
    rfl
  rw [GatherDims.batchCoord_eq_zero _ _ _ List.not_mem_nil, hs, ho]
  omega

end Gather

/-- Entry (e, f) of the taken rows is entry f of the operand's row number idx[e], brought into range. -/
theorem rowGather_apply {α : Type} {w : Nat} (hM : 0 < M)
    (wf : GatherDims.WF ⟨2, ![M, N]⟩ ⟨2, ![E, 1]⟩ ⟨2, ![E, N]⟩ [1] [0] [] [0] [] 1 ![1, N])
    (x : (⟨2, ![M, N]⟩ : Shape).Idx → α) (idx : IVec ⟨2, ![E, 1]⟩ w) (e : Fin E) (f : Fin N) :
    Host.gather (rowGather wf) x idx (ix2 e f)
      = x (ix2 ⟨min (idx (ix2 e 0)).toInt.toNat (M - 1), by omega⟩ f) := by
  unfold Host.gather
  congr 1
  funext a
  refine Fin.ext ?_
  match a with
  | ⟨0, _⟩ => exact rowGather_coord0 wf idx e f
  | ⟨1, _⟩ => exact rowGather_coord1 wf idx e f

/-- The dimension numbers of "add whole rows": an operand [M, N], one row number per update row (an [E, 1] array),
    updates [E, N]. -/
abbrev rowScatter (wf : ScatterDims.WF ⟨2, ![M, N]⟩ ⟨2, ![E, 1]⟩ ⟨2, ![E, N]⟩ [1] [0] [0] 1) :
    ScatterDims ⟨2, ![M, N]⟩ ⟨2, ![E, 1]⟩ ⟨2, ![E, N]⟩ where
  updateWindowDims := [1]
  insertedWindowDims := [0]
  scatterDimsToOperandDims := [0]
  indexVectorDim := 1
  wf := wf

section Scatter
variable {w : Nat} (wf : ScatterDims.WF ⟨2, ![M, N]⟩ ⟨2, ![E, 1]⟩ ⟨2, ![E, N]⟩ [1] [0] [0] 1)
  (idx : IVec ⟨2, ![E, 1]⟩ w) (e : Fin E) (f : Fin N)

/-- Update row e starts at the row number idx[e], read signed. -/
theorem rowScatter_start0 : (rowScatter wf).start (ix2 e f) idx (0 : Fin 2) = (idx (ix2 e 0)).toInt := by
  unfold ScatterDims.start
  rw [dif_pos (show (0 : Fin 2) ∈ (rowScatter wf).scatterDimsToOperandDims from List.mem_singleton.mpr rfl)]
  have hsi : (rowScatter wf).siIdx (ix2 e f) ⟨List.idxOf (0 : Fin 2) (rowScatter wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- … and at column 0. -/
theorem rowScatter_start1 : (rowScatter wf).start (ix2 e f) idx (1 : Fin 2) = 0 := by
  unfold ScatterDims.start
  rw [dif_neg (show ¬ (1 : Fin 2) ∈ [(0 : Fin 2)] by decide)]

/-- The row axis is not a window axis … -/
theorem rowScatter_window0 : (rowScatter wf).window (ix2 e f) (0 : Fin 2) = 0 := by
  unfold ScatterDims.window
  rw [dif_neg]
  show ¬ (0 : Fin 2) ∈ (List.finRange 2).filter (· ∉ [(0 : Fin 2)])
  decide

/-- … and the column axis is: entry f of an update row goes to column f. -/
theorem rowScatter_window1 : (rowScatter wf).window (ix2 e f) (1 : Fin 2) = f.val := by
  unfold ScatterDims.window
  have hk : (1 : Fin 2) ∈ (rowScatter wf).sKept :=
    (by decide : (1 : Fin 2) ∈ (List.finRange 2).filter (· ∉ [(0 : Fin 2)]))
  rw [dif_pos hk]
  rfl

/-- Entry (e, f) of the updates lands on entry i of the operand exactly when the row number idx[e], read signed, is i's
    row and f is i's column. -/
theorem rowScatter_resultIdx_iff (i : (⟨2, ![M, N]⟩ : Shape).Idx) :
    (rowScatter wf).resultIdx? (ix2 e f) idx = some i
      ↔ (idx (ix2 e 0)).toInt = ((i 0).val : Int) ∧ f.val = (i 1).val := by
  have hi0 := idx2_lt0 i
  have hi1 := idx2_lt1 i
  have s0 := rowScatter_start0 wf idx e f
  have s1 := rowScatter_start1 wf idx e f
  have w0 := rowScatter_window0 wf e f
  have w1 := rowScatter_window1 wf e f
  unfold ScatterDims.resultIdx?
  constructor
  · intro h
    split at h
    · rename_i hall
      have hi := Option.some.inj h
      have h0 : ((rowScatter wf).start (ix2 e f) idx (0 : Fin 2) + ((rowScatter wf).window (ix2 e f) (0 : Fin 2) : Nat)).toNat
          = (i 0).val := congrArg (fun k : (⟨2, ![M, N]⟩ : Shape).Idx => (k 0).val) hi
      have h1 : ((rowScatter wf).start (ix2 e f) idx (1 : Fin 2) + ((rowScatter wf).window (ix2 e f) (1 : Fin 2) : Nat)).toNat
          = (i 1).val := congrArg (fun k : (⟨2, ![M, N]⟩ : Shape).Idx => (k 1).val) hi
      have a0 := (hall (0 : Fin 2)).1
      rw [s0, w0] at h0 a0
      rw [s1, w1] at h1
      constructor <;> omega
    · exact absurd h (by simp)
  · rintro ⟨h0, h1⟩
    have hall : ∀ a : Fin 2, 0 ≤ (rowScatter wf).start (ix2 e f) idx a + ((rowScatter wf).window (ix2 e f) a : Nat)
        ∧ (rowScatter wf).start (ix2 e f) idx a + ((rowScatter wf).window (ix2 e f) a : Nat) < ((![M, N] : Fin 2 → Nat) a : Nat) := by
      intro a
      match a with
      | ⟨0, _⟩ =>
        show 0 ≤ (rowScatter wf).start (ix2 e f) idx (0 : Fin 2) + ((rowScatter wf).window (ix2 e f) (0 : Fin 2) : Nat)
          ∧ (rowScatter wf).start (ix2 e f) idx (0 : Fin 2) + ((rowScatter wf).window (ix2 e f) (0 : Fin 2) : Nat) < (M : Nat)
        rw [s0, w0]; omega
      | ⟨1, _⟩ =>
        show 0 ≤ (rowScatter wf).start (ix2 e f) idx (1 : Fin 2) + ((rowScatter wf).window (ix2 e f) (1 : Fin 2) : Nat)
          ∧ (rowScatter wf).start (ix2 e f) idx (1 : Fin 2) + ((rowScatter wf).window (ix2 e f) (1 : Fin 2) : Nat) < (N : Nat)
        rw [s1, w1]; omega
    rw [dif_pos hall]
    congr 1
    funext a
    refine Fin.ext ?_
    match a with
    | ⟨0, _⟩ =>
      show ((rowScatter wf).start (ix2 e f) idx (0 : Fin 2) + ((rowScatter wf).window (ix2 e f) (0 : Fin 2) : Nat)).toNat = (i 0).val
      rw [s0, w0]; omega
    | ⟨1, _⟩ =>
      show ((rowScatter wf).start (ix2 e f) idx (1 : Fin 2) + ((rowScatter wf).window (ix2 e f) (1 : Fin 2) : Nat)).toNat = (i 1).val
      rw [s1, w1]; omega

end Scatter

end Rows

end Cert.ReferenceIdeal.RefValue

end
-- ==== Proof.RefLayer.lean ====
/-
  One graph convolution of the reference, as its operations spell it, is the specification's convolution.

  The operations: multiply the node features by the weight matrix; take, for every edge, the product's row of the edge's
  source; scale each taken row by the edge's weight; add each scaled row into the row of the edge's target, starting
  from zeros; add the bias to every row. Entry (c, f) of the result is therefore zero plus the sum, over the edges into
  node c, of the edge's weight times entry f of the product's row of the edge's source, plus the bias's entry f. The
  node numbers read off the edge list are in range by hypothesis, so the wrap of a negative source number and the
  clamp of the row taken change nothing, and no added row is dropped.
-/
import proofs.«172150_j2473901162945_1_alg».proof.Proof.Prologue
import proofs.«172150_j2473901162945_1_alg».proof.Proof.Spec
import proofs.«172150_j2473901162945_1_alg».proof.Proof.RefIndex
import Idealize.ShloMosaic.Lib.StackMember
import Idealize.ShloMosaic.Lib.IdealHost
import Idealize.ShloMosaic.Lib.Pipeline.Value

noncomputable section

namespace Cert.ReferenceIdeal.RefValue

open Cert.ReferenceIdeal Cert.ReferenceIdeal.Gen Cert.Prologue Idealize.ShloMosaic Idealize.ShloMosaic.ValueIdx Finset

/-- A vector of one entry per edge, made a one-column matrix, reads the edge's entry. -/
theorem edgeColumn_apply {α : Type} (h : S396000.BroadcastsInDim S396000x1 (![0] : Fin 1 → Fin 2)) (v : S396000.Idx → α)
    (e : Fin 396000) (z : Fin 1) : broadcastInDim S396000x1 ![0] h v (ix2 e z) = v (ix1 e) :=
  broadcastInDim_apply _ h v _ (ix1 e) (fun a => match a with
    | ⟨0, _⟩ => by show e.val = if (396000 : Nat) = 1 then 0 else e.val; rw [if_neg (by decide)])

/-- A one-column matrix repeated along N columns reads its column. -/
theorem edgeRows_apply {α : Type} {N : Nat} (h : S396000x1.BroadcastsInDim ⟨2, ![396000, N]⟩ (![0, 1] : Fin 2 → Fin 2))
    (u : S396000x1.Idx → α) (e : Fin 396000) (f : Fin N) :
    broadcastInDim ⟨2, ![396000, N]⟩ ![0, 1] h u (ix2 e f) = u (ix2 e 0) :=
  broadcastInDim_apply _ h u _ (ix2 e 0) (fun a => match a with
    | ⟨0, _⟩ => by show e.val = if (396000 : Nat) = 1 then 0 else e.val; rw [if_neg (by decide)]
    | ⟨1, _⟩ => by show (0 : Nat) = if (1 : Nat) = 1 then 0 else f.val; rw [if_pos rfl])

/-- A bias vector made one row and repeated down the 12000 rows reads the bias's entry of the column. -/
theorem biasRows_apply {α : Type} {N : Nat} (hb : (⟨1, ![N]⟩ : Shape).BroadcastsInDim ⟨2, ![1, N]⟩ (![1] : Fin 1 → Fin 2))
    (hr : (⟨2, ![1, N]⟩ : Shape).BroadcastsInDim ⟨2, ![12000, N]⟩ (![0, 1] : Fin 2 → Fin 2))
    (b : (⟨1, ![N]⟩ : Shape).Idx → α) (p : Fin 12000) (q : Fin N) :
    broadcastInDim ⟨2, ![12000, N]⟩ ![0, 1] hr (broadcastInDim ⟨2, ![1, N]⟩ ![1] hb b) (ix2 p q) = b (ix1 q) := by
  have hq : q.val = if N = 1 then 0 else q.val := by
    split
    · have := q.isLt; omega
    · rfl
  rw [broadcastInDim_apply _ hr _ (ix2 p q) (ix2 (0 : Fin 1) q) (fun a => match a with
    | ⟨0, _⟩ => by show (0 : Nat) = if (1 : Nat) = 1 then 0 else p.val; rw [if_pos rfl]
    | ⟨1, _⟩ => hq)]
  exact broadcastInDim_apply _ hb b _ (ix1 q) (fun a => match a with
    | ⟨0, _⟩ => hq)

/-- The zero splat reads zero. -/
theorem zeros_apply {T : Shape} (h : S_.BroadcastsInDim T (![] : Fin 0 → Fin T.rank)) (j : T.Idx) :
    broadcastInDim T ![] h (constant (F := Ideal) S_ .f32 0x00000000#32) j = 0 := by
  rw [broadcastInDim_scalar_apply, constant_apply, Ideal.ofBits_zero_f32]

/-- Indexing's wrap of a negative number leaves a number that is not negative alone. -/
theorem wrap_apply_of_nonneg (v : IVec S396000 32) (i : S396000.Idx) (h : 0 ≤ (v i).toInt) : wrap v i = v i := by
  show Scalar.select (IntOp.cmpi .slt (v i) 0#32) (IntOp.addi (v i) 12000#32) (v i) = v i
  have hs : (v i).slt 0#32 = false := by
    unfold BitVec.slt
    rw [show (0#32 : BitVec 32).toInt = 0 from rfl]
    exact decide_eq_false (not_lt.mpr h)
  have hc : IntOp.cmpi .slt (v i) 0#32 = 0#1 := by
    unfold IntOp.cmpi
    show BitVec.ofBool ((v i).slt 0#32) = 0#1
    rw [hs]; rfl
  rw [hc, select_zero]

/-- The host's matrix product, entry by entry, is the specification's. -/
theorem dot_eq_mm {M K N : Nat} (wf : DotDims.WF ⟨2, ![M, K]⟩ ⟨2, ![K, N]⟩ ⟨2, ![M, N]⟩ [1] [0] [0] [1] [] [])
    (a : FVec Ideal ⟨2, ![M, K]⟩ .f32) (b : FVec Ideal ⟨2, ![K, N]⟩ .f32) :
    Host.dotGeneral (⟨[1], [0], [0], [1], [], [], wf⟩ : DotDims ⟨2, ![M, K]⟩ ⟨2, ![K, N]⟩ ⟨2, ![M, N]⟩) none a b = Cert.Spec.mm a b := by
  funext i
  obtain ⟨p, q, rfl⟩ : ∃ p q, i = ix2 p q := ⟨i 0, i 1, eq_ix2 i⟩
  exact StackMember.dotGeneral_plain_apply none a b p q

/-! ## The aggregation over the edges, for any number N of feature columns -/

section Aggregate
variable {N : Nat}
  (hg : GatherDims.WF ⟨2, ![12000, N]⟩ ⟨2, ![396000, 1]⟩ ⟨2, ![396000, N]⟩ [1] [0] [] [0] [] 1 ![1, N])
  (hs : ScatterDims.WF ⟨2, ![12000, N]⟩ ⟨2, ![396000, 1]⟩ ⟨2, ![396000, N]⟩ [1] [0] [0] 1)
  (hz : S_.BroadcastsInDim ⟨2, ![12000, N]⟩ (![] : Fin 0 → Fin 2))
  (he : S396000x1.BroadcastsInDim ⟨2, ![396000, N]⟩ (![0, 1] : Fin 2 → Fin 2))
  (hb : (⟨1, ![N]⟩ : Shape).BroadcastsInDim ⟨2, ![1, N]⟩ (![1] : Fin 1 → Fin 2))
  (hr : (⟨2, ![1, N]⟩ : Shape).BroadcastsInDim ⟨2, ![12000, N]⟩ (![0, 1] : Fin 2 → Fin 2))

/-- The aggregation as the operations spell it, from the transformed features `hw`: rows taken at the edges' sources,
    scaled by the edges' weights, added into zeros at the edges' targets, plus the bias on every row. -/
def aggregate {F : FTy → Type} [FloatOps F] (ei : IVec S2x384000 32) (hw : FVec F ⟨2, ![12000, N]⟩ .f32)
    (b : FVec F ⟨1, ![N]⟩ .f32) : FVec F ⟨2, ![12000, N]⟩ .f32 :=
  addf
    (Host.scatterAdd (rowScatter hs)
      (broadcastInDim ⟨2, ![12000, N]⟩ ![] hz (constant S_ .f32 0x00000000#32))
      (broadcastInDim S396000x1 ![0] bcast_S396000_S396000x1_0 (colVec ei))
      (mulf
        (broadcastInDim ⟨2, ![396000, N]⟩ ![0, 1] he (broadcastInDim S396000x1 ![0] bcast_S396000_S396000x1_0 (nrmVec ei)))
        (Host.gather (rowGather hg) hw (broadcastInDim S396000x1 ![0] bcast_S396000_S396000x1_0 (wrap (rowVec ei))))))
    (broadcastInDim ⟨2, ![12000, N]⟩ ![0, 1] hr (broadcastInDim ⟨2, ![1, N]⟩ ![1] hb b))

variable (ei : IVec S2x384000 32)
  (hrow : ∀ e : Fin 396000, 0 ≤ (rowVec ei (ix1 e)).toInt ∧ (rowVec ei (ix1 e)).toInt < 12000)
  (hcol : ∀ e : Fin 396000, 0 ≤ (colVec ei (ix1 e)).toInt ∧ (colVec ei (ix1 e)).toInt < 12000)

include hcol in
/-- Entry (e, f) of the scaled rows is added into entry (p, q) exactly when edge e's target is p and f is q. -/
theorem lands_iff (e : Fin 396000) (f : Fin N) (p : Fin 12000) (q : Fin N) :
    (rowScatter hs).resultIdx? (ix2 e f) (broadcastInDim S396000x1 ![0] bcast_S396000_S396000x1_0 (colVec ei)) = some (ix2 p q)
      ↔ (col ei e).val = p.val ∧ f = q := by
  rw [rowScatter_resultIdx_iff, edgeColumn_apply, Fin.ext_iff (a := f)]
  have hc := hcol e
  have hp := p.isLt
  show (colVec ei (ix1 e)).toInt = (p.val : Int) ∧ f.val = q.val ↔ min (colVec ei (ix1 e)).toInt.toNat 11999 = p.val ∧ f.val = q.val
  constructor <;> rintro ⟨h1, h2⟩ <;> exact ⟨by omega, h2⟩

include hrow in
/-- Entry (e, q) of the scaled rows: edge e's weight times entry q of the transformed row of edge e's source. -/
theorem scaled_apply (hw : FVec Ideal ⟨2, ![12000, N]⟩ .f32) (e : Fin 396000) (q : Fin N) :
    mulf (F := Ideal)
        (broadcastInDim ⟨2, ![396000, N]⟩ ![0, 1] he (broadcastInDim S396000x1 ![0] bcast_S396000_S396000x1_0 (nrmVec ei)))
        (Host.gather (rowGather hg) hw (broadcastInDim S396000x1 ![0] bcast_S396000_S396000x1_0 (wrap (rowVec ei)))) (ix2 e q)
      = nrm ei e * hw (ix2 (row ei e) q) := by
  have hB : broadcastInDim S396000x1 ![0] bcast_S396000_S396000x1_0 (wrap (rowVec ei)) (ix2 e (0 : Fin 1))
      = rowVec ei (ix1 e) := by
    rw [edgeColumn_apply, wrap_apply_of_nonneg _ _ (hrow e).1]
  rw [mulf_apply, edgeRows_apply, edgeColumn_apply, rowGather_apply (M := 12000) (by omega)]
  refine congrArg (fun r : Fin 12000 => nrmVec (F := Ideal) ei (ix1 e) * hw (ix2 r q)) (Fin.ext ?_)
  exact congrArg (fun w : BitVec 32 => min w.toInt.toNat 11999) hB

include hrow hcol in
/-- THE AGGREGATION AT AN ENTRY: zero plus the sum over the edges into node p of the edge's weight times entry q of the
    transformed row of the edge's source, plus the bias's entry q. -/
theorem aggregate_apply (hw : FVec Ideal ⟨2, ![12000, N]⟩ .f32) (b : FVec Ideal ⟨1, ![N]⟩ .f32) (p : Fin 12000) (q : Fin N) :
    aggregate (F := Ideal) hg hs hz he hb hr ei hw b (ix2 p q)
      = (0 + ∑ e ∈ univ.filter (fun e : Fin 396000 => (col ei e).val = p.val), nrm ei e * hw (ix2 (row ei e) q)) + b (ix1 q) := by
  unfold aggregate
  rw [addf_apply, biasRows_apply]
  refine congrArg (· + b (ix1 q)) ?_
  unfold Host.scatterAdd
  rw [Ideal.hostScatterAdd_def]
  unfold Ideal.hostScatterAdd
  rw [zeros_apply]
  refine congrArg (0 + ·) ?_
  refine Finset.sum_nbij' (fun j => (j 0 : Fin 396000)) (fun e => ix2 e q) ?_ ?_ ?_ ?_ ?_
  · intro j hj
    obtain ⟨e, f, rfl⟩ : ∃ e f, j = ix2 e f := ⟨j 0, j 1, eq_ix2 j⟩
    exact Finset.mem_filter.mpr ⟨Finset.mem_univ _, ((lands_iff hs ei hcol e f p q).mp (Finset.mem_filter.mp hj).2).1⟩
  · intro e he'
    exact Finset.mem_filter.mpr ⟨Finset.mem_univ _, (lands_iff hs ei hcol e q p q).mpr ⟨(Finset.mem_filter.mp he').2, rfl⟩⟩
  · intro j hj
    obtain ⟨e, f, rfl⟩ : ∃ e f, j = ix2 e f := ⟨j 0, j 1, eq_ix2 j⟩
    obtain rfl := ((lands_iff hs ei hcol e f p q).mp (Finset.mem_filter.mp hj).2).2
    rfl
  · intro e _
    rfl
  · intro j hj
    obtain ⟨e, f, rfl⟩ : ∃ e f, j = ix2 e f := ⟨j 0, j 1, eq_ix2 j⟩
    obtain rfl := ((lands_iff hs ei hcol e f p q).mp (Finset.mem_filter.mp hj).2).2
    exact scaled_apply hg he ei hrow hw e f

include hrow hcol in
/-- ONE CONVOLUTION: the aggregation of the host's matrix product is the specification's convolution over the graph
    read off the edge list. -/
theorem aggregate_dot_eq_conv {K : Nat}
    (wd : DotDims.WF ⟨2, ![12000, K]⟩ ⟨2, ![K, N]⟩ ⟨2, ![12000, N]⟩ [1] [0] [0] [1] [] [])
    (h : FVec Ideal ⟨2, ![12000, K]⟩ .f32) (W : FVec Ideal ⟨2, ![K, N]⟩ .f32) (b : FVec Ideal ⟨1, ![N]⟩ .f32) :
    aggregate (F := Ideal) hg hs hz he hb hr ei
        (Host.dotGeneral (⟨[1], [0], [0], [1], [], [], wd⟩ : DotDims ⟨2, ![12000, K]⟩ ⟨2, ![K, N]⟩ ⟨2, ![12000, N]⟩) none h W) b
      = Cert.Spec.conv (row ei) (col ei) (nrm ei) h W b := by
  funext i
  obtain ⟨p, q, rfl⟩ : ∃ p q, i = ix2 p q := ⟨i 0, i 1, eq_ix2 i⟩
  rw [aggregate_apply hg hs hz he hb hr ei hrow hcol, dot_eq_mm, Cert.Spec.conv_apply]
  simp only [Cert.Spec.mm_apply]

end Aggregate

end Cert.ReferenceIdeal.RefValue

end
-- ==== Proof.RefDecode.lean ====
/-
  The reference's decoder and its maximum with zero, as its operations spell them, are the specification's.

  The decoder multiplies the final node features by their own transpose, so that entry (p, q) of the product is the
  inner product of rows p and q, and then applies, entry by entry, one over one plus the exponential of the negated
  entry: the logistic function. The maximum with zero is taken against an array of zeros.
-/
import proofs.«172150_j2473901162945_1_alg».proof.Proof.Gen.ReferenceIdeal
import proofs.«172150_j2473901162945_1_alg».proof.Proof.Spec
import Idealize.ShloMosaic.Lib.ValueIdx
import Idealize.ShloMosaic.Lib.ValueLayout
import Idealize.ShloMosaic.Lib.IdealHost
import Idealize.ShloMosaic.PureOps.Ideal.Laws

noncomputable section

open scoped BigOperators

namespace Cert.ReferenceIdeal.RefDecode

open Cert.ReferenceIdeal Cert.ReferenceIdeal.Gen Idealize.ShloMosaic Idealize.ShloMosaic.ValueIdx

/-! ## The host's pointwise operations at an index, on the extended reals -/

/-- The host's exponential at an index is the extended reals' exponential of the element. -/
theorem hostExp_apply {s : Shape} {φ : FTy} (a : FVec Ideal s φ) (i : s.Idx) : Host.exp a i = Ideal.exp (a i) := rfl

/-- The host's negation at an index is the negation of the element. -/
theorem hostNegf_apply {s : Shape} {φ : FTy} (a : FVec Ideal s φ) (i : s.Idx) : Host.negf a i = -(a i) := rfl

/-! ## The product of the features with their transpose -/

/-- The left operand's row coordinate is the result's. -/
theorem gram_lhs_row (i : S12000x12000.Idx) (c : dot_S12000x64_S64x12000_S12000x12000_1_0_0_1_n_n.contr.Idx) :
    (dot_S12000x64_S64x12000_S12000x12000_1_0_0_1_n_n.lhsIdx i c 0).val = (i 0).val := by
  unfold DotDims.lhsIdx
  rw [dif_neg (show ¬(0 : Fin S12000x64.rank) ∈ dot_S12000x64_S64x12000_S12000x12000_1_0_0_1_n_n.lhsBatch by decide),
    dif_pos (show (0 : Fin S12000x64.rank) ∈ dot_S12000x64_S64x12000_S12000x12000_1_0_0_1_n_n.lhsNonContracting by decide)]
  rfl

/-- The right operand's column coordinate is the result's. -/
theorem gram_rhs_col (i : S12000x12000.Idx) (c : dot_S12000x64_S64x12000_S12000x12000_1_0_0_1_n_n.contr.Idx) :
    (dot_S12000x64_S64x12000_S12000x12000_1_0_0_1_n_n.rhsIdx i c 1).val = (i 1).val := by
  unfold DotDims.rhsIdx
  rw [dif_neg (show ¬(1 : Fin S64x12000.rank) ∈ dot_S12000x64_S64x12000_S12000x12000_1_0_0_1_n_n.rhsBatch by decide),
    dif_pos (show (1 : Fin S64x12000.rank) ∈ dot_S12000x64_S64x12000_S12000x12000_1_0_0_1_n_n.rhsNonContracting by decide)]
  rfl

/-- Entry (p, q) of the features times their transpose is the inner product of rows p and q. -/
theorem gram_apply (z : FVec Ideal S12000x64 .f32) (p q : Fin 12000) :
    Host.dotGeneral dot_S12000x64_S64x12000_S12000x12000_1_0_0_1_n_n none z
        (transpose S64x12000 [1, 0] z transposes_S12000x64_S64x12000_1_0) (ix2 p q)
      = ∑ k : Fin 64, z (ix2 p k) * z (ix2 q k) := by
  simp only [Host.dotGeneral]
  rw [Ideal.dotGeneral_apply,
    ← Equiv.sum_comp (contrEquiv1 dot_S12000x64_S64x12000_S12000x12000_1_0_0_1_n_n 64 rfl rfl).symm]
  refine Finset.sum_congr rfl fun k _ => ?_
  have hk := contrEquiv1_symm_val dot_S12000x64_S64x12000_S12000x12000_1_0_0_1_n_n 64 rfl rfl k
  have el : dot_S12000x64_S64x12000_S12000x12000_1_0_0_1_n_n.lhsIdx (ix2 p q)
      ((contrEquiv1 dot_S12000x64_S64x12000_S12000x12000_1_0_0_1_n_n 64 rfl rfl).symm k) = ix2 p k :=
    funext fun a => Fin.ext (by
      match a with
      | ⟨0, _⟩ => exact gram_lhs_row _ _
      | ⟨1, _⟩ => exact (dot_S12000x64_S64x12000_S12000x12000_1_0_0_1_n_n.lhsIdx_val_of_single rfl _ _).trans hk)
  have er : dot_S12000x64_S64x12000_S12000x12000_1_0_0_1_n_n.rhsIdx (ix2 p q)
      ((contrEquiv1 dot_S12000x64_S64x12000_S12000x12000_1_0_0_1_n_n 64 rfl rfl).symm k) = ix2 k q :=
    funext fun a => Fin.ext (by
      match a with
      | ⟨0, _⟩ => exact (dot_S12000x64_S64x12000_S12000x12000_1_0_0_1_n_n.rhsIdx_val_of_single rfl _ _).trans hk
      | ⟨1, _⟩ => exact gram_rhs_col _ _)
  rw [el, er, transpose_ix2_apply]

/-! ## The decoder -/

/-- The reference's decoder — one over one plus the exponential of the negated product of the features with their
    transpose — is the logistic function of the rows' inner products. -/
theorem decode_ref (z : FVec Ideal S12000x64 .f32) :
    Host.divf (broadcastInDim S12000x12000 ![] bcast_S_S12000x12000 (constant (F := Ideal) S_ .f32 0x3F800000#32))
        (addf (broadcastInDim S12000x12000 ![] bcast_S_S12000x12000 (constant (F := Ideal) S_ .f32 0x3F800000#32))
          (Host.exp (Host.negf (Host.dotGeneral dot_S12000x64_S64x12000_S12000x12000_1_0_0_1_n_n none z
            (transpose S64x12000 [1, 0] z transposes_S12000x64_S64x12000_1_0)))))
      = Cert.Spec.decode z := by
  funext i
  obtain ⟨p, q, rfl⟩ : ∃ (p q : Fin 12000), i = ix2 p q := ⟨i 0, i 1, eq_ix2 i⟩
  rw [Cert.Spec.decode_apply, hostDivf_apply, addf_apply, broadcastInDim_scalar_apply, constant_apply,
    Ideal.ofBits_one_f32, hostExp_apply, hostNegf_apply, gram_apply]
  rfl

/-! ## The maximum with zero -/

/-- The reference's maximum of an array with an array of zeros is the specification's. -/
theorem relu_ref (h : FVec Ideal S12000x256 .f32) :
    maximumf h (broadcastInDim S12000x256 ![] bcast_S_S12000x256 (constant (F := Ideal) S_ .f32 0x00000000#32))
      = Cert.Spec.relu h := by
  funext i
  rw [maximumf_apply, broadcastInDim_scalar_apply, constant_apply, Ideal.ofBits_zero_f32, Cert.Spec.relu_apply]

end Cert.ReferenceIdeal.RefDecode

end
-- ==== Proof.RefNetwork.lean ====
/-
  The reference's computation from the argument arrays to its result, as its operations spell it, is the
  specification's network over the graph read off the edge list.

  The operations are three convolutions — each a matrix product followed by the aggregation over the edges —, a
  maximum with zero after the first two, and the decoder. Each piece has been identified with the specification's; here
  they are put together.
-/
import proofs.«172150_j2473901162945_1_alg».proof.Proof.RefLayer
import proofs.«172150_j2473901162945_1_alg».proof.Proof.RefDecode

noncomputable section

namespace Cert.ReferenceIdeal.RefValue

open Cert.ReferenceIdeal Cert.ReferenceIdeal.Gen Cert.Prologue Idealize.ShloMosaic Idealize.ShloMosaic.ValueIdx

section Ops
variable {F : FTy → Type} [FloatOps F]

/-- The aggregation over the edges at 256 feature columns, as the operations spell it. -/
def aggregate256 (ei : IVec S2x384000 32) (hw : FVec F S12000x256 .f32) (b : FVec F S256 .f32) : FVec F S12000x256 .f32 :=
  addf (Host.scatterAdd scatter_S12000x256_S396000x1_S396000x256_1_0_0_1 (broadcastInDim S12000x256 ![] bcast_S_S12000x256 (constant S_ .f32 0x00000000#32)) (broadcastInDim S396000x1 ![0] bcast_S396000_S396000x1_0 (colVec ei)) (mulf (broadcastInDim S396000x256 ![0, 1] bcast_S396000x1_S396000x256_0_1 (broadcastInDim S396000x1 ![0] bcast_S396000_S396000x1_0 (nrmVec ei))) (Host.gather gather_S12000x256_S396000x1_S396000x256_1_0_n_n_0_1_1256 hw (broadcastInDim S396000x1 ![0] bcast_S396000_S396000x1_0 (wrap (rowVec ei)))))) (broadcastInDim S12000x256 ![0, 1] bcast_S1x256_S12000x256_0_1 (broadcastInDim S1x256 ![1] bcast_S256_S1x256_1 b))

/-- The aggregation over the edges at 64 feature columns, as the operations spell it. -/
def aggregate64 (ei : IVec S2x384000 32) (hw : FVec F S12000x64 .f32) (b : FVec F S64 .f32) : FVec F S12000x64 .f32 :=
  addf (Host.scatterAdd scatter_S12000x64_S396000x1_S396000x64_1_0_0_1 (broadcastInDim S12000x64 ![] bcast_S_S12000x64 (constant S_ .f32 0x00000000#32)) (broadcastInDim S396000x1 ![0] bcast_S396000_S396000x1_0 (colVec ei)) (mulf (broadcastInDim S396000x64 ![0, 1] bcast_S396000x1_S396000x64_0_1 (broadcastInDim S396000x1 ![0] bcast_S396000_S396000x1_0 (nrmVec ei))) (Host.gather gather_S12000x64_S396000x1_S396000x64_1_0_n_n_0_1_164 hw (broadcastInDim S396000x1 ![0] bcast_S396000_S396000x1_0 (wrap (rowVec ei)))))) (broadcastInDim S12000x64 ![0, 1] bcast_S1x64_S12000x64_0_1 (broadcastInDim S1x64 ![1] bcast_S64_S1x64_1 b))

/-- The nodes' final features, as the operations spell them: product, aggregation, maximum with zero, twice; then
    product and aggregation. -/
def features (ei : IVec S2x384000 32) (x : FVec F S12000x512 .f32) (W1 : FVec F S512x256 .f32) (b1 : FVec F S256 .f32)
    (W2 : FVec F S256x256 .f32) (b2 : FVec F S256 .f32) (Wmu : FVec F S256x64 .f32) (bmu : FVec F S64 .f32) :
    FVec F S12000x64 .f32 :=
  aggregate64 ei (Host.dotGeneral dot_S12000x256_S256x64_S12000x64_1_0_0_1_n_n none (maximumf (aggregate256 ei (Host.dotGeneral dot_S12000x256_S256x256_S12000x256_1_0_0_1_n_n none (maximumf (aggregate256 ei (Host.dotGeneral dot_S12000x512_S512x256_S12000x256_1_0_0_1_n_n none x W1) b1) (broadcastInDim S12000x256 ![] bcast_S_S12000x256 (constant S_ .f32 0x00000000#32))) W2) b2) (broadcastInDim S12000x256 ![] bcast_S_S12000x256 (constant S_ .f32 0x00000000#32))) Wmu) bmu

/-- The decoder, as the operations spell it: one over one plus the exponential of the negated product of the features
    with their transpose. -/
def decoder (z : FVec F S12000x64 .f32) : FVec F S12000x12000 .f32 :=
  Host.divf (broadcastInDim S12000x12000 ![] bcast_S_S12000x12000 (constant S_ .f32 0x3F800000#32)) (addf (broadcastInDim S12000x12000 ![] bcast_S_S12000x12000 (constant S_ .f32 0x3F800000#32)) (Host.exp (Host.negf (Host.dotGeneral dot_S12000x64_S64x12000_S12000x12000_1_0_0_1_n_n none z (transpose S64x12000 [1, 0] z transposes_S12000x64_S64x12000_1_0)))))

/-- The whole computation, as the operations spell it. -/
def network (ei : IVec S2x384000 32) (x : FVec F S12000x512 .f32) (W1 : FVec F S512x256 .f32) (b1 : FVec F S256 .f32)
    (W2 : FVec F S256x256 .f32) (b2 : FVec F S256 .f32) (Wmu : FVec F S256x64 .f32) (bmu : FVec F S64 .f32) :
    FVec F S12000x12000 .f32 :=
  decoder (features ei x W1 b1 W2 b2 Wmu bmu)

end Ops

section Value
variable (ei : IVec S2x384000 32)
  (hrow : ∀ e : Fin 396000, 0 ≤ (rowVec ei (ix1 e)).toInt ∧ (rowVec ei (ix1 e)).toInt < 12000)
  (hcol : ∀ e : Fin 396000, 0 ≤ (colVec ei (ix1 e)).toInt ∧ (colVec ei (ix1 e)).toInt < 12000)

include hrow hcol in
/-- The first convolution, 512 features to 256. -/
theorem conv1_ref (x : FVec Ideal S12000x512 .f32) (W : FVec Ideal S512x256 .f32) (b : FVec Ideal S256 .f32) :
    aggregate256 (F := Ideal) ei (Host.dotGeneral dot_S12000x512_S512x256_S12000x256_1_0_0_1_n_n none x W) b
      = Cert.Spec.conv (row ei) (col ei) (nrm ei) x W b :=
  aggregate_dot_eq_conv (N := 256) (K := 512) gather_S12000x256_S396000x1_S396000x256_1_0_n_n_0_1_1256_wf
    scatter_S12000x256_S396000x1_S396000x256_1_0_0_1_wf bcast_S_S12000x256 bcast_S396000x1_S396000x256_0_1
    bcast_S256_S1x256_1 bcast_S1x256_S12000x256_0_1 ei hrow hcol dot_S12000x512_S512x256_S12000x256_1_0_0_1_n_n_wf x W b

include hrow hcol in
/-- The second convolution, 256 features to 256. -/
theorem conv2_ref (h : FVec Ideal S12000x256 .f32) (W : FVec Ideal S256x256 .f32) (b : FVec Ideal S256 .f32) :
    aggregate256 (F := Ideal) ei (Host.dotGeneral dot_S12000x256_S256x256_S12000x256_1_0_0_1_n_n none h W) b
      = Cert.Spec.conv (row ei) (col ei) (nrm ei) h W b :=
  aggregate_dot_eq_conv (N := 256) (K := 256) gather_S12000x256_S396000x1_S396000x256_1_0_n_n_0_1_1256_wf
    scatter_S12000x256_S396000x1_S396000x256_1_0_0_1_wf bcast_S_S12000x256 bcast_S396000x1_S396000x256_0_1
    bcast_S256_S1x256_1 bcast_S1x256_S12000x256_0_1 ei hrow hcol dot_S12000x256_S256x256_S12000x256_1_0_0_1_n_n_wf h W b

include hrow hcol in
/-- The third convolution, 256 features to 64. -/
theorem conv3_ref (h : FVec Ideal S12000x256 .f32) (W : FVec Ideal S256x64 .f32) (b : FVec Ideal S64 .f32) :
    aggregate64 (F := Ideal) ei (Host.dotGeneral dot_S12000x256_S256x64_S12000x64_1_0_0_1_n_n none h W) b
      = Cert.Spec.conv (row ei) (col ei) (nrm ei) h W b :=
  aggregate_dot_eq_conv (N := 64) (K := 256) gather_S12000x64_S396000x1_S396000x64_1_0_n_n_0_1_164_wf
    scatter_S12000x64_S396000x1_S396000x64_1_0_0_1_wf bcast_S_S12000x64 bcast_S396000x1_S396000x64_0_1
    bcast_S64_S1x64_1 bcast_S1x64_S12000x64_0_1 ei hrow hcol dot_S12000x256_S256x64_S12000x64_1_0_0_1_n_n_wf h W b

include hrow hcol in
/-- THE REFERENCE'S COMPUTATION IS THE SPECIFICATION'S NETWORK. -/
theorem network_eq (x : FVec Ideal S12000x512 .f32) (W1 : FVec Ideal S512x256 .f32) (b1 : FVec Ideal S256 .f32)
    (W2 : FVec Ideal S256x256 .f32) (b2 : FVec Ideal S256 .f32) (Wmu : FVec Ideal S256x64 .f32) (bmu : FVec Ideal S64 .f32) :
    network (F := Ideal) ei x W1 b1 W2 b2 Wmu bmu
      = Cert.Spec.G (row ei) (col ei) (nrm ei) x W1 b1 W2 b2 Wmu bmu := by
  unfold network features decoder Cert.Spec.G Cert.Spec.encode
  rw [conv1_ref ei hrow hcol, RefDecode.relu_ref, conv2_ref ei hrow hcol, RefDecode.relu_ref, conv3_ref ei hrow hcol,
    RefDecode.decode_ref]

end Value

end Cert.ReferenceIdeal.RefValue

end
-- ==== Proof.ReferenceValue.lean ====
/-
  The reference's result array is the specification's network of the argument arrays.

  The reference's run ends with its result at one long term: the operations composed. That term is, piece for piece,
  the computation spelt in the modules before this one — the edge list's sources, targets and weights, three
  convolutions, two maxima with zero and the decoder — so the two are equal by unfolding; and the computation so spelt
  is the specification's network over the graph read off the edge list, provided every node number on the edge list is
  in range.
-/
import proofs.«172150_j2473901162945_1_alg».proof.Proof.ReferenceRun
import proofs.«172150_j2473901162945_1_alg».proof.Proof.RefNetwork

noncomputable section

namespace Cert.ReferenceIdeal.RefValue

open Cert.ReferenceIdeal Cert.ReferenceIdeal.Gen Cert.Prologue Idealize.ShloMosaic Idealize.ShloMosaic.TcCoe Idealize.SL.Sem
  Idealize.ShloMosaic.ValueIdx

set_option maxRecDepth 8192 in
/-- The result's composed term is the computation spelt piece by piece. -/
theorem res_eq_network {F : FTy → Type} [FloatOps F] (m : (ℓ : Loc nD τ sig) → Buf (Elt F) ℓ) (c : Dev nD) :
    HandRun.res_main_v109 (F := F) m c
      = network (F := F) (m ((c.tc : Thread nD τ).loc main_arg1)) (m ((c.tc : Thread nD τ).loc main_arg0)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) (m ((c.tc : Thread nD τ).loc main_arg7)) := by
  unfold HandRun.res_main_v109
  rfl

/-- THE REFERENCE'S RESULT IS THE SPECIFICATION: with every source and target on the edge list (self-loops appended) a
    node number, the result array is the network of the feature matrix, the three weight matrices and the three
    biases over the graph read off the edge list. -/
theorem ref_value (m : (ℓ : Loc nD τ sig) → Buf (Elt Ideal) ℓ) (c : Dev nD)
    (hrow : ∀ e : Fin 396000, 0 ≤ (rowVec (m ((c.tc : Thread nD τ).loc main_arg1)) (ix1 e)).toInt
      ∧ (rowVec (m ((c.tc : Thread nD τ).loc main_arg1)) (ix1 e)).toInt < 12000)
    (hcol : ∀ e : Fin 396000, 0 ≤ (colVec (m ((c.tc : Thread nD τ).loc main_arg1)) (ix1 e)).toInt
      ∧ (colVec (m ((c.tc : Thread nD τ).loc main_arg1)) (ix1 e)).toInt < 12000) :
    HandRun.res_main_v109 (F := Ideal) m c
      = Cert.Spec.G (row (m ((c.tc : Thread nD τ).loc main_arg1))) (col (m ((c.tc : Thread nD τ).loc main_arg1))) (nrm (m ((c.tc : Thread nD τ).loc main_arg1)))
          (m ((c.tc : Thread nD τ).loc main_arg0)) (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) :=
  (res_eq_network m c).trans (network_eq (m ((c.tc : Thread nD τ).loc main_arg1)) hrow hcol _ _ _ _ _ _ _)

end Cert.ReferenceIdeal.RefValue

end
-- ==== Proof.Algebraic.lean ====
/-
  The two idealized programs end with the same result.

  Under the precondition every entry of the edge list is a node number, so the edges' endpoints are nodes and the
  negative-index wrap never applies. The kernel's result is then the specification of the argument arrays (its seven
  regions compose into three dense graph convolutions and the decoder, and the dense form is the edge-list form because
  the edge weights are nonnegative), and the reference's result is the same specification by reading its operations one
  by one. From memories that agree on the arguments the two results are therefore equal, entry by entry.
-/
import proofs.«172150_j2473901162945_1_alg».proof.Defs
import proofs.«172150_j2473901162945_1_alg».proof.Proof.KernelRun
import proofs.«172150_j2473901162945_1_alg».proof.Proof.KernelValue
import proofs.«172150_j2473901162945_1_alg».proof.Proof.Adjacency
import proofs.«172150_j2473901162945_1_alg».proof.Proof.ReferenceRun
import proofs.«172150_j2473901162945_1_alg».proof.Proof.ReferenceValue
import proofs.«172150_j2473901162945_1_alg».proof.Proof.PrologueFacts
import proofs.«172150_j2473901162945_1_alg».proof.Proof.Gen.Kernel
import proofs.«172150_j2473901162945_1_alg».proof.Proof.Gen.KernelIdeal
import proofs.«172150_j2473901162945_1_alg».proof.Proof.Gen.ReferenceIdeal
import proofs.«172150_j2473901162945_1_alg».proof.Proof.Gen.Pre_finite_inputs

set_option maxRecDepth 16384
set_option maxHeartbeats 4000000

noncomputable section

namespace Cert.Proof.Algebraic

open Idealize.ShloMosaic Idealize.ShloMosaic.TcCoe Idealize.ShloMosaic.ValueIdx Idealize.SL.Sem

theorem algebraic : Cert.algebraic_KernelIdeal_ReferenceIdeal := by
  intro m ρ m' ρ' hpre hagree
  -- every entry of the edge list is a node number
  have hin : ∀ c : Dev Cert.KernelIdeal.nD, Cert.Prologue.InRange (m ((c.tc : Thread Cert.KernelIdeal.nD Cert.KernelIdeal.τ).loc Cert.KernelIdeal.main_arg1)) := fun c =>
    Cert.PrologueFacts.inRange_of_pre _ _ _ _ _ _ _ _ _ _ (hpre c)
  have hr := fun (c : Dev Cert.KernelIdeal.nD) (e : Fin 396000) => Cert.PrologueFacts.rowVec_range (m ((c.tc : Thread Cert.KernelIdeal.nD Cert.KernelIdeal.τ).loc Cert.KernelIdeal.main_arg1)) (hin c) e
  have hc := fun (c : Dev Cert.KernelIdeal.nD) (e : Fin 396000) => Cert.PrologueFacts.colVec_range (m ((c.tc : Thread Cert.KernelIdeal.nD Cert.KernelIdeal.τ).loc Cert.KernelIdeal.main_arg1)) (hin c) e
  refine ⟨fun c => Cert.Spec.G (Cert.Prologue.row (m ((c.tc : Thread Cert.KernelIdeal.nD Cert.KernelIdeal.τ).loc Cert.KernelIdeal.main_arg1))) (Cert.Prologue.col (m ((c.tc : Thread Cert.KernelIdeal.nD Cert.KernelIdeal.τ).loc Cert.KernelIdeal.main_arg1))) (Cert.Prologue.nrm (m ((c.tc : Thread Cert.KernelIdeal.nD Cert.KernelIdeal.τ).loc Cert.KernelIdeal.main_arg1)))
      (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · refine (θ_run (Cert.KernelIdeal.defs (F := Ideal)) _ _).mono (fun r h c => ⟨(h c).1.trans ?_, (h c).2⟩) (Cert.KernelIdeal.Run.run_result (F := Ideal) m ρ)
    exact Cert.KernelIdeal.Value.result m ρ c _ _ _ (Cert.PrologueFacts.nrm_nonneg _) (Cert.KernelIdeal.Adjacency.adjacency m ρ c (hr c) (hc c))
  · refine (θ_run (Cert.ReferenceIdeal.defs (F := Ideal)) _ _).mono (fun r h c => ⟨(h c).1.trans ?_, (h c).2⟩) (Cert.ReferenceIdeal.HandRun.run (F := Ideal) m' ρ')
    obtain ⟨a0, a1, a2, a3, a4, a5, a6, a7, a8, a9⟩ := hagree c
    have hr' : ∀ e, 0 ≤ (Cert.Prologue.rowVec (m' ((c.tc : Thread Cert.ReferenceIdeal.nD Cert.ReferenceIdeal.τ).loc Cert.ReferenceIdeal.main_arg1)) (ix1 e)).toInt ∧ (Cert.Prologue.rowVec (m' ((c.tc : Thread Cert.ReferenceIdeal.nD Cert.ReferenceIdeal.τ).loc Cert.ReferenceIdeal.main_arg1)) (ix1 e)).toInt < 12000 := by
      rw [a1]; exact hr c
    have hc' : ∀ e, 0 ≤ (Cert.Prologue.colVec (m' ((c.tc : Thread Cert.ReferenceIdeal.nD Cert.ReferenceIdeal.τ).loc Cert.ReferenceIdeal.main_arg1)) (ix1 e)).toInt ∧ (Cert.Prologue.colVec (m' ((c.tc : Thread Cert.ReferenceIdeal.nD Cert.ReferenceIdeal.τ).loc Cert.ReferenceIdeal.main_arg1)) (ix1 e)).toInt < 12000 := by
      rw [a1]; exact hc c
    rw [Cert.ReferenceIdeal.RefValue.ref_value m' c hr' hc', a0, a1, a2, a3, a4, a5, a6, a7]

end Cert.Proof.Algebraic

end
-- ==== Proof.lean ====
/-
  A graph autoencoder's encoder and inner-product decoder, two ways.

  The kernel builds the dense, symmetrically normalized adjacency matrix of the graph once (a scatter-add of the edge
  weights into a 12000 × 12000 matrix) and runs three graph convolutions and the decoder as seven tiled matrix
  products. The reference runs each convolution edge by edge: it gathers the transformed feature row of every edge's
  source, scales it by the edge's weight and sums into the edge's target. On the extended reals the two agree: the
  dense product against the collected weights is the sum over the edges, because the weights are nonnegative and a
  sum of nonnegative extended reals distributes over a product; narrowing to a shorter float format is the identity;
  a matrix product tiled into blocks is the matrix product; padding by zero rows and cutting the corner back out
  changes nothing; and the kernel's logistic is the reference's 1 / (1 + exp (-x)).

  This holds where every entry of the edge list is a node number, which the precondition states: an entry out of
  range is dropped by the kernel's scatter and clamped by the reference's gather.

  The three frame claims are the two generated frames and the reference's run with its result dropped; the
  idealization rewrote nothing, so `preserves` is trivial.
-/
import proofs.«172150_j2473901162945_1_alg».proof.Defs
import proofs.«172150_j2473901162945_1_alg».proof.Proof.Gen.Kernel
import proofs.«172150_j2473901162945_1_alg».proof.Proof.Gen.Kernel.Skeleton
import proofs.«172150_j2473901162945_1_alg».proof.Proof.Gen.Kernel.Launch
import proofs.«172150_j2473901162945_1_alg».proof.Proof.Gen.Kernel.Points
import proofs.«172150_j2473901162945_1_alg».proof.Proof.Gen.Kernel.Frame
import proofs.«172150_j2473901162945_1_alg».proof.Proof.Gen.KernelIdeal
import proofs.«172150_j2473901162945_1_alg».proof.Proof.Gen.KernelIdeal.Skeleton
import proofs.«172150_j2473901162945_1_alg».proof.Proof.Gen.KernelIdeal.Launch
import proofs.«172150_j2473901162945_1_alg».proof.Proof.Gen.KernelIdeal.Points
import proofs.«172150_j2473901162945_1_alg».proof.Proof.Gen.KernelIdeal.Frame
import proofs.«172150_j2473901162945_1_alg».proof.Proof.Gen.ReferenceIdeal
import proofs.«172150_j2473901162945_1_alg».proof.Proof.Gen.Pre_finite_inputs
import proofs.«172150_j2473901162945_1_alg».proof.Proof.ReferenceRun
import proofs.«172150_j2473901162945_1_alg».proof.Proof.Algebraic
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.HandRun.run (F := Ideal) m ρ)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, Cert.Proof.Algebraic.algebraic⟩

end Cert.Proof

end
